-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x512x1024 : Shape := ⟨3, ![8, 512, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x512x1024 : S_.BroadcastsInDim S8x512x1024 (![] : Fin 0 → Fin S8x512x1024.rank)
  reducesTo_S8x512x1024_S_d0_1_2 : S8x512x1024.ReducesTo [0, 1, 2] S_

variable [Facts]

def fn {F : FTy → Type} [FloatOps F] (main_arg0 : FVec F S8x2048x1024 .f32) (main_arg1 : FVec F S8x512x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x512x1024 .f32 := Host.absf main_arg1
  let main_cst_0 : FVec F S_ .f32 := constant S_ .f32 0x7F800000#32
  let main_v5 : FVec F S8x512x1024 .f32 := broadcastInDim S8x512x1024 ![] bcast_S_S8x512x1024 main_cst_0
  let main_v6 : IVec S8x512x1024 1 := cmpf .olt main_v4 main_v5
  let main_c_1 : IVec S_ 1 := constantI S_ 1 1#1
  let main_v7 : IVec S_ 1 := (fun x v => Host.reduce IntOp.andi x v reducesTo_S8x512x1024_S_d0_1_2 h_S_) main_v6 main_c_1
  let main_v8 : IVec S_ 1 := andi main_v3 main_v7
  main_v8
-- ==== Kernel.lean ====
abbrev S8x2048x1024 : Shape := ⟨3, ![8, 2048, 1024]⟩
abbrev S8x512x1024 : Shape := ⟨3, ![8, 512, 1024]⟩
abbrev S8x2048x2048 : Shape := ⟨3, ![8, 2048, 2048]⟩
abbrev S8x512x2048 : Shape := ⟨3, ![8, 512, 2048]⟩
abbrev S1x256x1024 : Shape := ⟨3, ![1, 256, 1024]⟩
abbrev S1x512x1024 : Shape := ⟨3, ![1, 512, 1024]⟩
abbrev S1x256x2048 : Shape := ⟨3, ![1, 256, 2048]⟩
abbrev S1x512x2048 : Shape := ⟨3, ![1, 512, 2048]⟩
abbrev S1x512 : Shape := ⟨2, ![1, 512]⟩
abbrev S1024x512 : Shape := ⟨2, ![1024, 512]⟩
abbrev S512x1024 : Shape := ⟨2, ![512, 1024]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S512 : Shape := ⟨1, ![512]⟩
abbrev S1024x256 : Shape := ⟨2, ![1024, 256]⟩

abbrev nBuf : Space → Nat
  | .hbm => 4
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S8x512x1024, .f32⟩
  | .hbm, ⟨2, _⟩ => ⟨S8x2048x2048, .f32⟩
  | .hbm, ⟨3, _⟩ => ⟨S8x512x2048, .f32⟩
  | .local _ .vmem, ⟨0, _⟩ => ⟨S1x256x1024, .f32⟩
  | .local _ .vmem, ⟨1, _⟩ => ⟨S1x256x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x256x2048, .f32⟩
  | .local _ .vmem, ⟨5, _⟩ => ⟨S1x256x2048, .f32⟩
  | .local _ .vmem, ⟨6, _⟩ => ⟨S1x512x2048, .f32⟩
  | .local _ .vmem, ⟨7, _⟩ => ⟨S1x512x2048, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S512x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v59 : BitVec 1 := Scalar.cmpi .eq arg1 c7_i32
  let v60 : BitVec 32 := Scalar.extui v59
  let c0_i32_31 : BitVec 32 := 0#32
  let v61 : BitVec 1 := Scalar.cmpi .ne v60 c0_i32_31
  v61

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  packedbf16_S512x1024_S512x1024_0_0 : (Rect.unit (s := S512x1024) ![0, 0] S512x1024.size inb_S512x1024_S512x1024_0_0).PackedRows (EltTy.packing .bf16)
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  transposes_S512x1024_p1_0_S1024x512 : S512x1024.Transposes [1, 0] S1024x512
  reduces_S256x512_S256 : S256x512.Reduces [1] S256
  shapeCasts_S256_S256x1 : S256.ShapeCasts S256x1
  broadcasts_S256x1_S256x512 : S256x1.Broadcasts S256x512
  inb_S1x256x2048_S1x256x1024_0_0_0 : ∀ a, (![0, 0, 0] : Fin 3 → Nat) a + S1x256x1024.size a ≤ S1x256x2048.size a
  shapeCasts_S256x1024_S1x256x1024 : S256x1024.ShapeCasts S1x256x1024
  inb_S1x256x2048_S1x256x1024_0_0_1024 : ∀ a, (![0, 0, 1024] : Fin 3 → Nat) a + S1x256x1024.size a ≤ S1x256x2048.size a
  reduces_S256x512_S512 : S256x512.Reduces [0] S512
  shapeCasts_S512_S1x512 : S512.ShapeCasts S1x512
  broadcasts_S1x512_S256x512 : S1x512.Broadcasts S256x512
  transposes_S256x1024_p1_0_S1024x256 : S256x1024.Transposes [1, 0] S1024x256
  broadcasts_S1x512_S1024x512 : S1x512.Broadcasts S1024x512
  transposes_S1024x512_p1_0_S512x1024 : S1024x512.Transposes [1, 0] S512x1024
  inb_S1x512x2048_S1x512x1024_0_0_0 : ∀ a, (![0, 0, 0] : Fin 3 → Nat) a + S1x512x1024.size a ≤ S1x512x2048.size a
  shapeCasts_S512x1024_S1x512x1024 : S512x1024.ShapeCasts S1x512x1024
  inb_S1x512x2048_S1x512x1024_0_0_1024 : ∀ a, (![0, 0, 1024] : Fin 3 → Nat) a + S1x512x1024.size a ≤ S1x512x2048.size a
  dot_S256x1024_S1024x512_S256x512_1_0_0_1_n_n_wf : DotDims.WF S256x1024 S1024x512 S256x512 [1] [0] [0] [1] [] []
  dot_S256x512_S512x1024_S256x1024_1_0_0_1_n_n_wf : DotDims.WF S256x512 S512x1024 S256x1024 [1] [0] [0] [1] [] []
  dot_S1024x256_S256x512_S1024x512_1_0_0_1_n_n_wf : DotDims.WF S1024x256 S256x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S8x2048x1024.size a
  hwx0_0 : ∀ i : grid0.Coords, EltTy.bits .f32 = 32 ∨ (Rect.block (s := S8x2048x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S8x512x1024.size a
  hwx0_1 : ∀ i : grid0.Coords, EltTy.bits .f32 = 32 ∨ (Rect.block (s := S8x512x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x2048.size a ≤ S8x2048x2048.size a
  hwx0_2 : ∀ i : grid0.Coords, EltTy.bits .f32 = 32 ∨ (Rect.block (s := S8x2048x2048) S1x256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S8x512x2048.size a
  hwx0_3 : ∀ i : grid0.Coords, EltTy.bits .f32 = 32 ∨ (Rect.block (s := S8x512x2048) S1x512x2048.size (cc0_transform_3 i) (hinb0_3 i)).WholeWords (EltTy.packing .f32)

variable [Facts₀]

def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf
def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x256x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S8x512x1024 : Shape := ⟨3, ![8, 512, 1024]⟩
abbrev S8x2048x512 : Shape := ⟨3, ![8, 2048, 512]⟩
abbrev S_ : Shape := ⟨0, ![]⟩
abbrev S8x2048 : Shape := ⟨2, ![8, 2048]⟩
abbrev S8x2048x1 : Shape := ⟨3, ![8, 2048, 1]⟩
abbrev S8x2048x2048 : Shape := ⟨3, ![8, 2048, 2048]⟩
abbrev S8x512 : Shape := ⟨2, ![8, 512]⟩
abbrev S8x1x512 : Shape := ⟨3, ![8, 1, 512]⟩
abbrev S8x512x2048 : Shape := ⟨3, ![8, 512, 2048]⟩

abbrev nBuf : Space → Nat
  | .hbm => 35
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x512x1024, .f32⟩
  | .hbm, ⟨2, _⟩ => ⟨S8x2048x512, .f32⟩
  | .hbm, ⟨3, _⟩ => ⟨S_, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S8x2048x1, .f32⟩
  | .hbm, ⟨9, _⟩ => ⟨S8x2048x512, .f32⟩
  | .hbm, ⟨10, _⟩ => ⟨S8x2048x512, .f32⟩
  | .hbm, ⟨11, _⟩ => ⟨S8x2048x512, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S8x2048x512, .f32⟩
  | .hbm, ⟨16, _⟩ => ⟨S8x2048x512, .f32⟩
  | .hbm, ⟨17, _⟩ => ⟨S8x2048x1024, .f32⟩
  | .hbm, ⟨18, _⟩ => ⟨S8x2048x2048, .f32⟩
  | .hbm, ⟨19, _⟩ => ⟨S_, .f32⟩
  | .hbm, ⟨20, _⟩ => ⟨S8x512, .f32⟩
  | .hbm, ⟨21, _⟩ => ⟨S_, .f32⟩
  | .hbm, ⟨22, _⟩ => ⟨S8x512, .f32⟩
  | .hbm, ⟨23, _⟩ => ⟨S8x512, .f32⟩
  | .hbm, ⟨24, _⟩ => ⟨S8x1x512, .f32⟩
  | .hbm, ⟨25, _⟩ => ⟨S8x2048x512, .f32⟩
  | .hbm, ⟨26, _⟩ => ⟨S8x2048x512, .f32⟩
  | .hbm, ⟨27, _⟩ => ⟨S8x2048x512, .f32⟩
  | .hbm, ⟨28, _⟩ => ⟨S_, .f32⟩
  | .hbm, ⟨29, _⟩ => ⟨S8x512, .f32⟩
  | .hbm, ⟨30, _⟩ => ⟨S8x1x512, .f32⟩
  | .hbm, ⟨31, _⟩ => ⟨S8x2048x512, .f32⟩
  | .hbm, ⟨32, _⟩ => ⟨S8x2048x512, .f32⟩
  | .hbm, ⟨33, _⟩ => ⟨S8x512x1024, .f32⟩
  | .hbm, ⟨34, _⟩ => ⟨S8x512x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]

class Facts₀ : Prop where
  reducesTo_S8x2048x512_S8x2048_d2 : S8x2048x512.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x512_0_1_2 : S8x2048x1.BroadcastsInDim S8x2048x512 (![0, 1, 2] : Fin 3 → Fin S8x2048x512.rank)
  concatenates_S8x2048x1024_S8x2048x1024_S8x2048x2048_d2 : Shape.Concatenates [S8x2048x1024, S8x2048x1024] S8x2048x2048 2
  reducesTo_S8x2048x512_S8x512_d1 : S8x2048x512.ReducesTo [1] S8x512
  bcast_S_S8x512 : S_.BroadcastsInDim S8x512 (![] : Fin 0 → Fin S8x512.rank)
  bcast_S8x512_S8x1x512_0_2 : S8x512.BroadcastsInDim S8x1x512 (![0, 2] : Fin 2 → Fin S8x1x512.rank)
  bcast_S8x1x512_S8x2048x512_0_1_2 : S8x1x512.BroadcastsInDim S8x2048x512 (![0, 1, 2] : Fin 3 → Fin S8x2048x512.rank)
  concatenates_S8x512x1024_S8x512x1024_S8x512x2048_d2 : Shape.Concatenates [S8x512x1024, S8x512x1024] S8x512x2048 2
  dot_S8x2048x1024_S8x512x1024_S8x2048x512_2_2_1_1_0_0_wf : DotDims.WF S8x2048x1024 S8x512x1024 S8x2048x512 [2] [2] [1] [1] [0] [0]
  dot_S8x2048x512_S8x512x1024_S8x2048x1024_2_1_1_2_0_0_wf : DotDims.WF S8x2048x512 S8x512x1024 S8x2048x1024 [2] [1] [1] [2] [0] [0]
  dot_S8x2048x512_S8x2048x1024_S8x512x1024_1_1_2_2_0_0_wf : DotDims.WF S8x2048x512 S8x2048x1024 S8x512x1024 [1] [1] [2] [2] [0] [0]

variable [Facts₀]

def dot_S8x2048x1024_S8x512x1024_S8x2048x512_2_2_1_1_0_0 : DotDims S8x2048x1024 S8x512x1024 S8x2048x512 where
  lhsContracting := [2]
  rhsContracting := [2]
  lhsNonContracting := [1]
  rhsNonContracting := [1]
  lhsBatch := [0]
  rhsBatch := [0]
  wf := dot_S8x2048x1024_S8x512x1024_S8x2048x512_2_2_1_1_0_0_wf
def dot_S8x2048x512_S8x512x1024_S8x2048x1024_2_1_1_2_0_0 : DotDims S8x2048x512 S8x512x1024 S8x2048x1024 where
  lhsContracting := [2]
  rhsContracting := [1]
  lhsNonContracting := [1]
  rhsNonContracting := [2]
  lhsBatch := [0]
  rhsBatch := [0]
  wf := dot_S8x2048x512_S8x512x1024_S8x2048x1024_2_1_1_2_0_0_wf
def dot_S8x2048x512_S8x2048x1024_S8x512x1024_1_1_2_2_0_0 : DotDims S8x2048x512 S8x2048x1024 S8x512x1024 where
  lhsContracting := [1]
  rhsContracting := [1]
  lhsNonContracting := [2]
  rhsNonContracting := [2]
  lhsBatch := [0]
  rhsBatch := [0]
  wf := dot_S8x2048x512_S8x2048x1024_S8x512x1024_1_1_2_2_0_0_wf

class Facts : Prop extends Facts₀ where

variable [Facts]
-- ==== Proof.Pieces.lean ====
import proofs.«144034_j58153857187901_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

/-!
  What each case of the body leaves in the outputs' staging buffers and in the four scratch buffers, as the body's
  own arithmetic (the payloads) of the blocks and of what the scratch held before — at any float instance.

  Writing `step` for one tile's update of the running maximum `M`, the running sum `L` and the accumulator `A`
  against the stored copy `QB` of the query block:  a middle tile leaves `step (M, L, A)`; the first tile leaves
  `step` of the reset values `(-∞, 0, 0)` and stores `QB`; the last tile leaves `step (M, L, A)` and writes
  `[Q | (A' / L')ᵀ]` to the second output.  Every tile writes `[D tile | softmax rows · QB]` to the first output.
-/
namespace Cert.KernelIdeal.Pieces
open Cert.KernelIdeal Cert.KernelIdeal.Gen
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle tile: the running maximum. -/
theorem B_m (c : Dev nD) (i : grid0.Coords) (a2 : Memref sig .tc .vmem S1x256x1024 .f32) (h2 : a2.IsWhole) (a3 : Memref sig .tc .vmem S1x512x1024 .f32) (h3 : a3.IsWhole) (a4 : Memref sig .tc .vmem S1x256x2048 .f32) (h4 : a4.IsWhole) (a5 : Memref sig .tc .vmem S1x512x2048 .f32) (h5 : a5.IsWhole) (a6 : Memref sig .tc .vmem S1x512 .f32) (h6 : a6.IsWhole) (a7 : Memref sig .tc .vmem S1x512 .f32) (h7 : a7.IsWhole) (a8 : Memref sig .tc .vmem S1024x512 .f32) (h8 : a8.IsWhole) (a9 : Memref sig .tc .vmem S512x1024 .bf16) (h9 : a9.IsWhole) (hc0 : ¬cond0_0 i) (hc1 : ¬cond0_1 i) (x0 : Vec F S1x256x1024 .f32) (x1 : Vec F S1x512x1024 .f32) (xs0 xs1 : Vec F S1x512 .f32) (xs2 : Vec F S1024x512 .f32) (xs3 : Vec F S512x1024 .bf16) :
    sout0_B_0 c i a2 h2 a3 h3 a4 h4 a5 h5 a6 h6 a7 h7 a8 h8 a9 h9 hc0 hc1 x0 x1 xs0 xs1 xs2 xs3 = k0_pay5 (k0_pay17 x0 xs3 xs0) := by
  unfold sout0_B_0
  rw [View.read_writes_eq_canon _ _ _ (scover0_B_0 c i a2 h2 a3 h3 a4 h4 a5 h5 a6 h6 a7 h7 a8 h8 a9 h9 hc0 hc1 x0 x1 xs0 xs1 xs2 xs3)]
  unfold kernelRun0_B
  dsimp only
  sl_unfold_words
  rw [View.canon_unit_zero hz2]
  simp only [View.readAt_eq_ld, h2.read_unread, h3.read_unread, h6.read_unread, h7.read_unread, h8.read_unread, h9.read_unread, View.ld_unit_zero (S := S1x512) hz2, View.ld_unit_zero (S := S512x1024) hz2, View.ld_unit_zero (S := S1024x512) hz2, View.ld_unit_zero (S := S1x256x1024) hz3, View.ld_unit_zero (S := S1x512x1024) hz3, View.readCov_unit_zero (S := S1x512) _ hz2, View.readCov_unit_zero (S := S1024x512) _ hz2, View.readCov_unit_zero (S := S512x1024) _ hz2]

/-- A middle tile: the running sum. -/
theorem B_l (c : Dev nD) (i : grid0.Coords) (a2 : Memref sig .tc .vmem S1x256x1024 .f32) (h2 : a2.IsWhole) (a3 : Memref sig .tc .vmem S1x512x1024 .f32) (h3 : a3.IsWhole) (a4 : Memref sig .tc .vmem S1x256x2048 .f32) (h4 : a4.IsWhole) (a5 : Memref sig .tc .vmem S1x512x2048 .f32) (h5 : a5.IsWhole) (a6 : Memref sig .tc .vmem S1x512 .f32) (h6 : a6.IsWhole) (a7 : Memref sig .tc .vmem S1x512 .f32) (h7 : a7.IsWhole) (a8 : Memref sig .tc .vmem S1024x512 .f32) (h8 : a8.IsWhole) (a9 : Memref sig .tc .vmem S512x1024 .bf16) (h9 : a9.IsWhole) (hc0 : ¬cond0_0 i) (hc1 : ¬cond0_1 i) (x0 : Vec F S1x256x1024 .f32) (x1 : Vec F S1x512x1024 .f32) (xs0 xs1 : Vec F S1x512 .f32) (xs2 : Vec F S1024x512 .f32) (xs3 : Vec F S512x1024 .bf16) :
    sout0_B_1 c i a2 h2 a3 h3 a4 h4 a5 h5 a6 h6 a7 h7 a8 h8 a9 h9 hc0 hc1 x0 x1 xs0 xs1 xs2 xs3 = k0_pay3 (k0_pay14 x0 xs3) (k0_pay17 x0 xs3 xs0) xs0 xs1 := by
  unfold sout0_B_1
  rw [View.read_writes_eq_canon _ _ _ (scover0_B_1 c i a2 h2 a3 h3 a4 h4 a5 h5 a6 h6 a7 h7 a8 h8 a9 h9 hc0 hc1 x0 x1 xs0 xs1 xs2 xs3)]
  unfold kernelRun0_B
  dsimp only
  sl_unfold_words
  rw [View.canon_unit_zero hz2]
  simp only [View.readAt_eq_ld, h2.read_unread, h3.read_unread, h6.read_unread, h7.read_unread, h8.read_unread, h9.read_unread, View.ld_unit_zero (S := S1x512) hz2, View.ld_unit_zero (S := S512x1024) hz2, View.ld_unit_zero (S := S1024x512) hz2, View.ld_unit_zero (S := S1x256x1024) hz3, View.ld_unit_zero (S := S1x512x1024) hz3, View.readCov_unit_zero (S := S1x512) _ hz2, View.readCov_unit_zero (S := S1024x512) _ hz2, View.readCov_unit_zero (S := S512x1024) _ hz2]

/-- A middle tile: the accumulator. -/
theorem B_a (c : Dev nD) (i : grid0.Coords) (a2 : Memref sig .tc .vmem S1x256x1024 .f32) (h2 : a2.IsWhole) (a3 : Memref sig .tc .vmem S1x512x1024 .f32) (h3 : a3.IsWhole) (a4 : Memref sig .tc .vmem S1x256x2048 .f32) (h4 : a4.IsWhole) (a5 : Memref sig .tc .vmem S1x512x2048 .f32) (h5 : a5.IsWhole) (a6 : Memref sig .tc .vmem S1x512 .f32) (h6 : a6.IsWhole) (a7 : Memref sig .tc .vmem S1x512 .f32) (h7 : a7.IsWhole) (a8 : Memref sig .tc .vmem S1024x512 .f32) (h8 : a8.IsWhole) (a9 : Memref sig .tc .vmem S512x1024 .bf16) (h9 : a9.IsWhole) (hc0 : ¬cond0_0 i) (hc1 : ¬cond0_1 i) (x0 : Vec F S1x256x1024 .f32) (x1 : Vec F S1x512x1024 .f32) (xs0 xs1 : Vec F S1x512 .f32) (xs2 : Vec F S1024x512 .f32) (xs3 : Vec F S512x1024 .bf16) :
    sout0_B_2 c i a2 h2 a3 h3 a4 h4 a5 h5 a6 h6 a7 h7 a8 h8 a9 h9 hc0 hc1 x0 x1 xs0 xs1 xs2 xs3 = k0_pay4 (k0_pay13 x0) (k0_pay14 x0 xs3) (k0_pay17 x0 xs3 xs0) xs0 xs2 := by
  unfold sout0_B_2
  rw [View.read_writes_eq_canon _ _ _ (scover0_B_2 c i a2 h2 a3 h3 a4 h4 a5 h5 a6 h6 a7 h7 a8 h8 a9 h9 hc0 hc1 x0 x1 xs0 xs1 xs2 xs3)]
  unfold kernelRun0_B
  dsimp only
  sl_unfold_words
  rw [View.canon_unit_zero hz2]
  simp only [View.readAt_eq_ld, h2.read_unread, h3.read_unread, h6.read_unread, h7.read_unread, h8.read_unread, h9.read_unread, View.ld_unit_zero (S := S1x512) hz2, View.ld_unit_zero (S := S512x1024) hz2, View.ld_unit_zero (S := S1024x512) hz2, View.ld_unit_zero (S := S1x256x1024) hz3, View.ld_unit_zero (S := S1x512x1024) hz3, View.readCov_unit_zero (S := S1x512) _ hz2, View.readCov_unit_zero (S := S1024x512) _ hz2, View.readCov_unit_zero (S := S512x1024) _ hz2]

/-- A middle tile: the first output's block, its two column halves. -/
theorem B_o2 (c : Dev nD) (i : grid0.Coords) (a2 : Memref sig .tc .vmem S1x256x1024 .f32) (h2 : a2.IsWhole) (a3 : Memref sig .tc .vmem S1x512x1024 .f32) (h3 : a3.IsWhole) (a4 : Memref sig .tc .vmem S1x256x2048 .f32) (h4 : a4.IsWhole) (a5 : Memref sig .tc .vmem S1x512x2048 .f32) (h5 : a5.IsWhole) (a6 : Memref sig .tc .vmem S1x512 .f32) (h6 : a6.IsWhole) (a7 : Memref sig .tc .vmem S1x512 .f32) (h7 : a7.IsWhole) (a8 : Memref sig .tc .vmem S1024x512 .f32) (h8 : a8.IsWhole) (a9 : Memref sig .tc .vmem S512x1024 .bf16) (h9 : a9.IsWhole) (hc0 : ¬cond0_0 i) (hc1 : ¬cond0_1 i) (x0 : Vec F S1x256x1024 .f32) (x1 : Vec F S1x512x1024 .f32) (xs0 xs1 : Vec F S1x512 .f32) (xs2 : Vec F S1024x512 .f32) (xs3 : Vec F S512x1024 .bf16) :
    out0_B_2 c i a2 h2 a3 h3 a4 h4 a5 h5 a6 h6 a7 h7 a8 h8 a9 h9 hc0 hc1 x0 x1 xs0 xs1 xs2 xs3 = View.canon [⟨Rect.unit (s := S1x256x2048) ![0, 0, 1024] S1x256x1024.size inb_S1x256x2048_S1x256x1024_0_0_1024, k0_pay16 x0 xs3⟩, ⟨Rect.unit (s := S1x256x2048) ![0, 0, 0] S1x256x1024.size inb_S1x256x2048_S1x256x1024_0_0_0, k0_pay15 x0⟩] := by
  unfold out0_B_2
  rw [View.read_writes_eq_canon _ _ _ (cover0_B_2 c i a2 h2 a3 h3 a4 h4 a5 h5 a6 h6 a7 h7 a8 h8 a9 h9 hc0 hc1 x0 x1 xs0 xs1 xs2 xs3)]
  unfold kernelRun0_B
  dsimp only
  sl_unfold_words
  skip
  simp only [View.readAt_eq_ld, h2.read_unread, h3.read_unread, h6.read_unread, h7.read_unread, h8.read_unread, h9.read_unread, View.ld_unit_zero (S := S1x512) hz2, View.ld_unit_zero (S := S512x1024) hz2, View.ld_unit_zero (S := S1024x512) hz2, View.ld_unit_zero (S := S1x256x1024) hz3, View.ld_unit_zero (S := S1x512x1024) hz3, View.readCov_unit_zero (S := S1x512) _ hz2, View.readCov_unit_zero (S := S1024x512) _ hz2, View.readCov_unit_zero (S := S512x1024) _ hz2]

/-- The last tile: the running maximum. -/
theorem C_m (c : Dev nD) (i : grid0.Coords) (a2 : Memref sig .tc .vmem S1x256x1024 .f32) (h2 : a2.IsWhole) (a3 : Memref sig .tc .vmem S1x512x1024 .f32) (h3 : a3.IsWhole) (a4 : Memref sig .tc .vmem S1x256x2048 .f32) (h4 : a4.IsWhole) (a5 : Memref sig .tc .vmem S1x512x2048 .f32) (h5 : a5.IsWhole) (a6 : Memref sig .tc .vmem S1x512 .f32) (h6 : a6.IsWhole) (a7 : Memref sig .tc .vmem S1x512 .f32) (h7 : a7.IsWhole) (a8 : Memref sig .tc .vmem S1024x512 .f32) (h8 : a8.IsWhole) (a9 : Memref sig .tc .vmem S512x1024 .bf16) (h9 : a9.IsWhole) (hc0 : ¬cond0_0 i) (hc1 : cond0_1 i) (x0 : Vec F S1x256x1024 .f32) (x1 : Vec F S1x512x1024 .f32) (xs0 xs1 : Vec F S1x512 .f32) (xs2 : Vec F S1024x512 .f32) (xs3 : Vec F S512x1024 .bf16) :
    sout0_C_0 c i a2 h2 a3 h3 a4 h4 a5 h5 a6 h6 a7 h7 a8 h8 a9 h9 hc0 hc1 x0 x1 xs0 xs1 xs2 xs3 = k0_pay5 (k0_pay17 x0 xs3 xs0) := by
  unfold sout0_C_0
  rw [View.read_writes_eq_canon _ _ _ (scover0_C_0 c i a2 h2 a3 h3 a4 h4 a5 h5 a6 h6 a7 h7 a8 h8 a9 h9 hc0 hc1 x0 x1 xs0 xs1 xs2 xs3)]
  unfold kernelRun0_C
  dsimp only
  sl_unfold_words
  rw [View.canon_unit_zero hz2]
  simp only [View.readAt_eq_ld, h2.read_unread, h3.read_unread, h6.read_unread, h7.read_unread, h8.read_unread, h9.read_unread, View.ld_unit_zero (S := S1x512) hz2, View.ld_unit_zero (S := S512x1024) hz2, View.ld_unit_zero (S := S1024x512) hz2, View.ld_unit_zero (S := S1x256x1024) hz3, View.ld_unit_zero (S := S1x512x1024) hz3, View.readCov_unit_zero (S := S1x512) _ hz2, View.readCov_unit_zero (S := S1024x512) _ hz2, View.readCov_unit_zero (S := S512x1024) _ hz2]

/-- The last tile: the running sum. -/
theorem C_l (c : Dev nD) (i : grid0.Coords) (a2 : Memref sig .tc .vmem S1x256x1024 .f32) (h2 : a2.IsWhole) (a3 : Memref sig .tc .vmem S1x512x1024 .f32) (h3 : a3.IsWhole) (a4 : Memref sig .tc .vmem S1x256x2048 .f32) (h4 : a4.IsWhole) (a5 : Memref sig .tc .vmem S1x512x2048 .f32) (h5 : a5.IsWhole) (a6 : Memref sig .tc .vmem S1x512 .f32) (h6 : a6.IsWhole) (a7 : Memref sig .tc .vmem S1x512 .f32) (h7 : a7.IsWhole) (a8 : Memref sig .tc .vmem S1024x512 .f32) (h8 : a8.IsWhole) (a9 : Memref sig .tc .vmem S512x1024 .bf16) (h9 : a9.IsWhole) (hc0 : ¬cond0_0 i) (hc1 : cond0_1 i) (x0 : Vec F S1x256x1024 .f32) (x1 : Vec F S1x512x1024 .f32) (xs0 xs1 : Vec F S1x512 .f32) (xs2 : Vec F S1024x512 .f32) (xs3 : Vec F S512x1024 .bf16) :
    sout0_C_1 c i a2 h2 a3 h3 a4 h4 a5 h5 a6 h6 a7 h7 a8 h8 a9 h9 hc0 hc1 x0 x1 xs0 xs1 xs2 xs3 = k0_pay3 (k0_pay14 x0 xs3) (k0_pay17 x0 xs3 xs0) xs0 xs1 := by
  unfold sout0_C_1
  rw [View.read_writes_eq_canon _ _ _ (scover0_C_1 c i a2 h2 a3 h3 a4 h4 a5 h5 a6 h6 a7 h7 a8 h8 a9 h9 hc0 hc1 x0 x1 xs0 xs1 xs2 xs3)]
  unfold kernelRun0_C
  dsimp only
  sl_unfold_words
  rw [View.canon_unit_zero hz2]
  simp only [View.readAt_eq_ld, h2.read_unread, h3.read_unread, h6.read_unread, h7.read_unread, h8.read_unread, h9.read_unread, View.ld_unit_zero (S := S1x512) hz2, View.ld_unit_zero (S := S512x1024) hz2, View.ld_unit_zero (S := S1024x512) hz2, View.ld_unit_zero (S := S1x256x1024) hz3, View.ld_unit_zero (S := S1x512x1024) hz3, View.readCov_unit_zero (S := S1x512) _ hz2, View.readCov_unit_zero (S := S1024x512) _ hz2, View.readCov_unit_zero (S := S512x1024) _ hz2]

/-- The last tile: the accumulator. -/
theorem C_a (c : Dev nD) (i : grid0.Coords) (a2 : Memref sig .tc .vmem S1x256x1024 .f32) (h2 : a2.IsWhole) (a3 : Memref sig .tc .vmem S1x512x1024 .f32) (h3 : a3.IsWhole) (a4 : Memref sig .tc .vmem S1x256x2048 .f32) (h4 : a4.IsWhole) (a5 : Memref sig .tc .vmem S1x512x2048 .f32) (h5 : a5.IsWhole) (a6 : Memref sig .tc .vmem S1x512 .f32) (h6 : a6.IsWhole) (a7 : Memref sig .tc .vmem S1x512 .f32) (h7 : a7.IsWhole) (a8 : Memref sig .tc .vmem S1024x512 .f32) (h8 : a8.IsWhole) (a9 : Memref sig .tc .vmem S512x1024 .bf16) (h9 : a9.IsWhole) (hc0 : ¬cond0_0 i) (hc1 : cond0_1 i) (x0 : Vec F S1x256x1024 .f32) (x1 : Vec F S1x512x1024 .f32) (xs0 xs1 : Vec F S1x512 .f32) (xs2 : Vec F S1024x512 .f32) (xs3 : Vec F S512x1024 .bf16) :
    sout0_C_2 c i a2 h2 a3 h3 a4 h4 a5 h5 a6 h6 a7 h7 a8 h8 a9 h9 hc0 hc1 x0 x1 xs0 xs1 xs2 xs3 = k0_pay4 (k0_pay13 x0) (k0_pay14 x0 xs3) (k0_pay17 x0 xs3 xs0) xs0 xs2 := by
  unfold sout0_C_2
  rw [View.read_writes_eq_canon _ _ _ (scover0_C_2 c i a2 h2 a3 h3 a4 h4 a5 h5 a6 h6 a7 h7 a8 h8 a9 h9 hc0 hc1 x0 x1 xs0 xs1 xs2 xs3)]
  unfold kernelRun0_C
  dsimp only
  sl_unfold_words
  rw [View.canon_unit_zero hz2]
  simp only [View.readAt_eq_ld, h2.read_unread, h3.read_unread, h6.read_unread, h7.read_unread, h8.read_unread, h9.read_unread, View.ld_unit_zero (S := S1x512) hz2, View.ld_unit_zero (S := S512x1024) hz2, View.ld_unit_zero (S := S1024x512) hz2, View.ld_unit_zero (S := S1x256x1024) hz3, View.ld_unit_zero (S := S1x512x1024) hz3, View.readCov_unit_zero (S := S1x512) _ hz2, View.readCov_unit_zero (S := S1024x512) _ hz2, View.readCov_unit_zero (S := S512x1024) _ hz2]

/-- The last tile: the first output's block. -/
theorem C_o2 (c : Dev nD) (i : grid0.Coords) (a2 : Memref sig .tc .vmem S1x256x1024 .f32) (h2 : a2.IsWhole) (a3 : Memref sig .tc .vmem S1x512x1024 .f32) (h3 : a3.IsWhole) (a4 : Memref sig .tc .vmem S1x256x2048 .f32) (h4 : a4.IsWhole) (a5 : Memref sig .tc .vmem S1x512x2048 .f32) (h5 : a5.IsWhole) (a6 : Memref sig .tc .vmem S1x512 .f32) (h6 : a6.IsWhole) (a7 : Memref sig .tc .vmem S1x512 .f32) (h7 : a7.IsWhole) (a8 : Memref sig .tc .vmem S1024x512 .f32) (h8 : a8.IsWhole) (a9 : Memref sig .tc .vmem S512x1024 .bf16) (h9 : a9.IsWhole) (hc0 : ¬cond0_0 i) (hc1 : cond0_1 i) (x0 : Vec F S1x256x1024 .f32) (x1 : Vec F S1x512x1024 .f32) (xs0 xs1 : Vec F S1x512 .f32) (xs2 : Vec F S1024x512 .f32) (xs3 : Vec F S512x1024 .bf16) :
    out0_C_2 c i a2 h2 a3 h3 a4 h4 a5 h5 a6 h6 a7 h7 a8 h8 a9 h9 hc0 hc1 x0 x1 xs0 xs1 xs2 xs3 = View.canon [⟨Rect.unit (s := S1x256x2048) ![0, 0, 1024] S1x256x1024.size inb_S1x256x2048_S1x256x1024_0_0_1024, k0_pay16 x0 xs3⟩, ⟨Rect.unit (s := S1x256x2048) ![0, 0, 0] S1x256x1024.size inb_S1x256x2048_S1x256x1024_0_0_0, k0_pay15 x0⟩] := by
  unfold out0_C_2
  rw [View.read_writes_eq_canon _ _ _ (cover0_C_2 c i a2 h2 a3 h3 a4 h4 a5 h5 a6 h6 a7 h7 a8 h8 a9 h9 hc0 hc1 x0 x1 xs0 xs1 xs2 xs3)]
  unfold kernelRun0_C
  dsimp only
  sl_unfold_words
  skip
  simp only [View.readAt_eq_ld, h2.read_unread, h3.read_unread, h6.read_unread, h7.read_unread, h8.read_unread, h9.read_unread, View.ld_unit_zero (S := S1x512) hz2, View.ld_unit_zero (S := S512x1024) hz2, View.ld_unit_zero (S := S1024x512) hz2, View.ld_unit_zero (S := S1x256x1024) hz3, View.ld_unit_zero (S := S1x512x1024) hz3, View.readCov_unit_zero (S := S1x512) _ hz2, View.readCov_unit_zero (S := S1024x512) _ hz2, View.readCov_unit_zero (S := S512x1024) _ hz2]

/-- The last tile: the second output's block, the query block beside the normalised accumulator transposed. -/
theorem C_o3 (c : Dev nD) (i : grid0.Coords) (a2 : Memref sig .tc .vmem S1x256x1024 .f32) (h2 : a2.IsWhole) (a3 : Memref sig .tc .vmem S1x512x1024 .f32) (h3 : a3.IsWhole) (a4 : Memref sig .tc .vmem S1x256x2048 .f32) (h4 : a4.IsWhole) (a5 : Memref sig .tc .vmem S1x512x2048 .f32) (h5 : a5.IsWhole) (a6 : Memref sig .tc .vmem S1x512 .f32) (h6 : a6.IsWhole) (a7 : Memref sig .tc .vmem S1x512 .f32) (h7 : a7.IsWhole) (a8 : Memref sig .tc .vmem S1024x512 .f32) (h8 : a8.IsWhole) (a9 : Memref sig .tc .vmem S512x1024 .bf16) (h9 : a9.IsWhole) (hc0 : ¬cond0_0 i) (hc1 : cond0_1 i) (x0 : Vec F S1x256x1024 .f32) (x1 : Vec F S1x512x1024 .f32) (xs0 xs1 : Vec F S1x512 .f32) (xs2 : Vec F S1024x512 .f32) (xs3 : Vec F S512x1024 .bf16) :
    out0_C_3 c i a2 h2 a3 h3 a4 h4 a5 h5 a6 h6 a7 h7 a8 h8 a9 h9 hc0 hc1 x0 x1 xs0 xs1 xs2 xs3 = View.canon [⟨Rect.unit (s := S1x512x2048) ![0, 0, 1024] S1x512x1024.size inb_S1x512x2048_S1x512x1024_0_0_1024, k0_pay7 (k0_pay4 (k0_pay13 x0) (k0_pay14 x0 xs3) (k0_pay17 x0 xs3 xs0) xs0 xs2) (k0_pay3 (k0_pay14 x0 xs3) (k0_pay17 x0 xs3 xs0) xs0 xs1)⟩, ⟨Rect.unit (s := S1x512x2048) ![0, 0, 0] S1x512x1024.size inb_S1x512x2048_S1x512x1024_0_0_0, k0_pay6 x1⟩] := by
  unfold out0_C_3
  rw [View.read_writes_eq_canon _ _ _ (cover0_C_3 c i a2 h2 a3 h3 a4 h4 a5 h5 a6 h6 a7 h7 a8 h8 a9 h9 hc0 hc1 x0 x1 xs0 xs1 xs2 xs3)]
  unfold kernelRun0_C
  dsimp only
  sl_unfold_words
  skip
  simp only [View.readAt_eq_ld, h2.read_unread, h3.read_unread, h6.read_unread, h7.read_unread, h8.read_unread, h9.read_unread, View.ld_unit_zero (S := S1x512) hz2, View.ld_unit_zero (S := S512x1024) hz2, View.ld_unit_zero (S := S1024x512) hz2, View.ld_unit_zero (S := S1x256x1024) hz3, View.ld_unit_zero (S := S1x512x1024) hz3, View.readCov_unit_zero (S := S1x512) _ hz2, View.readCov_unit_zero (S := S1024x512) _ hz2, View.readCov_unit_zero (S := S512x1024) _ hz2]

/-- The first tile: the running maximum, from the reset value. -/
theorem A_m (c : Dev nD) (i : grid0.Coords) (a2 : Memref sig .tc .vmem S1x256x1024 .f32) (h2 : a2.IsWhole) (a3 : Memref sig .tc .vmem S1x512x1024 .f32) (h3 : a3.IsWhole) (a4 : Memref sig .tc .vmem S1x256x2048 .f32) (h4 : a4.IsWhole) (a5 : Memref sig .tc .vmem S1x512x2048 .f32) (h5 : a5.IsWhole) (a6 : Memref sig .tc .vmem S1x512 .f32) (h6 : a6.IsWhole) (a7 : Memref sig .tc .vmem S1x512 .f32) (h7 : a7.IsWhole) (a8 : Memref sig .tc .vmem S1024x512 .f32) (h8 : a8.IsWhole) (a9 : Memref sig .tc .vmem S512x1024 .bf16) (h9 : a9.IsWhole) (hc0 : cond0_0 i) (hc1 : ¬cond0_1 i) (x0 : Vec F S1x256x1024 .f32) (x1 : Vec F S1x512x1024 .f32) :
    sout0_A_0 c i a2 h2 a3 h3 a4 h4 a5 h5 a6 h6 a7 h7 a8 h8 a9 h9 hc0 hc1 x0 x1 = k0_pay5 (k0_pay17 x0 (k0_pay11 x1) k0_pay8) := by
  unfold sout0_A_0
  rw [View.read_writes_eq_canon _ _ _ (scover0_A_0 c i a2 h2 a3 h3 a4 h4 a5 h5 a6 h6 a7 h7 a8 h8 a9 h9 hc0 hc1 x0 x1)]
  unfold kernelRun0_A
  dsimp only
  sl_unfold_words
  rw [View.canon_cons_unit_zero hz2]
  simp only [View.readAt_eq_ld, h2.read_unread, h3.read_unread, h6.read_unread, h7.read_unread, h8.read_unread, h9.read_unread, View.ld_unit_zero (S := S1x512) hz2, View.ld_unit_zero (S := S512x1024) hz2, View.ld_unit_zero (S := S1024x512) hz2, View.ld_unit_zero (S := S1x256x1024) hz3, View.ld_unit_zero (S := S1x512x1024) hz3, View.readCov_unit_zero (S := S1x512) _ hz2, View.readCov_unit_zero (S := S1024x512) _ hz2, View.readCov_unit_zero (S := S512x1024) _ hz2]

/-- The first tile: the running sum, from the reset values. -/
theorem A_l (c : Dev nD) (i : grid0.Coords) (a2 : Memref sig .tc .vmem S1x256x1024 .f32) (h2 : a2.IsWhole) (a3 : Memref sig .tc .vmem S1x512x1024 .f32) (h3 : a3.IsWhole) (a4 : Memref sig .tc .vmem S1x256x2048 .f32) (h4 : a4.IsWhole) (a5 : Memref sig .tc .vmem S1x512x2048 .f32) (h5 : a5.IsWhole) (a6 : Memref sig .tc .vmem S1x512 .f32) (h6 : a6.IsWhole) (a7 : Memref sig .tc .vmem S1x512 .f32) (h7 : a7.IsWhole) (a8 : Memref sig .tc .vmem S1024x512 .f32) (h8 : a8.IsWhole) (a9 : Memref sig .tc .vmem S512x1024 .bf16) (h9 : a9.IsWhole) (hc0 : cond0_0 i) (hc1 : ¬cond0_1 i) (x0 : Vec F S1x256x1024 .f32) (x1 : Vec F S1x512x1024 .f32) :
    sout0_A_1 c i a2 h2 a3 h3 a4 h4 a5 h5 a6 h6 a7 h7 a8 h8 a9 h9 hc0 hc1 x0 x1 = k0_pay3 (k0_pay14 x0 (k0_pay11 x1)) (k0_pay17 x0 (k0_pay11 x1) k0_pay8) k0_pay8 k0_pay9 := by
  unfold sout0_A_1
  rw [View.read_writes_eq_canon _ _ _ (scover0_A_1 c i a2 h2 a3 h3 a4 h4 a5 h5 a6 h6 a7 h7 a8 h8 a9 h9 hc0 hc1 x0 x1)]
  unfold kernelRun0_A
  dsimp only
  sl_unfold_words
  rw [View.canon_cons_unit_zero hz2]
  simp only [View.readAt_eq_ld, h2.read_unread, h3.read_unread, h6.read_unread, h7.read_unread, h8.read_unread, h9.read_unread, View.ld_unit_zero (S := S1x512) hz2, View.ld_unit_zero (S := S512x1024) hz2, View.ld_unit_zero (S := S1024x512) hz2, View.ld_unit_zero (S := S1x256x1024) hz3, View.ld_unit_zero (S := S1x512x1024) hz3, View.readCov_unit_zero (S := S1x512) _ hz2, View.readCov_unit_zero (S := S1024x512) _ hz2, View.readCov_unit_zero (S := S512x1024) _ hz2]

/-- The first tile: the accumulator, from the reset values. -/
theorem A_a (c : Dev nD) (i : grid0.Coords) (a2 : Memref sig .tc .vmem S1x256x1024 .f32) (h2 : a2.IsWhole) (a3 : Memref sig .tc .vmem S1x512x1024 .f32) (h3 : a3.IsWhole) (a4 : Memref sig .tc .vmem S1x256x2048 .f32) (h4 : a4.IsWhole) (a5 : Memref sig .tc .vmem S1x512x2048 .f32) (h5 : a5.IsWhole) (a6 : Memref sig .tc .vmem S1x512 .f32) (h6 : a6.IsWhole) (a7 : Memref sig .tc .vmem S1x512 .f32) (h7 : a7.IsWhole) (a8 : Memref sig .tc .vmem S1024x512 .f32) (h8 : a8.IsWhole) (a9 : Memref sig .tc .vmem S512x1024 .bf16) (h9 : a9.IsWhole) (hc0 : cond0_0 i) (hc1 : ¬cond0_1 i) (x0 : Vec F S1x256x1024 .f32) (x1 : Vec F S1x512x1024 .f32) :
    sout0_A_2 c i a2 h2 a3 h3 a4 h4 a5 h5 a6 h6 a7 h7 a8 h8 a9 h9 hc0 hc1 x0 x1 = k0_pay4 (k0_pay13 x0) (k0_pay14 x0 (k0_pay11 x1)) (k0_pay17 x0 (k0_pay11 x1) k0_pay8) k0_pay8 k0_pay10 := by
  unfold sout0_A_2
  rw [View.read_writes_eq_canon _ _ _ (scover0_A_2 c i a2 h2 a3 h3 a4 h4 a5 h5 a6 h6 a7 h7 a8 h8 a9 h9 hc0 hc1 x0 x1)]
  unfold kernelRun0_A
  dsimp only
  sl_unfold_words
  rw [View.canon_cons_unit_zero hz2]
  simp only [View.readAt_eq_ld, h2.read_unread, h3.read_unread, h6.read_unread, h7.read_unread, h8.read_unread, h9.read_unread, View.ld_unit_zero (S := S1x512) hz2, View.ld_unit_zero (S := S512x1024) hz2, View.ld_unit_zero (S := S1024x512) hz2, View.ld_unit_zero (S := S1x256x1024) hz3, View.ld_unit_zero (S := S1x512x1024) hz3, View.readCov_unit_zero (S := S1x512) _ hz2, View.readCov_unit_zero (S := S1024x512) _ hz2, View.readCov_unit_zero (S := S512x1024) _ hz2]

/-- The first tile stores the query block's copy. -/
theorem A_qb (c : Dev nD) (i : grid0.Coords) (a2 : Memref sig .tc .vmem S1x256x1024 .f32) (h2 : a2.IsWhole) (a3 : Memref sig .tc .vmem S1x512x1024 .f32) (h3 : a3.IsWhole) (a4 : Memref sig .tc .vmem S1x256x2048 .f32) (h4 : a4.IsWhole) (a5 : Memref sig .tc .vmem S1x512x2048 .f32) (h5 : a5.IsWhole) (a6 : Memref sig .tc .vmem S1x512 .f32) (h6 : a6.IsWhole) (a7 : Memref sig .tc .vmem S1x512 .f32) (h7 : a7.IsWhole) (a8 : Memref sig .tc .vmem S1024x512 .f32) (h8 : a8.IsWhole) (a9 : Memref sig .tc .vmem S512x1024 .bf16) (h9 : a9.IsWhole) (hc0 : cond0_0 i) (hc1 : ¬cond0_1 i) (x0 : Vec F S1x256x1024 .f32) (x1 : Vec F S1x512x1024 .f32) :
    sout0_A_3 c i a2 h2 a3 h3 a4 h4 a5 h5 a6 h6 a7 h7 a8 h8 a9 h9 hc0 hc1 x0 x1 = k0_pay11 x1 := by
  unfold sout0_A_3
  rw [View.read_writes_eq_canon _ _ _ (scover0_A_3 c i a2 h2 a3 h3 a4 h4 a5 h5 a6 h6 a7 h7 a8 h8 a9 h9 hc0 hc1 x0 x1)]
  unfold kernelRun0_A
  dsimp only
  sl_unfold_words
  rw [View.canon_unit_zero hz2]
  simp only [View.readAt_eq_ld, h2.read_unread, h3.read_unread, h6.read_unread, h7.read_unread, h8.read_unread, h9.read_unread, View.ld_unit_zero (S := S1x512) hz2, View.ld_unit_zero (S := S512x1024) hz2, View.ld_unit_zero (S := S1024x512) hz2, View.ld_unit_zero (S := S1x256x1024) hz3, View.ld_unit_zero (S := S1x512x1024) hz3, View.readCov_unit_zero (S := S1x512) _ hz2, View.readCov_unit_zero (S := S1024x512) _ hz2, View.readCov_unit_zero (S := S512x1024) _ hz2]

/-- The first tile: the first output's block. -/
theorem A_o2 (c : Dev nD) (i : grid0.Coords) (a2 : Memref sig .tc .vmem S1x256x1024 .f32) (h2 : a2.IsWhole) (a3 : Memref sig .tc .vmem S1x512x1024 .f32) (h3 : a3.IsWhole) (a4 : Memref sig .tc .vmem S1x256x2048 .f32) (h4 : a4.IsWhole) (a5 : Memref sig .tc .vmem S1x512x2048 .f32) (h5 : a5.IsWhole) (a6 : Memref sig .tc .vmem S1x512 .f32) (h6 : a6.IsWhole) (a7 : Memref sig .tc .vmem S1x512 .f32) (h7 : a7.IsWhole) (a8 : Memref sig .tc .vmem S1024x512 .f32) (h8 : a8.IsWhole) (a9 : Memref sig .tc .vmem S512x1024 .bf16) (h9 : a9.IsWhole) (hc0 : cond0_0 i) (hc1 : ¬cond0_1 i) (x0 : Vec F S1x256x1024 .f32) (x1 : Vec F S1x512x1024 .f32) :
    out0_A_2 c i a2 h2 a3 h3 a4 h4 a5 h5 a6 h6 a7 h7 a8 h8 a9 h9 hc0 hc1 x0 x1 = View.canon [⟨Rect.unit (s := S1x256x2048) ![0, 0, 1024] S1x256x1024.size inb_S1x256x2048_S1x256x1024_0_0_1024, k0_pay16 x0 (k0_pay11 x1)⟩, ⟨Rect.unit (s := S1x256x2048) ![0, 0, 0] S1x256x1024.size inb_S1x256x2048_S1x256x1024_0_0_0, k0_pay15 x0⟩] := by
  unfold out0_A_2
  rw [View.read_writes_eq_canon _ _ _ (cover0_A_2 c i a2 h2 a3 h3 a4 h4 a5 h5 a6 h6 a7 h7 a8 h8 a9 h9 hc0 hc1 x0 x1)]
  unfold kernelRun0_A
  dsimp only
  sl_unfold_words
  skip
  simp only [View.readAt_eq_ld, h2.read_unread, h3.read_unread, h6.read_unread, h7.read_unread, h8.read_unread, h9.read_unread, View.ld_unit_zero (S := S1x512) hz2, View.ld_unit_zero (S := S512x1024) hz2, View.ld_unit_zero (S := S1024x512) hz2, View.ld_unit_zero (S := S1x256x1024) hz3, View.ld_unit_zero (S := S1x512x1024) hz3, View.readCov_unit_zero (S := S1x512) _ hz2, View.readCov_unit_zero (S := S1024x512) _ hz2, View.readCov_unit_zero (S := S512x1024) _ hz2]

end Cert.KernelIdeal.Pieces
end
-- ==== Proof.LibColumnLayout.lean ====
/-
  A vector kept as a column, and a column spread over a row, read at an entry.

  `[a] → [a, 1]` by a shape cast: entry `(i, u)` of the column is entry `i` of the vector (both sit at row-major
  position `i`, the unit coordinate `u` being `0`). `[a, 1] → [a, b]` by a broadcast: entry `(i, j)` is the
  column's entry `(i, 0)` — the unit axis is read at `0`, the other axis at its own coordinate. Generic in the
  extents and in the element type.
-/
import Idealize.ShloMosaic.Lib.Pipeline.Value
import Idealize.ShloMosaic.Lib.ValueIdx
import Idealize.ShloMosaic.Lib.ValueLayout

noncomputable section

namespace Cert.ColumnLayout

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnLayout

end
-- ==== Proof.LibDense.lean ====
/-
  Dense layers on the extended reals, entry by entry.

  A matrix product is read at an entry as the sum over the contracted axis of the products of the
  operands' entries; an affine layer adds a bias row to every row of a product; the rectifier takes
  the maximum with zero. The vector unit's matrix product into a zero accumulator and the host's
  general dot product with one contracted axis are both this sum at every entry, so a layer computed
  block of rows by block of rows and a layer computed on the whole array are one function.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Dense

open Idealize.ShloMosaic Idealize.ShloMosaic.ValueIdx

variable {M K N : ℕ}

/-- A matrix of extended reals with `a` rows and `b` columns. -/
abbrev Mat (a b : ℕ) : Type := (⟨2, ![a, b]⟩ : Shape).Idx → EReal
/-- A row of `a` extended reals. -/
abbrev Row (a : ℕ) : Type := (⟨1, ![a]⟩ : Shape).Idx → EReal

/-- The matrix product: entry (r, c) is the sum over k of A(r, k) · W(k, c). -/
def mm (A : Mat M K) (W : Mat K N) : Mat M N := fun i => ∑ k : Fin K, A (ix2 (i 0) k) * W (ix2 k (i 1))

/-- An affine layer: the product plus the bias of the entry's column. -/
def affine (A : Mat M K) (W : Mat K N) (b : Row N) : Mat M N := fun i => mm A W i + b (ix1 (i 1))

/-- The rectifier: the maximum with zero, entry by entry. -/
def relu (X : Mat M N) : Mat M N := fun i => max (X i) 0

/-- The sum over the one contracted axis of a plain M×K by K×N product is the sum over `Fin K`. -/
theorem plain_sum (a : Mat M K) (b : Mat K N) (j : (⟨2, ![M, N]⟩ : Shape).Idx) :
    ∑ k : (DotDims.plain M K N).contr.Idx, a ((DotDims.plain M K N).lhsIdx j k) * b ((DotDims.plain M K N).rhsIdx j k)
      = mm a b j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  exact congr (congrArg _ (congrArg a el)) (congrArg b er)

/-- The vector unit's plain matrix product into a zero accumulator is the product, entry by entry. -/
theorem matmul_plain_zero {φ₁ φ₂ : FTy} (prec : Option ContractPrecision) (a : FVec Ideal ⟨2, ![M, K]⟩ φ₁) (b : FVec Ideal ⟨2, ![K, N]⟩ φ₂) :
    matmul (DotDims.plain M K N) prec a b (constant (F := Ideal) ⟨2, ![M, N]⟩ .f32 0x00000000#32) = mm a b := by
  funext j
  simp only [matmul]
  rw [Ideal.matmul_constant_zero_apply]
  exact plain_sum a b j

/-- The host's plain general dot product is the product, entry by entry. -/
theorem dotGeneral_plain {φ₁ φ₂ : FTy} (a : FVec Ideal ⟨2, ![M, K]⟩ φ₁) (b : FVec Ideal ⟨2, ![K, N]⟩ φ₂) :
    Host.dotGeneral (F := Ideal) (DotDims.plain M K N) none a b = mm a b := by
  funext j
  simp only [Host.dotGeneral]
  rw [Ideal.dotGeneral_apply]
  exact plain_sum a b j

/-- A change of float format is the identity on the extended reals. -/
theorem truncf_id {s : Shape} {φ ψ : FTy} (a : FVec Ideal s φ) (h : ψ.bits < φ.bits) : (truncf ψ a h : FVec Ideal s ψ) = a := rfl

/-! ## A layer as the vector unit computes it on a block of rows -/

/-- An affine layer whose bias is stored as a one-row matrix. -/
def affine2 (A : Mat M K) (W : Mat K N) (b : Mat 1 N) : Mat M N := fun i => mm A W i + b (ix2 (0 : Fin 1) (i 1))

/-- The product into a zero accumulator plus the bias row broadcast over the rows. -/
theorem addf_matmul_broadcastTo {φ₁ φ₂ : FTy} (prec : Option ContractPrecision) (a : FVec Ideal ⟨2, ![M, K]⟩ φ₁)
    (w : FVec Ideal ⟨2, ![K, N]⟩ φ₂) (b : FVec Ideal ⟨2, ![1, N]⟩ .f32) (h : (⟨2, ![1, N]⟩ : Shape).Broadcasts ⟨2, ![M, N]⟩) :
    addf (matmul (DotDims.plain M K N) prec a w (constant (F := Ideal) ⟨2, ![M, N]⟩ .f32 0x00000000#32)) (broadcastTo ⟨2, ![M, N]⟩ b h)
      = affine2 a w b := by
  rw [matmul_plain_zero]
  funext i
  obtain ⟨p, q, rfl⟩ : ∃ (p : Fin M) (q : Fin N), i = ix2 p q := ⟨i 0, i 1, eq_ix2 i⟩
  show mm a w (ix2 p q) + broadcastTo ⟨2, ![M, N]⟩ b h (ix2 p q) = _
  rw [broadcastTo_1b_ab_apply]
  rfl

/-- The maximum with a splat of the zero word is the rectifier. -/
theorem maximumf_splat_zero (X : FVec Ideal ⟨2, ![M, N]⟩ .f32) :
    maximumf X (broadcast ⟨2, ![M, N]⟩ (Scalar.ofBits (F := Ideal) .f32 0x00000000#32)) = relu X := by
  funext i
  show max (X i) (Ideal.ofBits .f32 0x00000000#32) = max (X i) 0
  rw [Ideal.ofBits_zero_f32]

/-! ## A layer as the host computes it on the whole array -/

/-- The bias of an affine layer with its one-row form: the row read at its one row index. -/
theorem affine_eq_affine2 (A : Mat M K) (W : Mat K N) (b : Row N) (b2 : Mat 1 N)
    (hb : ∀ q : Fin N, b2 (ix2 (0 : Fin 1) q) = b (ix1 q)) : affine2 A W b2 = affine A W b := by
  funext i
  obtain ⟨p, q, rfl⟩ : ∃ (p : Fin M) (q : Fin N), i = ix2 p q := ⟨i 0, i 1, eq_ix2 i⟩
  show mm A W (ix2 p q) + b2 (ix2 (0 : Fin 1) q) = mm A W (ix2 p q) + b (ix1 q)
  rw [hb]

/-- The host's product plus the bias broadcast first to one row and then over the rows. -/
theorem addf_dotGeneral_broadcastInDim {φ₁ φ₂ : FTy} (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (F := Ideal) (DotDims.plain M K N) none a w)
        (broadcastInDim ⟨2, ![M, N]⟩ ![0, 1] h2 (broadcastInDim ⟨2, ![1, N]⟩ ![1] h1 b))
      = affine a w b := by
  rw [dotGeneral_plain]
  funext i
  obtain ⟨p, q, rfl⟩ : ∃ (p : Fin M) (q : Fin N), i = ix2 p q := ⟨i 0, i 1, eq_ix2 i⟩
  show mm a w (ix2 p q) + broadcastInDim ⟨2, ![M, N]⟩ ![0, 1] h2 (broadcastInDim ⟨2, ![1, N]⟩ ![1] h1 b) (ix2 p q) = mm a w (ix2 p q) + b (ix1 q)
  rw [broadcastInDim_apply ![0, 1] h2 _ (ix2 p q) (ix2 (0 : Fin 1) q) (fun ax => by
      match ax with
      | ⟨0, _⟩ => rfl
      | ⟨1, _⟩ =>
        show q.val = if N = 1 then 0 else q.val
        split
        · have := q.isLt; omega
        · rfl),
    broadcastInDim_apply ![1] h1 b (ix2 (0 : Fin 1) q) (ix1 q) (fun ax => by
      match ax with
      | ⟨0, _⟩ =>
        show q.val = if N = 1 then 0 else q.val
        split
        · have := q.isLt; omega
        · rfl)]

/-- The maximum with the zero scalar broadcast to the whole shape is the rectifier. -/
theorem maximumf_broadcastInDim_zero (X : FVec Ideal ⟨2, ![M, N]⟩ .f32)
    (h : (⟨0, ![]⟩ : Shape).BroadcastsInDim ⟨2, ![M, N]⟩ ![]) :
    maximumf X (broadcastInDim ⟨2, ![M, N]⟩ ![] h (constant (F := Ideal) ⟨0, ![]⟩ .f32 0x00000000#32)) = relu X := by
  funext i
  show max (X i) (broadcastInDim ⟨2, ![M, N]⟩ ![] h (constant (F := Ideal) ⟨0, ![]⟩ .f32 0x00000000#32) i) = max (X i) 0
  rw [broadcastInDim_apply ![] h _ i ix0 (fun ax => ax.elim0)]
  show max (X i) (Ideal.ofBits .f32 0x00000000#32) = max (X i) 0
  rw [Ideal.ofBits_zero_f32]

/-! ## Rows of a layer -/

/-- A layer on a block of rows is the layer on the whole array at those rows: entry (p, q) of the block's result is
    entry (ρ p, q) of the whole result when row p of the block is row ρ p of the array. -/
theorem mm_rows {M' : ℕ} (A : Mat M' K) (blk : Mat M K) (W : Mat K N) (ρ : Fin M → Fin M')
    (h : ∀ p k, blk (ix2 p k) = A (ix2 (ρ p) k)) (p : Fin M) (q : Fin N) :
    mm blk W (ix2 p q) = mm A W (ix2 (ρ p) q) := by
  unfold mm
  exact Finset.sum_congr rfl fun k _ => by rw [show (ix2 p q : (⟨2, ![M, N]⟩ : Shape).Idx) 0 = p from rfl, h p k]; rfl

/-- So a rectified affine layer on a block of rows, with the whole weight matrix and bias row, is the layer on the
    whole array at those rows. -/
theorem relu_affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    relu (affine2 blk W b) (ix2 p q) = relu (affine2 A W b) (ix2 (ρ p) q) := by
  show max (mm blk W (ix2 p q) + b (ix2 (0 : Fin 1) q)) 0 = max (mm A W (ix2 (ρ p) q) + b (ix2 (0 : Fin 1) q)) 0
  rw [mm_rows A blk W ρ h p q]

/-- The same without the rectifier. -/
theorem affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    affine2 blk W b (ix2 p q) = affine2 A W b (ix2 (ρ p) q) := by
  show mm blk W (ix2 p q) + b (ix2 (0 : Fin 1) q) = mm A W (ix2 (ρ p) q) + b (ix2 (0 : Fin 1) q)
  rw [mm_rows A blk W ρ h p q]

end Cert.Dense

end
-- ==== Proof.TileStep.lean ====
/-
  One tile's update of the running maximum, the running sum and the accumulator, read at an entry on the extended reals.

  For a tile `X` of 256 document rows and the stored query block `QB` (512 rows), with scores
  `s r q = ∑ₖ X r k · QB q k`:
      m' q     = max (M q) (max_r s r q)                       (the maximum folded from `-∞`)
      L' q     = exp (M q - m' q) · L q   + ∑_r exp (s r q - m' q)
      A' h q   = exp (M q - m' q) · A h q + ∑_r X r h · exp (s r q - m' q)
  and the closing quotient `A h q / L q`, stored transposed.  A change of float format is the identity here, and a
  matrix product into a zero accumulator is the plain sum over the contracted axis.
-/
import proofs.«144034_j58153857187901_2_alg».proof.Proof.Gen.KernelIdeal.Skeleton
import proofs.«144034_j58153857187901_2_alg».proof.Proof.LibColumnLayout
import proofs.«144034_j58153857187901_2_alg».proof.Proof.LibDense
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx Cert.ColumnLayout Cert.Dense

/-- The word `0xFF800000` is `-∞`. -/
theorem negInf : Ideal.ofBits .f32 0xFF800000#32 = (⊥ : EReal) := by simp [Ideal.ofBits, Ideal.ieee]

/-- Inserting row `r` above column `q`: the index a reduction along the rows folds over. -/
theorem lift_rows (h : S256x512.Reduces [0] S512) (q : Fin 512) (r : Fin 256) : h.lift (ix1 q) r = ix2 r q := by
  funext c; apply Fin.ext
  match c with
  | ⟨0, _⟩ => rfl
  | ⟨1, _⟩ => rfl

/-- `exp` of an array, entry by entry. -/
theorem exp_apply {s : Shape} {φ : FTy} (a : FVec Ideal s φ) (i : s.Idx) : exp a i = Ideal.exp (a i) := rfl

variable (x0 : Vec Ideal S1x256x1024 .f32) (qb : Vec Ideal S512x1024 .bf16)

/-- The tile's scores. -/
theorem score_apply (r : Fin 256) (q : Fin 512) :
    k0_pay14 x0 qb (ix2 r q) = ∑ k : Fin 1024, x0 (ix3 (0 : Fin 1) r k) * qb (ix2 q k) := by
  unfold k0_pay14 k0_pay13 k0_pay12
  refine (congrFun (matmul_plain_zero (M := 256) (K := 1024) (N := 512) none _ _) (ix2 r q)).trans ?_
  unfold mm
  refine Finset.sum_congr rfl fun k _ => ?_
  show shapeCast S256x1024 x0 shapeCasts_S1x256x1024_S256x1024 (ix2 r k) * transpose S1024x512 [1, 0] qb transposes_S512x1024_p1_0_S1024x512 (ix2 k q) = _
  rw [shapeCast_1ab_ab_apply, transpose_ix2_apply]

/-- The new running maximum, as the operations that make it. -/
theorem newMax_eq (M : Vec Ideal S1x512 .f32) : k0_pay17 x0 qb M
    = maximumf M (shapeCast S1x512 (multiReduction .maximumf [0] S512 (k0_pay14 x0 qb) 0xFF800000#32 reduces_S256x512_S512 (.inl rfl) rfl) shapeCasts_S512_S1x512) := rfl

/-- The new running maximum. -/
theorem newMax_apply (M : Vec Ideal S1x512 .f32) (q : Fin 512) :
    k0_pay17 x0 qb M (ix2 (0 : Fin 1) q)
      = max (M (ix2 (0 : Fin 1) q)) ((Finset.univ : Finset (Fin 256)).fold max ⊥ fun r => k0_pay14 x0 qb (ix2 r q)) := by
  rw [newMax_eq, maximumf_apply, shapeCast_a_1a_apply]
  refine congrArg (max (M (ix2 (0 : Fin 1) q))) ?_
  refine (Ideal.multiReduction_maximumf_single (k0_pay14 x0 qb) 0xFF800000#32 reduces_S256x512_S512 (.inl rfl) rfl (ix1 q)).trans ?_
  rw [Ideal.ofBits_def, negInf]
  exact congrArg ((Finset.univ : Finset (Fin 256)).fold max (⊥ : EReal)) (funext fun r => congrArg (k0_pay14 x0 qb) (lift_rows _ q r))

variable (s : FVec Ideal S256x512 .f32) (m' M L : Vec Ideal S1x512 .f32) (A : Vec Ideal S1024x512 .f32)

/-- The rescaling factor. -/
theorem factor_apply (q : Fin 512) : k0_pay1 m' M (ix2 (0 : Fin 1) q) = Ideal.exp (M (ix2 (0 : Fin 1) q) - m' (ix2 (0 : Fin 1) q)) := rfl

/-- The tile's weights. -/
theorem weight_apply (r : Fin 256) (q : Fin 512) : k0_pay2 s m' (ix2 r q) = Ideal.exp (s (ix2 r q) - m' (ix2 (0 : Fin 1) q)) := by
  unfold k0_pay2
  show Ideal.exp (s (ix2 r q) - broadcastTo S256x512 m' broadcasts_S1x512_S256x512 (ix2 r q)) = _
  rw [broadcastTo_1b_ab_apply]

/-- The new running sum, as the operations that make it. -/
theorem newSum_eq : k0_pay3 s m' M L
    = shapeCast S1x512 (addf (mulf (k0_pay1 m' M) L)
        (shapeCast S1x512 (multiReduction .add [0] S512 (k0_pay2 s m') 0x00000000#32 reduces_S256x512_S512 (.inl rfl) rfl) shapeCasts_S512_S1x512))
      shapeCasts_S1x512_S1x512 := rfl

/-- The new running sum. -/
theorem newSum_apply (q : Fin 512) :
    k0_pay3 s m' M L (ix2 (0 : Fin 1) q)
      = Ideal.exp (M (ix2 (0 : Fin 1) q) - m' (ix2 (0 : Fin 1) q)) * L (ix2 (0 : Fin 1) q)
        + ∑ r : Fin 256, Ideal.exp (s (ix2 r q) - m' (ix2 (0 : Fin 1) q)) := by
  rw [newSum_eq, shapeCast_self, addf_apply, mulf_apply, shapeCast_a_1a_apply, factor_apply]
  refine congrArg (fun z : EReal => Ideal.exp (M (ix2 (0 : Fin 1) q) - m' (ix2 (0 : Fin 1) q)) * L (ix2 (0 : Fin 1) q) + z) ?_
  refine (Ideal.multiReduction_add_single (k0_pay2 s m') 0x00000000#32 reduces_S256x512_S512 (.inl rfl) rfl (ix1 q)).trans ?_
  exact Finset.sum_congr rfl fun r _ => (congrArg (k0_pay2 s m') (lift_rows _ q r)).trans (weight_apply s m' r q)

/-- The new accumulator, as the operations that make it. -/
theorem newAcc_eq : k0_pay4 (k0_pay13 x0) s m' M A
    = shapeCast S1024x512 (addf (mulf (broadcastTo S1024x512 (k0_pay1 m' M) broadcasts_S1x512_S1024x512) A)
        (matmul dot_S1024x256_S256x512_S1024x512_1_0_0_1_n_n none
          (transpose S1024x256 [1, 0] (k0_pay13 x0) transposes_S256x1024_p1_0_S1024x256)
          (truncf .bf16 (k0_pay2 s m') bitsLt_bf16_f32) (constant S1024x512 .f32 0x00000000#32)))
      shapeCasts_S1024x512_S1024x512 := rfl

/-- A tile entry through the change of format. -/
theorem tile_apply (r : Fin 256) (h : Fin 1024) : k0_pay13 x0 (ix2 r h) = x0 (ix3 (0 : Fin 1) r h) := by
  show shapeCast S256x1024 x0 shapeCasts_S1x256x1024_S256x1024 (ix2 r h) = _
  rw [shapeCast_1ab_ab_apply]

/-- The new accumulator. -/
theorem newAcc_apply (h : Fin 1024) (q : Fin 512) :
    k0_pay4 (k0_pay13 x0) s m' M A (ix2 h q)
      = Ideal.exp (M (ix2 (0 : Fin 1) q) - m' (ix2 (0 : Fin 1) q)) * A (ix2 h q)
        + ∑ r : Fin 256, x0 (ix3 (0 : Fin 1) r h) * Ideal.exp (s (ix2 r q) - m' (ix2 (0 : Fin 1) q)) := by
  rw [newAcc_eq, shapeCast_self, addf_apply, mulf_apply, broadcastTo_1b_ab_apply, factor_apply]
  refine congrArg (fun z : EReal => Ideal.exp (M (ix2 (0 : Fin 1) q) - m' (ix2 (0 : Fin 1) q)) * A (ix2 h q) + z) ?_
  refine (congrFun (matmul_plain_zero (M := 1024) (K := 256) (N := 512) none _ _) (ix2 h q)).trans ?_
  unfold mm
  refine Finset.sum_congr rfl fun r _ => ?_
  show transpose S1024x256 [1, 0] (k0_pay13 x0) transposes_S256x1024_p1_0_S1024x256 (ix2 h r) * k0_pay2 s m' (ix2 r q) = _
  rw [transpose_ix2_apply, weight_apply, tile_apply]

/-- The closing quotient, stored transposed. -/
theorem quotient_eq : k0_pay7 A L
    = shapeCast S1x512x1024 (transpose S512x1024 [1, 0] (divf A (broadcastTo S1024x512 L broadcasts_S1x512_S1024x512)) transposes_S1024x512_p1_0_S512x1024)
      shapeCasts_S512x1024_S1x512x1024 := rfl

theorem quotient_apply (q : Fin 512) (h : Fin 1024) :
    k0_pay7 A L (ix3 (0 : Fin 1) q h) = Ideal.div (A (ix2 h q)) (L (ix2 (0 : Fin 1) q)) := by
  rw [quotient_eq, shapeCast_ab_1ab_apply, transpose_ix2_apply, divf_apply, broadcastTo_1b_ab_apply]

/-- The reset values: `-∞`, zero, zero. -/
theorem resetM_apply (q : Fin 512) : (k0_pay8 : FVec Ideal S1x512 .f32) (ix2 (0 : Fin 1) q) = ⊥ := by
  unfold k0_pay8; rw [shapeCast_self]; exact negInf
theorem resetL_apply (q : Fin 512) : (k0_pay9 : FVec Ideal S1x512 .f32) (ix2 (0 : Fin 1) q) = 0 := by
  unfold k0_pay9; rw [shapeCast_self]; exact Ideal.ofBits_zero_f32
theorem resetA_apply (h : Fin 1024) (q : Fin 512) : (k0_pay10 : FVec Ideal S1024x512 .f32) (ix2 h q) = 0 := by
  unfold k0_pay10; rw [shapeCast_self]; exact Ideal.ofBits_zero_f32

/-- The stored copy of the query block. -/
theorem copy_apply (x1 : Vec Ideal S1x512x1024 .f32) (q : Fin 512) (k : Fin 1024) :
    k0_pay11 x1 (ix2 q k) = x1 (ix3 (0 : Fin 1) q k) := by
  unfold k0_pay11
  rw [shapeCast_self]
  show shapeCast S512x1024 x1 shapeCasts_S1x512x1024_S512x1024 (ix2 q k) = _
  rw [shapeCast_1ab_ab_apply]

/-- The running maximum is stored as it is. -/
theorem keep_apply (v : FVec Ideal S1x512 .f32) : k0_pay5 v = v := by unfold k0_pay5; rw [shapeCast_self]

end Cert.KernelIdeal.Tile

end
-- ==== Proof.LibOnlineSoftmax.lean ====
/-
  A softmax-weighted sum accumulated tile by tile with a running maximum, on the extended reals.

  For sequences `s w : ℕ → EReal` whose entries are real, the state `(M, L, A)` after the first `n` indices
  satisfies `Inv s w n M L A`: there is a real `μ` with `M = μ`, `L = ∑_{d<n} exp (s d - μ)` and
  `A = ∑_{d<n} w d * exp (s d - μ)`.  One tile of `T` further indices updates the state by
      M' = max M (max_{k<T} s (n+k)),   a = exp (M - M'),
      L' = a * L + ∑_{k<T} exp (s (n+k) - M'),   A' = a * A + ∑_{k<T} w (n+k) * exp (s (n+k) - M'),
  and keeps the invariant (`step`), because `exp (μ - μ') * exp (x - μ) = exp (x - μ')` for reals and a real factor
  distributes over a finite sum of reals; from the reset state `(-∞, 0, 0)` the first tile establishes it
  (`first`).  The quotient `A / L` does not depend on `μ`: it is the sum of `w d` weighted by
  `exp (s d - c) / ∑ exp (s d' - c)` for every real `c` (`quotient_eq`), the plain softmax-weighted sum.
  Generic in the tile length and the number of indices.
-/
import Idealize.ShloMosaic.PureOps.Ideal
import Idealize.ShloMosaic.PureOps.Ideal.Laws

noncomputable section

namespace Cert.OnlineSoftmax

open Idealize.ShloMosaic

/-- An extended real that is a real number. -/
def IsReal (x : EReal) : Prop := ∃ r : ℝ, x = (r : EReal)

theorem isReal_coe (r : ℝ) : IsReal (r : EReal) := ⟨r, rfl⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

/-- The coercion of reals into the extended reals preserves the maximum. -/
theorem coe_max (a b : ℝ) : ((max a b : ℝ) : EReal) = max (a : EReal) (b : EReal) :=
  EReal.coe_strictMono.monotone.map_max

/-- The coercion of a finite sum of reals is the sum of the coercions. -/
theorem coe_sum {ι : Type*} (t : Finset ι) (f : ι → ℝ) : (∑ i ∈ t, (f i : EReal)) = ((∑ i ∈ t, f i : ℝ) : EReal) := by
  classical
  induction t using Finset.induction_on with
  | empty => simp
  | insert a t ha ih => rw [Finset.sum_insert ha, Finset.sum_insert ha, ih, EReal.coe_add]

/-- A finite sum of reals is real. -/
theorem isReal_sum {ι : Type*} (t : Finset ι) (f : ι → EReal) (hf : ∀ i, IsReal (f i)) : IsReal (∑ i ∈ t, f i) := by
  choose g hg using hf
  exact ⟨∑ i ∈ t, g i, by rw [← coe_sum]; exact Finset.sum_congr rfl fun i _ => hg i⟩

/-- The maximum, folded from `-∞`, of finitely many reals is `-∞` or real. -/
theorem fold_max_bot_or_real {ι : Type*} (t : Finset ι) (f : ι → EReal) (hf : ∀ i, IsReal (f i)) :
    t.fold max ⊥ f = ⊥ ∨ IsReal (t.fold max ⊥ f) := by
  classical
  induction t using Finset.induction_on with
  | empty => left; simp
  | insert a t ha ih =>
    right
    rw [Finset.fold_insert ha]
    obtain ⟨r, hr⟩ := hf a
    rcases ih with h | ⟨q, hq⟩
    · rw [h, hr, max_eq_left bot_le]; exact ⟨r, rfl⟩
    · rw [hq, hr]; exact ⟨max r q, (coe_max r q).symm⟩

/-- … and over a nonempty family it is real. -/
theorem fold_max_real {ι : Type*} (t : Finset ι) (ht : t.Nonempty) (f : ι → EReal) (hf : ∀ i, IsReal (f i)) :
    IsReal (t.fold max ⊥ f) := by
  classical
  obtain ⟨a, ha⟩ := ht
  rw [← Finset.insert_erase ha, Finset.fold_insert (Finset.notMem_erase a t)]
  obtain ⟨r, hr⟩ := hf a
  rcases fold_max_bot_or_real (t.erase a) f hf with h | ⟨q, hq⟩
  · rw [h, hr, max_eq_left bot_le]; exact ⟨r, rfl⟩
  · rw [hq, hr]; exact ⟨max r q, (coe_max r q).symm⟩

/-- The state after the first `n` indices. -/
def Inv (s w : ℕ → EReal) (n : ℕ) (M L A : EReal) : Prop :=
  ∃ μ : ℝ, M = (μ : EReal) ∧ L = ∑ d ∈ Finset.range n, Ideal.exp (s d - (μ : EReal))
    ∧ A = ∑ d ∈ Finset.range n, w d * Ideal.exp (s d - (μ : EReal))

/-- With a real shift every term of the two sums is real, and the sums are the coercions of the real sums. -/
theorem sums_coe (sr wr : ℕ → ℝ) (t : Finset ℕ) (μ : ℝ) :
    (∑ d ∈ t, Ideal.exp ((sr d : EReal) - (μ : EReal))) = ((∑ d ∈ t, Real.exp (sr d - μ) : ℝ) : EReal)
    ∧ (∑ d ∈ t, (wr d : EReal) * Ideal.exp ((sr d : EReal) - (μ : EReal))) = ((∑ d ∈ t, wr d * Real.exp (sr d - μ) : ℝ) : EReal) := by
  constructor
  · rw [← coe_sum]; exact Finset.sum_congr rfl fun d _ => by rw [← EReal.coe_sub, Ideal.exp_coe]
  · rw [← coe_sum]; exact Finset.sum_congr rfl fun d _ => by rw [← EReal.coe_sub, Ideal.exp_coe, ← EReal.coe_mul]

/-- Rescaling: `exp (μ - μ')` times the sums shifted by `μ` gives the sums shifted by `μ'`. -/
theorem rescale (sr wr : ℕ → ℝ) (t : Finset ℕ) (μ μ' : ℝ) :
    Ideal.exp ((μ : EReal) - (μ' : EReal)) * (∑ d ∈ t, Ideal.exp ((sr d : EReal) - (μ : EReal)))
        = ∑ d ∈ t, Ideal.exp ((sr d : EReal) - (μ' : EReal))
    ∧ Ideal.exp ((μ : EReal) - (μ' : EReal)) * (∑ d ∈ t, (wr d : EReal) * Ideal.exp ((sr d : EReal) - (μ : EReal)))
        = ∑ d ∈ t, (wr d : EReal) * Ideal.exp ((sr d : EReal) - (μ' : EReal)) := by
  rw [(sums_coe sr wr t μ).1, (sums_coe sr wr t μ).2, (sums_coe sr wr t μ').1, (sums_coe sr wr t μ').2,
    ← EReal.coe_sub, Ideal.exp_coe, ← EReal.coe_mul, ← EReal.coe_mul, Finset.mul_sum, Finset.mul_sum]
  constructor
  · refine congrArg _ (Finset.sum_congr rfl fun d _ => ?_)
    rw [← Real.exp_add]; congr 1; ring
  · refine congrArg _ (Finset.sum_congr rfl fun d _ => ?_)
    rw [mul_left_comm, ← Real.exp_add]; congr 2; ring

/-- A tile's sums over `Fin T` are the sums over the next `T` naturals. -/
theorem tile_sum (T n : ℕ) (g : ℕ → EReal) : (∑ k : Fin T, g (n + k.val)) = ∑ d ∈ Finset.range T, g (n + d) :=
  (Finset.sum_range fun d => g (n + d)).symm

/-- The running maximum after a nonempty tile is real, whatever real or `-∞` it was before. -/
theorem max_real (T n : ℕ) (hT : 0 < T) (s : ℕ → EReal) (hs : ∀ d, IsReal (s d)) (M : EReal) (hM : M = ⊥ ∨ IsReal M) :
    IsReal (max M ((Finset.univ : Finset (Fin T)).fold max ⊥ fun k => s (n + k.val))) := by
  have hne : (Finset.univ : Finset (Fin T)).Nonempty := ⟨⟨0, hT⟩, Finset.mem_univ _⟩
  obtain ⟨q, hq⟩ := fold_max_real (Finset.univ : Finset (Fin T)) hne (fun k => s (n + k.val)) fun k => hs _
  rcases hM with h | ⟨r, hr⟩
  · rw [h, hq, max_eq_right bot_le]; exact ⟨q, rfl⟩
  · rw [hr, hq]; exact ⟨max r q, (coe_max r q).symm⟩

/-- THE FIRST TILE, from the reset state `(-∞, 0, 0)`: the old sums are zero, so the factor does not matter. -/
theorem first (T : ℕ) (hT : 0 < T) (s w : ℕ → EReal) (hs : ∀ d, IsReal (s d)) :
    let M' := max (⊥ : EReal) ((Finset.univ : Finset (Fin T)).fold max ⊥ fun k => s (0 + k.val))
    Inv s w T M'
      (Ideal.exp ((⊥ : EReal) - M') * 0 + ∑ k : Fin T, Ideal.exp (s (0 + k.val) - M'))
      (Ideal.exp ((⊥ : EReal) - M') * 0 + ∑ k : Fin T, w (0 + k.val) * Ideal.exp (s (0 + k.val) - M')) := by
  intro M'
  obtain ⟨μ', hμ'⟩ := max_real T 0 hT s hs ⊥ (Or.inl rfl)
  refine ⟨μ', hμ', ?_, ?_⟩
  · rw [mul_zero, zero_add, tile_sum T 0 fun d => Ideal.exp (s d - M'), show M' = (μ' : EReal) from hμ']
    exact Finset.sum_congr rfl fun d _ => by rw [zero_add]
  · rw [mul_zero, zero_add, tile_sum T 0 fun d => w d * Ideal.exp (s d - M'), show M' = (μ' : EReal) from hμ']
    exact Finset.sum_congr rfl fun d _ => by rw [zero_add]

/-- A LATER TILE keeps the invariant. -/
theorem step (T n : ℕ) (hT : 0 < T) (s w : ℕ → EReal) (hs : ∀ d, IsReal (s d)) (hw : ∀ d, IsReal (w d))
    (M L A : EReal) (h : Inv s w n M L A) :
    let M' := max M ((Finset.univ : Finset (Fin T)).fold max ⊥ fun k => s (n + k.val))
    Inv s w (n + T) M'
      (Ideal.exp (M - M') * L + ∑ k : Fin T, Ideal.exp (s (n + k.val) - M'))
      (Ideal.exp (M - M') * A + ∑ k : Fin T, w (n + k.val) * Ideal.exp (s (n + k.val) - M')) := by
  intro M'
  obtain ⟨μ, hM, hL, hA⟩ := h
  obtain ⟨μ', hμ'⟩ := max_real T n hT s hs M (Or.inr ⟨μ, hM⟩)
  choose sr hsr using hs
  choose wr hwr using hw
  have hs' : s = fun d => (sr d : EReal) := funext hsr
  have hw' : w = fun d => (wr d : EReal) := funext hwr
  refine ⟨μ', hμ', ?_, ?_⟩
  · rw [show M' = (μ' : EReal) from hμ', hM, hL, tile_sum T n fun d => Ideal.exp (s d - (μ' : EReal)), Finset.sum_range_add, hs']
    exact congrArg (· + _) (rescale sr wr (Finset.range n) μ μ').1
  · rw [show M' = (μ' : EReal) from hμ', hM, hA, tile_sum T n fun d => w d * Ideal.exp (s d - (μ' : EReal)), Finset.sum_range_add, hs', hw']
    exact congrArg (· + _) (rescale sr wr (Finset.range n) μ μ').2

/-- THE QUOTIENT does not depend on the shift: for real entries, a real shift `c` and at least one index,
    `A / L` is the sum of `w d` weighted by `exp (s d - c)` over the total of those weights. -/
theorem quotient_eq (n : ℕ) (hn : 0 < n) (s w : ℕ → EReal) (hs : ∀ d, IsReal (s d)) (hw : ∀ d, IsReal (w d))
    (M L A : EReal) (h : Inv s w n M L A) (c : EReal) (hc : IsReal c) :
    Ideal.div A L = ∑ d ∈ Finset.range n,
      Ideal.div (Ideal.exp (s d - c)) (∑ e ∈ Finset.range n, Ideal.exp (s e - c)) * w d := by
  obtain ⟨μ, -, hL, hA⟩ := h
  obtain ⟨γ, rfl⟩ := hc
  choose sr hsr using hs
  choose wr hwr using hw
  have hs' : s = fun d => (sr d : EReal) := funext hsr
  have hw' : w = fun d => (wr d : EReal) := funext hwr
  subst hs' hw'
  have hpos : ∀ ν : ℝ, (0 : ℝ) < ∑ e ∈ Finset.range n, Real.exp (sr e - ν) :=
    fun ν => Finset.sum_pos (fun e _ => Real.exp_pos _) ⟨0, Finset.mem_range.2 hn⟩
  rw [hL, hA, (sums_coe sr wr _ μ).1, (sums_coe sr wr _ μ).2, (sums_coe sr wr _ γ).1,
    Ideal.div_coe (hpos μ).ne']
  have hterm : ∀ d, Ideal.div (Ideal.exp ((sr d : EReal) - (γ : EReal))) ((∑ e ∈ Finset.range n, Real.exp (sr e - γ) : ℝ) : EReal) * (wr d : EReal)
      = ((Real.exp (sr d - γ) * (1 / ∑ e ∈ Finset.range n, Real.exp (sr e - γ)) * wr d : ℝ) : EReal) := fun d => by
    rw [Ideal.div_coe (hpos γ).ne', ← EReal.coe_sub, Ideal.exp_coe, ← EReal.coe_mul, ← EReal.coe_mul]
  rw [Finset.sum_congr rfl fun d _ => hterm d, coe_sum, ← EReal.coe_mul]
  congr 1
  -- the real identity: both sides are ∑ w d · e^{s d} / ∑ e^{s e}
  have hfac : ∀ ν : ℝ, ∀ d, Real.exp (sr d - ν) = Real.exp (sr d) * Real.exp (-ν) := fun ν d => by
    rw [← Real.exp_add]; congr 1
  have hZ : ∀ ν : ℝ, (∑ e ∈ Finset.range n, Real.exp (sr e - ν)) = (∑ e ∈ Finset.range n, Real.exp (sr e)) * Real.exp (-ν) := fun ν => by
    rw [Finset.sum_mul]; exact Finset.sum_congr rfl fun e _ => hfac ν e
  have hZ0 : (0 : ℝ) < ∑ e ∈ Finset.range n, Real.exp (sr e) :=
    Finset.sum_pos (fun e _ => Real.exp_pos _) ⟨0, Finset.mem_range.2 hn⟩
  rw [Finset.sum_mul]
  refine Finset.sum_congr rfl fun d _ => ?_
  rw [hZ μ, hZ γ, hfac μ d, hfac γ d]
  have h1 := (Real.exp_pos (-μ)).ne'
  have h2 := (Real.exp_pos (-γ)).ne'
  field_simp

end Cert.OnlineSoftmax

end
-- ==== Proof.Spec.lean ====
/-
  The two results as functions of the argument arrays, entry by entry, on the extended reals.

  With scores `S b d q = ∑ₖ D b d k · Q b q k`:
    * the document side, `docOut b d h = ∑_q softmax_q (S b d ·) q · Q b q h`, the softmax taken along the query axis;
    * the query side, `qryOut b q h = ∑_d softmax_d (S b · q) d · D b d h`, the softmax taken along the document axis;
  each softmax spelt `exp (x - max) / ∑ exp (x - max)` with the maximum folded from `-∞` and compared once more with
  `-∞`.  The results set the argument beside these: `DPrime = [D | docOut]`, `QPrime = [Q | qryOut]` along the last axis.
-/
import proofs.«144034_j58153857187901_2_alg».proof.Proof.LibOnlineSoftmax
import Idealize.ShloMosaic.Lib.ValueIdx

noncomputable section

namespace Cert.Spec

open Idealize.ShloMosaic Idealize.ShloMosaic.ValueIdx

abbrev SD : Shape := ⟨3, ![8, 2048, 1024]⟩
abbrev SQ : Shape := ⟨3, ![8, 512, 1024]⟩
abbrev SDP : Shape := ⟨3, ![8, 2048, 2048]⟩
abbrev SQP : Shape := ⟨3, ![8, 512, 2048]⟩

variable (D : SD.Idx → EReal) (Q : SQ.Idx → EReal)

/-- The score of document row `d` against query row `q` in batch `b`. -/
def score (b : Fin 8) (d : Fin 2048) (q : Fin 512) : EReal := ∑ k : Fin 1024, D (ix3 b d k) * Q (ix3 b q k)

/-- A row's maximum over the queries. -/
def rowMax (b : Fin 8) (d : Fin 2048) : EReal :=
  max ⊥ ((Finset.univ : Finset (Fin 512)).fold max ⊥ fun q => score D Q b d q)

/-- The softmax along the query axis. -/
def rowW (b : Fin 8) (d : Fin 2048) (q : Fin 512) : EReal :=
  Ideal.div (Ideal.exp (score D Q b d q - rowMax D Q b d)) (∑ q' : Fin 512, Ideal.exp (score D Q b d q' - rowMax D Q b d))

/-- The document side: each document row's softmax-weighted sum of query rows. -/
def docOut (b : Fin 8) (d : Fin 2048) (h : Fin 1024) : EReal := ∑ q : Fin 512, rowW D Q b d q * Q (ix3 b q h)

/-- A column's maximum over the documents. -/
def colMax (b : Fin 8) (q : Fin 512) : EReal :=
  max ⊥ ((Finset.univ : Finset (Fin 2048)).fold max ⊥ fun d => score D Q b d q)

/-- The softmax along the document axis. -/
def colW (b : Fin 8) (d : Fin 2048) (q : Fin 512) : EReal :=
  Ideal.div (Ideal.exp (score D Q b d q - colMax D Q b q)) (∑ d' : Fin 2048, Ideal.exp (score D Q b d' q - colMax D Q b q))

/-- The query side: each query row's softmax-weighted sum of document rows. -/
def qryOut (b : Fin 8) (q : Fin 512) (h : Fin 1024) : EReal := ∑ d : Fin 2048, colW D Q b d q * D (ix3 b d h)

/-- The first result: `D` in columns below 1024, the document side in the others. -/
def DPrime : SDP.Idx → EReal := fun j =>
  if hj : (j 2).val < 1024 then D (ix3 (j 0) (j 1) ⟨(j 2).val, hj⟩)
  else docOut D Q (j 0) (j 1) ⟨(j 2).val - 1024, by have h2 : (j 2).val < 2048 := (j 2).isLt; omega⟩

/-- The second result: `Q` in columns below 1024, the query side in the others. -/
def QPrime : SQP.Idx → EReal := fun j =>
  if hj : (j 2).val < 1024 then Q (ix3 (j 0) (j 1) ⟨(j 2).val, hj⟩)
  else qryOut D Q (j 0) (j 1) ⟨(j 2).val - 1024, by have h2 : (j 2).val < 2048 := (j 2).isLt; omega⟩

end Cert.Spec

end
-- ==== Proof.TileInv.lean ====
/-
  The carried state of the query side, tile by tile.

  For batch `b`, query column `q` and feature `h`, let `s d` be the score of document row `d` against query row `q`
  and `w d = D b d h`.  After the first `n` document rows the three scratch arrays hold, at `(q)` and `(h, q)`, a state
  satisfying the running-maximum invariant of `s` and `w` (`Carried`).  The first tile establishes it from the reset
  values, a later tile of 256 rows takes it from `n` to `n + 256`, and after all 2048 rows the quotient written to the
  second output is the document-axis softmax of the scores times `D`, the query side of the specification —
  for real entries of `D` and `Q`.
-/
import proofs.«144034_j58153857187901_2_alg».proof.Proof.Gen.KernelIdeal.Skeleton
import proofs.«144034_j58153857187901_2_alg».proof.Proof.TileStep
import proofs.«144034_j58153857187901_2_alg».proof.Proof.Spec
import proofs.«144034_j58153857187901_2_alg».proof.Proof.LibColumnLayout
import proofs.«144034_j58153857187901_2_alg».proof.Proof.LibDense
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx Cert.Spec
open Cert.OnlineSoftmax (IsReal Inv)

/-- The document row a natural number names (every number below 2048 names itself). -/
def dI (d : ℕ) : Fin 2048 := ⟨d % 2048, Nat.mod_lt _ (by norm_num)⟩

theorem dI_coe (d : Fin 2048) : dI d.val = d := Fin.ext (Nat.mod_eq_of_lt d.isLt)

variable (D : SD.Idx → EReal) (Q : SQ.Idx → EReal)

/-- The scores of the documents against query row `q` of batch `b`, as a sequence. -/
def sSeq (b : Fin 8) (q : Fin 512) (d : ℕ) : EReal := score D Q b (dI d) q
/-- Feature `h` of the documents of batch `b`, as a sequence. -/
def wSeq (b : Fin 8) (h : Fin 1024) (d : ℕ) : EReal := D (ix3 b (dI d) h)

theorem sSeq_real (hD : ∀ i, IsReal (D i)) (hQ : ∀ i, IsReal (Q i)) (b : Fin 8) (q : Fin 512) (d : ℕ) : IsReal (sSeq D Q b q d) := by
  unfold sSeq score
  exact Cert.OnlineSoftmax.isReal_sum _ _ fun _ => (hD _).mul (hQ _)

theorem wSeq_real (hD : ∀ i, IsReal (D i)) (b : Fin 8) (h : Fin 1024) (d : ℕ) : IsReal (wSeq D b h d) := hD _

/-- What the three scratch arrays hold after the first `n` document rows of batch `b`. -/
def Carried (b : Fin 8) (n : ℕ) (M L : Vec Ideal S1x512 .f32) (A : Vec Ideal S1024x512 .f32) : Prop :=
  ∀ (q : Fin 512) (h : Fin 1024),
    Inv (sSeq D Q b q) (wSeq D b h) n (M (ix2 (0 : Fin 1) q)) (L (ix2 (0 : Fin 1) q)) (A (ix2 h q))

/-- A tile's scores are the sequence's next 256 terms, when the tile holds rows `n, n+1, …` of the documents and the
    stored block holds the queries. -/
theorem scores_tile (b : Fin 8) (n : ℕ) (x0 : Vec Ideal S1x256x1024 .f32) (qb : Vec Ideal S512x1024 .bf16)
    (hx0 : ∀ (r : Fin 256) (k : Fin 1024), x0 (ix3 (0 : Fin 1) r k) = D (ix3 b (dI (n + r.val)) k))
    (hqb : ∀ (q : Fin 512) (k : Fin 1024), qb (ix2 q k) = Q (ix3 b q k)) (r : Fin 256) (q : Fin 512) :
    k0_pay14 x0 qb (ix2 r q) = sSeq D Q b q (n + r.val) := by
  rw [score_apply]
  unfold sSeq score
  exact Finset.sum_congr rfl fun k _ => by rw [hx0, hqb]

/-- THE FIRST TILE establishes the invariant from the reset values. -/
theorem first_tile (hD : ∀ i, IsReal (D i)) (hQ : ∀ i, IsReal (Q i)) (b : Fin 8)
    (x0 : Vec Ideal S1x256x1024 .f32) (qb : Vec Ideal S512x1024 .bf16)
    (hx0 : ∀ (r : Fin 256) (k : Fin 1024), x0 (ix3 (0 : Fin 1) r k) = D (ix3 b (dI (0 + r.val)) k))
    (hqb : ∀ (q : Fin 512) (k : Fin 1024), qb (ix2 q k) = Q (ix3 b q k)) :
    Carried D Q b 256 (k0_pay5 (k0_pay17 x0 qb (k0_pay8 (F := Ideal)))) (k0_pay3 (k0_pay14 x0 qb) (k0_pay17 x0 qb (k0_pay8 (F := Ideal))) (k0_pay8 (F := Ideal)) (k0_pay9 (F := Ideal)))
      (k0_pay4 (k0_pay13 x0) (k0_pay14 x0 qb) (k0_pay17 x0 qb (k0_pay8 (F := Ideal))) (k0_pay8 (F := Ideal)) (k0_pay10 (F := Ideal))) := by
  intro q h
  have hs := scores_tile D Q b 0 x0 qb hx0 hqb
  have key := Cert.OnlineSoftmax.first 256 (by norm_num) (sSeq D Q b q) (wSeq D b h) (sSeq_real D Q hD hQ b q)
  rw [keep_apply, newSum_apply, newAcc_apply, newMax_apply, resetM_apply, resetL_apply, resetA_apply]
  simp only [hs, hx0]
  exact key

/-- A LATER TILE keeps it. -/
theorem step_tile (hD : ∀ i, IsReal (D i)) (hQ : ∀ i, IsReal (Q i)) (b : Fin 8) (n : ℕ)
    (x0 : Vec Ideal S1x256x1024 .f32) (qb : Vec Ideal S512x1024 .bf16) (M L : Vec Ideal S1x512 .f32) (A : Vec Ideal S1024x512 .f32)
    (hx0 : ∀ (r : Fin 256) (k : Fin 1024), x0 (ix3 (0 : Fin 1) r k) = D (ix3 b (dI (n + r.val)) k))
    (hqb : ∀ (q : Fin 512) (k : Fin 1024), qb (ix2 q k) = Q (ix3 b q k))
    (hc : Carried D Q b n M L A) :
    Carried D Q b (n + 256) (k0_pay5 (k0_pay17 x0 qb M)) (k0_pay3 (k0_pay14 x0 qb) (k0_pay17 x0 qb M) M L)
      (k0_pay4 (k0_pay13 x0) (k0_pay14 x0 qb) (k0_pay17 x0 qb M) M A) := by
  intro q h
  have hs := scores_tile D Q b n x0 qb hx0 hqb
  have key := Cert.OnlineSoftmax.step 256 n (by norm_num) (sSeq D Q b q) (wSeq D b h) (sSeq_real D Q hD hQ b q) (wSeq_real D hD b h) _ _ _ (hc q h)
  rw [keep_apply, newSum_apply, newAcc_apply, newMax_apply]
  simp only [hs, hx0]
  exact key

/-- The documents' maximum against a query row is real. -/
theorem colMax_real (hD : ∀ i, IsReal (D i)) (hQ : ∀ i, IsReal (Q i)) (b : Fin 8) (q : Fin 512) : IsReal (colMax D Q b q) := by
  have h := Cert.OnlineSoftmax.max_real 2048 0 (by norm_num) (sSeq D Q b q) (sSeq_real D Q hD hQ b q) ⊥ (Or.inl rfl)
  have e : (fun k : Fin 2048 => sSeq D Q b q (0 + k.val)) = fun d => score D Q b d q :=
    funext fun d => by unfold sSeq; rw [zero_add, dI_coe]
  rw [e] at h
  exact h

/-- AFTER ALL 2048 ROWS the quotient the last tile writes is the query side. -/
theorem close_tile (hD : ∀ i, IsReal (D i)) (hQ : ∀ i, IsReal (Q i)) (b : Fin 8)
    (M L : Vec Ideal S1x512 .f32) (A : Vec Ideal S1024x512 .f32) (hc : Carried D Q b 2048 M L A) (q : Fin 512) (h : Fin 1024) :
    k0_pay7 A L (ix3 (0 : Fin 1) q h) = qryOut D Q b q h := by
  rw [quotient_apply, Cert.OnlineSoftmax.quotient_eq 2048 (by norm_num) (sSeq D Q b q) (wSeq D b h) (sSeq_real D Q hD hQ b q)
    (wSeq_real D hD b h) _ _ _ (hc q h) (colMax D Q b q) (colMax_real D Q hD hQ b q)]
  unfold qryOut colW
  rw [Finset.sum_range]
  refine Finset.sum_congr rfl fun d _ => ?_
  rw [Finset.sum_range]
  simp only [sSeq, wSeq, dI_coe]

end Cert.KernelIdeal.Tile

end
-- ==== Proof.Blocks.lean ====
/-
  The windows' blocks at a grid point, read at an entry.

  The grid has 8 × 8 points; point `t` is tile `t mod 8` of batch `t / 8`.  The document window's block there is rows
  `256·(t mod 8) …` of the batch's documents, the query window's block the batch's queries; the first output's block
  sits where the document block does, with 2048 columns, the second output's where the query block does.
-/
import proofs.«144034_j58153857187901_2_alg».proof.Proof.Gen.KernelIdeal.Value
import proofs.«144034_j58153857187901_2_alg».proof.Proof.TileInv
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Tile

variable (m : (ℓ : Loc nD τ sig) → Buf (Elt Ideal) ℓ)

/-- The batch a point's number names. -/
def bN (n : ℕ) : Fin 8 := ⟨n / 8 % 8, Nat.mod_lt _ (by norm_num)⟩

theorem bN_pred (n : ℕ) (h : ¬n % 8 = 0) : bN (n - 1) = bN n := Fin.ext (by show (n - 1) / 8 % 8 = n / 8 % 8; omega)

/-- The printed index maps, decided over the grid. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = t.val % 8 ∧ win0_2.index t (2 : Fin 3) = 0
    ∧ win0_3.index t (0 : Fin 3) = t.val / 8 ∧ win0_3.index t (1 : Fin 3) = 0 ∧ win0_3.index t (2 : Fin 3) = 0 :=
  (by decide +kernel : ∀ t : Fin grid0.N, _)

/-- The document window's block at point `t`: rows `n₀ + r` of batch `t / 8`, where `n₀ = 256·(t mod 8)`. -/
theorem dblk_apply (c : Dev nD) (t : Fin cfg0.N) (n0 : ℕ) (hn0 : n0 = 256 * (t.val % 8)) (r : Fin 256) (k : Fin 1024) :
    iblk m c 0 t (ix3 (0 : Fin 1) r k) = m ((c : Thread nD τ).loc main_arg0) (ix3 (bN t.val) (dI (n0 + r.val)) k) := by
  obtain ⟨e0, e1, e2, -⟩ := idx_facts t
  have hN := lt_of_lt_of_eq t.isLt N_0
  show V m c main_arg0 (((cfg0.win 0).blk t).view.emb (ix3 (0 : Fin 1) r k)) = _
  refine congrArg (m ((c : Thread nD τ).loc main_arg0)) (funext fun a => Fin.ext ?_)
  match a with
  | ⟨0, _⟩ => show win0_0.index t (0 : Fin 3) * 1 + 1 * 0 = t.val / 8 % 8; omega
  | ⟨1, _⟩ => show win0_0.index t (1 : Fin 3) * 256 + 1 * r.val = (n0 + r.val) % 2048; have := r.isLt; omega
  | ⟨2, _⟩ => show win0_0.index t (2 : Fin 3) * 1024 + 1 * k.val = k.val; omega

/-- The query window's block at point `t`: the queries of batch `t / 8`. -/
theorem qblk_apply (c : Dev nD) (t : Fin cfg0.N) (q : Fin 512) (k : Fin 1024) :
    iblk m c 1 t (ix3 (0 : Fin 1) q k) = m ((c : Thread nD τ).loc main_arg1) (ix3 (bN t.val) q k) := by
  obtain ⟨-, -, -, e0, e1, e2, -⟩ := idx_facts t
  have hN := lt_of_lt_of_eq t.isLt N_0
  show V m c main_arg1 (((cfg0.win 1).blk t).view.emb (ix3 (0 : Fin 1) q k)) = _
  refine congrArg (m ((c : Thread nD τ).loc main_arg1)) (funext fun a => Fin.ext ?_)
  match a with
  | ⟨0, _⟩ => show win0_1.index t (0 : Fin 3) * 1 + 1 * 0 = t.val / 8 % 8; omega
  | ⟨1, _⟩ => show win0_1.index t (1 : Fin 3) * 512 + 1 * q.val = q.val; omega
  | ⟨2, _⟩ => show win0_1.index t (2 : Fin 3) * 1024 + 1 * k.val = k.val; omega

end Cert.KernelIdeal.Blocks

end
-- ==== Proof.Carry.lean ====
/-
  The scratch the kernel carries, after every grid point.

  After point `n` — tile `n mod 8` of batch `n / 8` — the stored copy of the query block holds the batch's queries, and
  the running maximum, running sum and accumulator hold the state of the first `256·(n mod 8 + 1)` document rows of the
  batch (`Tile.Carried`): by induction on the point, the first tile of a batch from the reset values, every other tile
  from what the point before left — for real entries of the two argument arrays.
-/
import proofs.«144034_j58153857187901_2_alg».proof.Proof.Gen.KernelIdeal.Value
import proofs.«144034_j58153857187901_2_alg».proof.Proof.Pieces
import proofs.«144034_j58153857187901_2_alg».proof.Proof.Blocks
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Carry

open Cert.KernelIdeal Cert.KernelIdeal.Gen Cert.KernelIdeal.Tile Cert.KernelIdeal.Blocks Cert.KernelIdeal.Pieces Cert.Spec
open Cert.OnlineSoftmax (IsReal)

variable (m : (ℓ : Loc nD τ sig) → Buf (Elt Ideal) ℓ)

/-- The documents and the queries as the region finds them. -/
abbrev Darr (c : Dev nD) : SD.Idx → EReal := m ((c : Thread nD τ).loc main_arg0)
abbrev Qarr (c : Dev nD) : SQ.Idx → EReal := m ((c : Thread nD τ).loc main_arg1)

/-- What the scratch holds after point `n`. -/
def After (c : Dev nD) (n : ℕ) (hn : n < cfg0.N) : Prop :=
  (∀ (q : Fin 512) (k : Fin 1024), (outsAt0 m c n hn).2.2.2.2.2 (ix2 q k) = Qarr m c (ix3 (bN n) q k))
  ∧ Carried (Darr m c) (Qarr m c) (bN n) (256 * (n % 8 + 1))
      (outsAt0 m c n hn).2.2.1 (outsAt0 m c n hn).2.2.2.1 (outsAt0 m c n hn).2.2.2.2.1

theorem after_point (c : Dev nD) (hD : ∀ i, IsReal (Darr m c i)) (hQ : ∀ i, IsReal (Qarr m c i)) :
    ∀ (n : ℕ) (hn : n < cfg0.N), After m c n hn := by
  intro n
  induction n using Nat.strong_induction_on with
  | _ n ih =>
    intro hn
    have hN : n < 64 := lt_of_lt_of_eq hn N_0
    unfold After
    by_cases h0 : n % 8 = 0
    · -- the first tile of a batch
      have h1 : ¬n % 8 = 7 := by omega
      rw [outsAt0_A m c ⟨n, hn⟩ h0 h1]
      dsimp only
      rw [A_m, A_l, A_a, A_qb]
      have hqb : ∀ (q : Fin 512) (k : Fin 1024), k0_pay11 (iblk m c 1 ⟨n, hn⟩) (ix2 q k) = Qarr m c (ix3 (bN n) q k) :=
        fun q k => (copy_apply _ q k).trans (qblk_apply m c ⟨n, hn⟩ q k)
      refine ⟨hqb, ?_⟩
      have e : 256 * (n % 8 + 1) = 256 := by omega
      rw [e]
      exact first_tile (Darr m c) (Qarr m c) hD hQ (bN n) (iblk m c 0 ⟨n, hn⟩) (k0_pay11 (iblk m c 1 ⟨n, hn⟩))
        (fun r k => dblk_apply m c ⟨n, hn⟩ 0 (by show 0 = 256 * (n % 8); omega) r k) hqb
    · -- a later tile: over what the point before left
      have ihp := ih (n - 1) (by omega) (Nat.lt_of_le_of_lt (Nat.sub_le _ _) hn)
      unfold After at ihp
      rw [bN_pred n h0, show 256 * ((n - 1) % 8 + 1) = 256 * (n % 8) from by omega] at ihp
      have e : 256 * (n % 8 + 1) = 256 * (n % 8) + 256 := by omega
      by_cases h1 : n % 8 = 7
      · rw [outsAt0_C m c ⟨n, hn⟩ h0 h1]
        dsimp only
        rw [C_m, C_l, C_a, e]
        exact ⟨ihp.1, step_tile (Darr m c) (Qarr m c) hD hQ (bN n) (256 * (n % 8)) (iblk m c 0 ⟨n, hn⟩) _ _ _ _
          (fun r k => dblk_apply m c ⟨n, hn⟩ (256 * (n % 8)) rfl r k) ihp.1 ihp.2⟩
      · rw [outsAt0_B m c ⟨n, hn⟩ h0 h1]
        dsimp only
        rw [B_m, B_l, B_a, e]
        exact ⟨ihp.1, step_tile (Darr m c) (Qarr m c) hD hQ (bN n) (256 * (n % 8)) (iblk m c 0 ⟨n, hn⟩) _ _ _ _
          (fun r k => dblk_apply m c ⟨n, hn⟩ (256 * (n % 8)) rfl r k) ihp.1 ihp.2⟩

end Cert.KernelIdeal.Carry

end
-- ==== Proof.TileRows.lean ====
/-
  The first output's right half at an entry: each document row's softmax along the queries, times the stored query
  block.  With scores `s r q` of the tile, `μ r = max (-∞) (max_q s r q)`, `e r q = exp (s r q - μ r)`:
      out r h = ∑_q (e r q / ∑_q' e r q') · QB q h.
  The left halves of both outputs pass a block through unchanged.
-/
import proofs.«144034_j58153857187901_2_alg».proof.Proof.Gen.KernelIdeal.Skeleton
import proofs.«144034_j58153857187901_2_alg».proof.Proof.TileStep
import proofs.«144034_j58153857187901_2_alg».proof.Proof.LibColumnLayout
import proofs.«144034_j58153857187901_2_alg».proof.Proof.LibDense
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx Cert.ColumnLayout Cert.Dense

/-- Inserting column `q` after row `r`: the index a reduction along the columns folds over. -/
theorem lift_cols (h : S256x512.Reduces [1] S256) (r : Fin 256) (q : Fin 512) : h.lift (ix1 r) q = ix2 r q := by
  funext c; apply Fin.ext
  match c with
  | ⟨0, _⟩ => rfl
  | ⟨1, _⟩ => rfl

variable (s : FVec Ideal S256x512 .f32)

/-- The rows' maxima, compared once more with `-∞`. -/
def rowMaxV : FVec Ideal S256 .f32 :=
  maximumf (broadcast S256 (Scalar.ofBits .f32 0xFF800000#32))
    (multiReduction .maximumf [1] S256 s 0xFF800000#32 reduces_S256x512_S256 (.inl rfl) rfl)

/-- `exp` of the scores less their row's maximum. -/
def rowExp : FVec Ideal S256x512 .f32 :=
  exp (subf s (broadcastTo S256x512 (shapeCast S256x1 (rowMaxV s) shapeCasts_S256_S256x1) broadcasts_S256x1_S256x512))

/-- The softmax along the rows. -/
def rowSoft : FVec Ideal S256x512 .f32 :=
  divf (rowExp s) (broadcastTo S256x512
    (shapeCast S256x1 (multiReduction .add [1] S256 (rowExp s) 0x00000000#32 reduces_S256x512_S256 (.inl rfl) rfl) shapeCasts_S256_S256x1)
    broadcasts_S256x1_S256x512)

theorem rowMaxV_apply (r : Fin 256) :
    rowMaxV s (ix1 r) = max ⊥ ((Finset.univ : Finset (Fin 512)).fold max ⊥ fun q => s (ix2 r q)) := by
  unfold rowMaxV
  rw [maximumf_apply, broadcast_apply]
  refine congrArg₂ max negInf ?_
  refine (Ideal.multiReduction_maximumf_single s 0xFF800000#32 reduces_S256x512_S256 (.inl rfl) rfl (ix1 r)).trans ?_
  rw [Ideal.ofBits_def, negInf]
  exact congrArg ((Finset.univ : Finset (Fin 512)).fold max (⊥ : EReal)) (funext fun q => congrArg s (lift_cols _ r q))

theorem rowExp_apply (r : Fin 256) (q : Fin 512) : rowExp s (ix2 r q) = Ideal.exp (s (ix2 r q) - rowMaxV s (ix1 r)) := by
  unfold rowExp
  rw [exp_apply, subf_apply, broadcastTo_a1_ab_apply, shapeCast_a_a1_apply]

theorem rowSoft_apply (r : Fin 256) (q : Fin 512) :
    rowSoft s (ix2 r q) = Ideal.div (rowExp s (ix2 r q)) (∑ q' : Fin 512, rowExp s (ix2 r q')) := by
  unfold rowSoft
  rw [divf_apply, broadcastTo_a1_ab_apply, shapeCast_a_a1_apply]
  refine congrArg (Ideal.div (rowExp s (ix2 r q))) ?_
  refine (Ideal.multiReduction_add_single (rowExp s) 0x00000000#32 reduces_S256x512_S256 (.inl rfl) rfl (ix1 r)).trans ?_
  exact Finset.sum_congr rfl fun q' _ => congrArg (rowExp s) (lift_cols _ r q')

variable (x0 : Vec Ideal S1x256x1024 .f32) (qb : Vec Ideal S512x1024 .bf16)

/-- The right half of the first output is the rows' softmax times the stored query block. -/
theorem attend_eq : k0_pay16 x0 qb
    = shapeCast S1x256x1024 (matmul (φ₁ := .bf16) (φ₂ := .bf16) dot_S256x512_S512x1024_S256x1024_1_0_0_1_n_n none
        (truncf .bf16 (rowSoft (k0_pay14 x0 qb)) bitsLt_bf16_f32) qb (constant S256x1024 .f32 0x00000000#32)) shapeCasts_S256x1024_S1x256x1024 := rfl

theorem attend_apply (r : Fin 256) (h : Fin 1024) :
    k0_pay16 x0 qb (ix3 (0 : Fin 1) r h) = ∑ q : Fin 512, rowSoft (k0_pay14 x0 qb) (ix2 r q) * qb (ix2 q h) := by
  rw [attend_eq, shapeCast_ab_1ab_apply]
  refine (congrFun (matmul_plain_zero (M := 256) (K := 512) (N := 1024) none _ _) (ix2 r h)).trans ?_
  rfl

/-- The left half of the first output is the document tile. -/
theorem passD_apply (r : Fin 256) (h : Fin 1024) : k0_pay15 x0 (ix3 (0 : Fin 1) r h) = x0 (ix3 (0 : Fin 1) r h) := by
  unfold k0_pay15 k0_pay12
  rw [shapeCast_ab_1ab_apply, shapeCast_1ab_ab_apply]

/-- The left half of the second output is the query block. -/
theorem passQ_apply (x1 : Vec Ideal S1x512x1024 .f32) (q : Fin 512) (h : Fin 1024) :
    k0_pay6 x1 (ix3 (0 : Fin 1) q h) = x1 (ix3 (0 : Fin 1) q h) := by
  unfold k0_pay6
  rw [shapeCast_ab_1ab_apply, shapeCast_1ab_ab_apply]

end Cert.KernelIdeal.Tile

end
-- ==== Proof.TileOut.lean ====
/-
  The two outputs' blocks at an entry.

  A block is written by two stores, one per half of its 2048 columns: the left half passes an argument block
  through, the right half holds the attention result.  For the first output the right half at row `r`, column
  `1024 + h` is the specification's document side at the tile's row `n + r`: the same operations on the same scores.
-/
import proofs.«144034_j58153857187901_2_alg».proof.Proof.Gen.KernelIdeal.Skeleton
import proofs.«144034_j58153857187901_2_alg».proof.Proof.TileRows
import proofs.«144034_j58153857187901_2_alg».proof.Proof.TileInv
import proofs.«144034_j58153857187901_2_alg».proof.Proof.LibColumnLayout
import proofs.«144034_j58153857187901_2_alg».proof.Proof.LibDense
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx Cert.Spec

/-! ## Two stores, read back (over any shape: nothing here depends on the extents) -/

section TwoStores

variable {S : Shape} {e : EltTy} {Val : EltTy → Type} [∀ e, Nonempty (Val e)]

/-- Where the later of two stores wrote, its payload is read back. -/
theorem canon2_hi (R1 R0 : Rect S) (P1 : R1.shape.Idx → Val e) (P0 : R0.shape.Idx → Val e) (x : R1.shape.Idx) :
    View.canon (Val := Val) [⟨R1, P1⟩, ⟨R0, P0⟩] (R1.emb x) = P1 x :=
  View.canon_cons_emb R1 P1 _ x

/-- Where only the earlier one wrote, its payload is. -/
theorem canon2_lo (R1 R0 : Rect S) (P1 : R1.shape.Idx → Val e) (P0 : R0.shape.Idx → Val e) (x : R0.shape.Idx)
    (h : R0.emb x ∉ R1.set) :
    View.canon (Val := Val) [⟨R1, P1⟩, ⟨R0, P0⟩] (R0.emb x) = P0 x :=
  (View.canon_cons_of_not_mem (⟨R1, P1⟩ : View.Piece Val S e) [⟨R0, P0⟩] h).trans (View.canon_cons_emb R0 P0 [] x)

end TwoStores

/-! ## The two outputs' blocks: which store an index belongs to -/

/-- In the first output's block, an index right of column 1024 is the later store's own index 1024 columns earlier. -/
theorem emb2_hi (r : Fin 256) (col : Fin 2048) (hc : ¬col.val < 1024) :
    (ix3 (0 : Fin 1) r col : S1x256x2048.Idx) = (Rect.unit (s := S1x256x2048) ![0, 0, 1024] S1x256x1024.size Gen.inb_S1x256x2048_S1x256x1024_0_0_1024).emb (ix3 (0 : Fin 1) r ⟨col.val - 1024, by have := col.isLt; omega⟩) :=
  funext fun a => Fin.ext (by
    match a with
    | ⟨0, _⟩ => rfl
    | ⟨1, _⟩ => show r.val = 0 + 1 * r.val; omega
    | ⟨2, _⟩ => show col.val = 1024 + 1 * (col.val - 1024); omega)

/-- … and an index left of it is the earlier store's own index. -/
theorem emb2_lo (r : Fin 256) (col : Fin 2048) (hc : col.val < 1024) :
    (ix3 (0 : Fin 1) r col : S1x256x2048.Idx) = (Rect.unit (s := S1x256x2048) ![0, 0, 0] S1x256x1024.size Gen.inb_S1x256x2048_S1x256x1024_0_0_0).emb (ix3 (0 : Fin 1) r ⟨col.val, hc⟩) :=
  funext fun a => Fin.ext (by
    match a with
    | ⟨0, _⟩ => rfl
    | ⟨1, _⟩ => show r.val = 0 + 1 * r.val; omega
    | ⟨2, _⟩ => show col.val = 0 + 1 * col.val; omega)

/-- … which the later store does not reach. -/
theorem notmem2 (r : Fin 256) (col : Fin 2048) (hc : col.val < 1024) :
    (Rect.unit (s := S1x256x2048) ![0, 0, 0] S1x256x1024.size Gen.inb_S1x256x2048_S1x256x1024_0_0_0).emb (ix3 (0 : Fin 1) r ⟨col.val, hc⟩) ∉ (Rect.unit (s := S1x256x2048) ![0, 0, 1024] S1x256x1024.size Gen.inb_S1x256x2048_S1x256x1024_0_0_1024).set := fun hmem => by
  have h2 := (Rect.mem_set_unit.mp hmem (2 : Fin 3)).1
  have h2' : 1024 ≤ 0 + 1 * col.val := h2
  omega

/-- In the second output's block, an index right of column 1024 is the later store's own index 1024 columns earlier. -/
theorem emb3_hi (r : Fin 512) (col : Fin 2048) (hc : ¬col.val < 1024) :
    (ix3 (0 : Fin 1) r col : S1x512x2048.Idx) = (Rect.unit (s := S1x512x2048) ![0, 0, 1024] S1x512x1024.size Gen.inb_S1x512x2048_S1x512x1024_0_0_1024).emb (ix3 (0 : Fin 1) r ⟨col.val - 1024, by have := col.isLt; omega⟩) :=
  funext fun a => Fin.ext (by
    match a with
    | ⟨0, _⟩ => rfl
    | ⟨1, _⟩ => show r.val = 0 + 1 * r.val; omega
    | ⟨2, _⟩ => show col.val = 1024 + 1 * (col.val - 1024); omega)

/-- … and an index left of it is the earlier store's own index. -/
theorem emb3_lo (r : Fin 512) (col : Fin 2048) (hc : col.val < 1024) :
    (ix3 (0 : Fin 1) r col : S1x512x2048.Idx) = (Rect.unit (s := S1x512x2048) ![0, 0, 0] S1x512x1024.size Gen.inb_S1x512x2048_S1x512x1024_0_0_0).emb (ix3 (0 : Fin 1) r ⟨col.val, hc⟩) :=
  funext fun a => Fin.ext (by
    match a with
    | ⟨0, _⟩ => rfl
    | ⟨1, _⟩ => show r.val = 0 + 1 * r.val; omega
    | ⟨2, _⟩ => show col.val = 0 + 1 * col.val; omega)

/-- … which the later store does not reach. -/
theorem notmem3 (r : Fin 512) (col : Fin 2048) (hc : col.val < 1024) :
    (Rect.unit (s := S1x512x2048) ![0, 0, 0] S1x512x1024.size Gen.inb_S1x512x2048_S1x512x1024_0_0_0).emb (ix3 (0 : Fin 1) r ⟨col.val, hc⟩) ∉ (Rect.unit (s := S1x512x2048) ![0, 0, 1024] S1x512x1024.size Gen.inb_S1x512x2048_S1x512x1024_0_0_1024).set := fun hmem => by
  have h2 := (Rect.mem_set_unit.mp hmem (2 : Fin 3)).1
  have h2' : 1024 ≤ 0 + 1 * col.val := h2
  omega

variable (D : SD.Idx → EReal) (Q : SQ.Idx → EReal)

/-- The attention half of the first output's block is the document side of the specification at the tile's rows. -/
theorem attend_spec (b : Fin 8) (n : ℕ) (x0 : Vec Ideal S1x256x1024 .f32) (qb : Vec Ideal S512x1024 .bf16)
    (hx0 : ∀ (r : Fin 256) (k : Fin 1024), x0 (ix3 (0 : Fin 1) r k) = D (ix3 b (dI (n + r.val)) k))
    (hqb : ∀ (q : Fin 512) (k : Fin 1024), qb (ix2 q k) = Q (ix3 b q k)) (r : Fin 256) (h : Fin 1024) :
    k0_pay16 x0 qb (ix3 (0 : Fin 1) r h) = docOut D Q b (dI (n + r.val)) h := by
  have hs : ∀ q : Fin 512, k0_pay14 x0 qb (ix2 r q) = score D Q b (dI (n + r.val)) q := fun q => scores_tile D Q b n x0 qb hx0 hqb r q
  rw [attend_apply]
  unfold docOut rowW rowMax
  refine Finset.sum_congr rfl fun q _ => ?_
  rw [rowSoft_apply, hqb]
  simp only [rowExp_apply, rowMaxV_apply, hs]

end Cert.KernelIdeal.Tile

end
-- ==== Proof.KernelValue.lean ====
/-
  The kernel's two result arrays after the run are the specification's, for real entries of the arguments.

  First output: every grid point writes its block back, and the blocks tile the array — point `t` covers rows
  `256·(t mod 8) …` of batch `t / 8`.  The block's left half is the document tile, its right half the tile's rows of
  the document side (the same operations on the same scores).  Second output: only the last tile of a batch writes
  back, one block per batch; its left half is the query block, its right half the accumulator divided by the running
  sum after all 2048 rows, which the running-maximum invariant turns into the document-axis softmax times `D`.
-/
import proofs.«144034_j58153857187901_2_alg».proof.Proof.Gen.KernelIdeal.Value
import proofs.«144034_j58153857187901_2_alg».proof.Proof.Carry
import proofs.«144034_j58153857187901_2_alg».proof.Proof.TileOut
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Value Cert.KernelIdeal.Tile Cert.KernelIdeal.Blocks
open Cert.KernelIdeal.Pieces Cert.KernelIdeal.Carry Cert.Spec
open Cert.OnlineSoftmax (IsReal)

variable (m : (ℓ : Loc nD τ sig) → Buf (Elt Ideal) ℓ) (ρ : Dev nD → PrngReg)

/-- The first output's staging buffer after point `n`: the document tile beside the attention result against the
    stored query block, whichever case ran. -/
theorem out2_at (c : Dev nD) (n : ℕ) (hn : n < cfg0.N) :
    (outsAt0 m c n hn).1 = View.canon (Val := Elt Ideal) (s := S1x256x2048) (e := .f32) [⟨(Rect.unit (s := S1x256x2048) ![0, 0, 1024] S1x256x1024.size Gen.inb_S1x256x2048_S1x256x1024_0_0_1024), k0_pay16 (iblk m c 0 ⟨n, hn⟩) (outsAt0 m c n hn).2.2.2.2.2⟩, ⟨(Rect.unit (s := S1x256x2048) ![0, 0, 0] S1x256x1024.size Gen.inb_S1x256x2048_S1x256x1024_0_0_0), k0_pay15 (iblk m c 0 ⟨n, hn⟩)⟩] := by
  have hN : n < 64 := lt_of_lt_of_eq hn N_0
  by_cases h0 : n % 8 = 0
  · have h1 : ¬n % 8 = 7 := by omega
    rw [outsAt0_A m c ⟨n, hn⟩ h0 h1]
    dsimp only
    rw [A_o2, A_qb]
  · by_cases h1 : n % 8 = 7
    · rw [outsAt0_C m c ⟨n, hn⟩ h0 h1]
      dsimp only
      rw [C_o2] <;> rfl
    · rw [outsAt0_B m c ⟨n, hn⟩ h0 h1]
      dsimp only
      rw [B_o2] <;> rfl

/-- The second output's staging buffer after the last tile of a batch: the query block beside the accumulator over
    the running sum, transposed. -/
theorem out3_at (c : Dev nD) (n : ℕ) (hn : n < cfg0.N) (h1 : n % 8 = 7) :
    (outsAt0 m c n hn).2.1 = View.canon (Val := Elt Ideal) (s := S1x512x2048) (e := .f32)
      [⟨(Rect.unit (s := S1x512x2048) ![0, 0, 1024] S1x512x1024.size Gen.inb_S1x512x2048_S1x512x1024_0_0_1024), k0_pay7 (outsAt0 m c n hn).2.2.2.2.1 (outsAt0 m c n hn).2.2.2.1⟩, ⟨(Rect.unit (s := S1x512x2048) ![0, 0, 0] S1x512x1024.size Gen.inb_S1x512x2048_S1x512x1024_0_0_0), k0_pay6 (iblk m c 1 ⟨n, hn⟩)⟩] := by
  have h0 : ¬n % 8 = 0 := by omega
  rw [outsAt0_C m c ⟨n, hn⟩ h0 h1]
  dsimp only
  rw [C_o3, C_a, C_l]

/-- The first result of the specification at an index given by its coordinates. -/
theorem dprime_at (D : SD.Idx → EReal) (Q : SQ.Idx → EReal) (j : SDP.Idx) (b : Fin 8) (d : Fin 2048) (col : Fin 2048)
    (hb : (j 0).val = b.val) (hd : (j 1).val = d.val) (hcol : (j 2).val = col.val) :
    DPrime D Q j = if hj : col.val < 1024 then D (ix3 b d ⟨col.val, hj⟩)
      else docOut D Q b d ⟨col.val - 1024, by have := col.isLt; omega⟩ := by
  have e : j = ix3 b d col := funext fun a => Fin.ext (by
    match a with
    | ⟨0, _⟩ => exact hb
    | ⟨1, _⟩ => exact hd
    | ⟨2, _⟩ => exact hcol)
  subst e
  rfl

/-- The second result of the specification at an index given by its coordinates. -/
theorem qprime_at (D : SD.Idx → EReal) (Q : SQ.Idx → EReal) (j : SQP.Idx) (b : Fin 8) (q : Fin 512) (col : Fin 2048)
    (hb : (j 0).val = b.val) (hq : (j 1).val = q.val) (hcol : (j 2).val = col.val) :
    QPrime D Q j = if hj : col.val < 1024 then Q (ix3 b q ⟨col.val, hj⟩)
      else qryOut D Q b q ⟨col.val - 1024, by have := col.isLt; omega⟩ := by
  have e : j = ix3 b q col := funext fun a => Fin.ext (by
    match a with
    | ⟨0, _⟩ => exact hb
    | ⟨1, _⟩ => exact hq
    | ⟨2, _⟩ => exact hcol)
  subst e
  rfl

/-- WHAT POINT `t` WRITES BACK to the first output is block `t` of the specification's first result. -/
theorem flushed2_eq (c : Dev nD) (hD : ∀ i, IsReal (Darr m c i)) (hQ : ∀ i, IsReal (Qarr m c i)) (t : Fin cfg0.N) :
    (dats m 0 c).flushed 2 t = ((cfg0.win 2).blk t).view.read (Elt Ideal) (DPrime (Darr m c) (Qarr m c)) := by
  obtain ⟨n, hn⟩ := t
  obtain ⟨-, -, -, -, -, -, e0, e1, e2, -⟩ := idx_facts ⟨n, hn⟩
  dsimp only at e0 e1 e2
  have hN : n < 64 := lt_of_lt_of_eq hn N_0
  have haft := after_point m c hD hQ n hn
  funext y
  rw [flushed2]
  show (outsAt0 m c n hn).1 y = DPrime (Darr m c) (Qarr m c) (((cfg0.win 2).blk ⟨n, hn⟩).view.emb y)
  obtain ⟨u, r, col, rfl⟩ : ∃ (u : Fin 1) (r : Fin 256) (col : Fin 2048), y = ix3 u r col := ⟨y 0, y 1, y 2, eq_ix3 y⟩
  obtain rfl : u = 0 := Subsingleton.elim _ _
  rw [out2_at, dprime_at (Darr m c) (Qarr m c) _ (bN n) (dI (256 * (n % 8) + r.val)) col
    (by show win0_2.index ⟨n, hn⟩ (0 : Fin 3) * 1 + 1 * 0 = n / 8 % 8; omega)
    (by show win0_2.index ⟨n, hn⟩ (1 : Fin 3) * 256 + 1 * r.val = (256 * (n % 8) + r.val) % 2048; have := r.isLt; omega)
    (by show win0_2.index ⟨n, hn⟩ (2 : Fin 3) * 2048 + 1 * col.val = col.val; omega)]
  by_cases hc : col.val < 1024
  · rw [dif_pos hc]
    conv_lhs => rw [emb2_lo r col hc]
    rw [canon2_lo _ _ _ _ _ (notmem2 r col hc), passD_apply]
    exact dblk_apply m c ⟨n, hn⟩ (256 * (n % 8)) rfl r _
  · rw [dif_neg hc]
    conv_lhs => rw [emb2_hi r col hc]
    rw [canon2_hi]
    exact attend_spec (Darr m c) (Qarr m c) (bN n) (256 * (n % 8)) (iblk m c 0 ⟨n, hn⟩) _
      (fun r k => dblk_apply m c ⟨n, hn⟩ (256 * (n % 8)) rfl r k) haft.1 r _

/-- WHAT THE LAST TILE OF A BATCH WRITES BACK to the second output is that batch's block of the specification's
    second result. -/
theorem flushed3_eq (c : Dev nD) (hD : ∀ i, IsReal (Darr m c i)) (hQ : ∀ i, IsReal (Qarr m c i)) (t : Fin cfg0.N)
    (hf : (cfg0.win 3).flush t = true) :
    (dats m 0 c).flushed 3 t = ((cfg0.win 3).blk t).view.read (Elt Ideal) (QPrime (Darr m c) (Qarr m c)) := by
  have h1 : t.val % 8 = 7 := (flush0_3 t).mp hf
  obtain ⟨n, hn⟩ := t
  dsimp only at h1
  obtain ⟨-, -, -, -, -, -, -, -, -, e0, e1, e2⟩ := idx_facts ⟨n, hn⟩
  dsimp only at e0 e1 e2
  have hN : n < 64 := lt_of_lt_of_eq hn N_0
  have haft := after_point m c hD hQ n hn
  have hcar : Carried (Darr m c) (Qarr m c) (bN n) 2048 (outsAt0 m c n hn).2.2.1 (outsAt0 m c n hn).2.2.2.1 (outsAt0 m c n hn).2.2.2.2.1 := by
    have h := haft.2
    rwa [show 256 * (n % 8 + 1) = 2048 from by omega] at h
  funext y
  rw [flushed3]
  show (outsAt0 m c n hn).2.1 y = QPrime (Darr m c) (Qarr m c) (((cfg0.win 3).blk ⟨n, hn⟩).view.emb y)
  obtain ⟨u, q, col, rfl⟩ : ∃ (u : Fin 1) (q : Fin 512) (col : Fin 2048), y = ix3 u q col := ⟨y 0, y 1, y 2, eq_ix3 y⟩
  obtain rfl : u = 0 := Subsingleton.elim _ _
  rw [out3_at m c n hn h1, qprime_at (Darr m c) (Qarr m c) _ (bN n) q col
    (by show win0_3.index ⟨n, hn⟩ (0 : Fin 3) * 1 + 1 * 0 = n / 8 % 8; omega)
    (by show win0_3.index ⟨n, hn⟩ (1 : Fin 3) * 512 + 1 * q.val = q.val; omega)
    (by show win0_3.index ⟨n, hn⟩ (2 : Fin 3) * 2048 + 1 * col.val = col.val; omega)]
  by_cases hc : col.val < 1024
  · rw [dif_pos hc]
    conv_lhs => rw [emb3_lo q col hc]
    rw [canon2_lo _ _ _ _ _ (notmem3 q col hc), passQ_apply]
    exact qblk_apply m c ⟨n, hn⟩ q _
  · rw [dif_neg hc]
    conv_lhs => rw [emb3_hi q col hc]
    rw [canon2_hi]
    exact close_tile (Darr m c) (Qarr m c) hD hQ (bN n) _ _ _ hcar q _

/-- An index of the first result is in point `t`'s block iff each coordinate is in the block's range on its axis. -/
theorem mem_blk2 (t : Fin cfg0.N) (i : S8x2048x2048.Idx) :
    i ∈ ((cfg0.win 2).blk t).view.set ↔ ∀ a : Fin 3, win0_2.index t a * S1x256x2048.size a ≤ (i a).val
      ∧ (i a).val < win0_2.index t a * S1x256x2048.size a + S1x256x2048.size a := by
  show i ∈ ((View.whole main_v0_0).slice (win0_2.rect t)).set ↔ _
  rw [View.set_slice_whole, Rect.mem_set_unit]
  exact Iff.rfl

theorem mem_blk3 (t : Fin cfg0.N) (i : S8x512x2048.Idx) :
    i ∈ ((cfg0.win 3).blk t).view.set ↔ ∀ a : Fin 3, win0_3.index t a * S1x512x2048.size a ≤ (i a).val
      ∧ (i a).val < win0_3.index t a * S1x512x2048.size a + S1x512x2048.size a := by
  show i ∈ ((View.whole main_v0_1).slice (win0_3.rect t)).set ↔ _
  rw [View.set_slice_whole, Rect.mem_set_unit]
  exact Iff.rfl

/-- THE FIRST RESULT ARRAY after the run. -/
theorem final2 (c : Dev nD) (hD : ∀ i, IsReal (Darr m c i)) (hQ : ∀ i, IsReal (Qarr m c i)) :
    (dats m 0 c).arrAt 2 cfg0.N = DPrime (Darr m c) (Qarr m c) :=
  (dats m 0 c).arrAt_eq_of_cover 2 _ (fun t _ => flushed2_eq m c hD hQ t) fun i => by
    have h0 : (i 0).val < 8 := (i 0).isLt
    have h1 : (i 1).val < 2048 := (i 1).isLt
    have h2 : (i 2).val < 2048 := (i 2).isLt
    obtain ⟨t, ht⟩ : ∃ t : Fin cfg0.N, t.val = 8 * (i 0).val + (i 1).val / 256 :=
      ⟨⟨8 * (i 0).val + (i 1).val / 256, by have hN : cfg0.N = 64 := N_0; omega⟩, rfl⟩
    obtain ⟨-, -, -, -, -, -, e0, e1, e2, -⟩ := idx_facts t
    refine ⟨t, flush0_2 t, ?_⟩
    rw [mem_blk2]
    intro a
    match a with
    | ⟨0, _⟩ => show win0_2.index t (0 : Fin 3) * 1 ≤ (i 0).val ∧ (i 0).val < win0_2.index t (0 : Fin 3) * 1 + 1; omega
    | ⟨1, _⟩ => show win0_2.index t (1 : Fin 3) * 256 ≤ (i 1).val ∧ (i 1).val < win0_2.index t (1 : Fin 3) * 256 + 256; omega
    | ⟨2, _⟩ => show win0_2.index t (2 : Fin 3) * 2048 ≤ (i 2).val ∧ (i 2).val < win0_2.index t (2 : Fin 3) * 2048 + 2048; omega

/-- THE SECOND RESULT ARRAY after the run. -/
theorem final3 (c : Dev nD) (hD : ∀ i, IsReal (Darr m c i)) (hQ : ∀ i, IsReal (Qarr m c i)) :
    (dats m 0 c).arrAt 3 cfg0.N = QPrime (Darr m c) (Qarr m c) :=
  (dats m 0 c).arrAt_eq_of_cover 3 _ (fun t hf => flushed3_eq m c hD hQ t hf) fun i => by
    have h0 : (i 0).val < 8 := (i 0).isLt
    have h1 : (i 1).val < 512 := (i 1).isLt
    have h2 : (i 2).val < 2048 := (i 2).isLt
    obtain ⟨t, ht⟩ : ∃ t : Fin cfg0.N, t.val = 8 * (i 0).val + 7 :=
      ⟨⟨8 * (i 0).val + 7, by have hN : cfg0.N = 64 := N_0; omega⟩, rfl⟩
    obtain ⟨-, -, -, -, -, -, -, -, -, e0, e1, e2⟩ := idx_facts t
    refine ⟨t, (flush0_3 t).mpr (by omega), ?_⟩
    rw [mem_blk3]
    intro a
    match a with
    | ⟨0, _⟩ => show win0_3.index t (0 : Fin 3) * 1 ≤ (i 0).val ∧ (i 0).val < win0_3.index t (0 : Fin 3) * 1 + 1; omega
    | ⟨1, _⟩ => show win0_3.index t (1 : Fin 3) * 512 ≤ (i 1).val ∧ (i 1).val < win0_3.index t (1 : Fin 3) * 512 + 512; omega
    | ⟨2, _⟩ => show win0_3.index t (2 : Fin 3) * 2048 ≤ (i 2).val ∧ (i 2).val < win0_3.index t (2 : Fin 3) * 2048 + 2048; omega

/-- THE RUN, READ: both results at the specification of the argument arrays, the arguments unchanged — when every
    entry of the arguments is real. -/
theorem run (hD : ∀ c i, IsReal (Darr m c i)) (hQ : ∀ c i, IsReal (Qarr m c i)) :
    θ_run defs (onTc (τ := τ) (main (F := Ideal))) ⟨m, fun _ => 0, ρ⟩ fun r => ∀ c : Dev nD,
      r.2.mem ((c : Thread nD τ).loc main_v0_0) = DPrime (Darr m c) (Qarr m c)
      ∧ r.2.mem ((c : Thread nD τ).loc main_v0_1) = QPrime (Darr m c) (Qarr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c (hD c) (hQ c)), (h c).2.1.trans (final3 m c (hD c) (hQ c)),
      (h c).2.2.1, (h c).2.2.2⟩)
    (run_blocks m ρ)

end Cert.KernelIdeal.KValue

end
-- ==== Proof.RefRun.lean ====
/-
  The reference program's run, read back.

  @main of the reference is a straight line of 33 host operations: the scores `S = D·Qᵀ` (one batched product), the
  softmax of `S` along the query axis times `Q`, set beside `D`; and the softmax of `S` along the document axis, its
  transpose times `D`, set beside `Q`.  Every weakly fair execution ends with each result buffer at the composed
  term of the argument arrays, `dprime D Q` and `qprime D Q` below, and the arguments unchanged.  A result is a
  concatenation of two arrays: after the concatenation itself has been evaluated, each of its two operands is
  evaluated in turn.
-/
import proofs.«144034_j58153857187901_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The scores: one product per batch, contracted over the feature axis. -/
def scores (D : (⟨S8x2048x1024, .f32⟩ : BufTy).Contents (Elt F)) (Q : (⟨S8x512x1024, .f32⟩ : BufTy).Contents (Elt F)) : (⟨S8x2048x512, .f32⟩ : BufTy).Contents (Elt F) :=
  Host.dotGeneral dot_S8x2048x1024_S8x512x1024_S8x2048x512_2_2_1_1_0_0 none D Q

/-- The softmax of the scores along the query axis (the last one): maxima folded from `-∞` and compared once more
    with `-∞`, kept as a unit axis and spread back; `exp` of the differences; their sums likewise; the quotient. -/
def softQ (S : (⟨S8x2048x512, .f32⟩ : BufTy).Contents (Elt F)) : (⟨S8x2048x512, .f32⟩ : BufTy).Contents (Elt F) :=
  let M : (⟨S8x2048, .f32⟩ : BufTy).Contents (Elt F) := maximumf (broadcastInDim S8x2048 ![] bcast_S_S8x2048 (constant S_ .f32 0xFF800000#32))
    (Host.reduce FloatOps.maximumf S (constant S_ .f32 0xFF800000#32) reducesTo_S8x2048x512_S8x2048_d2 h_S_)
  let E : (⟨S8x2048x512, .f32⟩ : BufTy).Contents (Elt F) := Host.exp (subf S (broadcastInDim S8x2048x512 ![0, 1, 2] bcast_S8x2048x1_S8x2048x512_0_1_2
    (broadcastInDim S8x2048x1 ![0, 1] bcast_S8x2048_S8x2048x1_0_1 M)))
  Host.divf E (broadcastInDim S8x2048x512 ![0, 1, 2] bcast_S8x2048x1_S8x2048x512_0_1_2
    (broadcastInDim S8x2048x1 ![0, 1] bcast_S8x2048_S8x2048x1_0_1
      (Host.reduceAdd E (constant S_ .f32 0x00000000#32) reducesTo_S8x2048x512_S8x2048_d2 h_S_)))

/-- The softmax of the scores along the document axis (the middle one), in the same spelling. -/
def softD (S : (⟨S8x2048x512, .f32⟩ : BufTy).Contents (Elt F)) : (⟨S8x2048x512, .f32⟩ : BufTy).Contents (Elt F) :=
  let M : (⟨S8x512, .f32⟩ : BufTy).Contents (Elt F) := maximumf (broadcastInDim S8x512 ![] bcast_S_S8x512 (constant S_ .f32 0xFF800000#32))
    (Host.reduce FloatOps.maximumf S (constant S_ .f32 0xFF800000#32) reducesTo_S8x2048x512_S8x512_d1 h_S_)
  let E : (⟨S8x2048x512, .f32⟩ : BufTy).Contents (Elt F) := Host.exp (subf S (broadcastInDim S8x2048x512 ![0, 1, 2] bcast_S8x1x512_S8x2048x512_0_1_2
    (broadcastInDim S8x1x512 ![0, 2] bcast_S8x512_S8x1x512_0_2 M)))
  Host.divf E (broadcastInDim S8x2048x512 ![0, 1, 2] bcast_S8x1x512_S8x2048x512_0_1_2
    (broadcastInDim S8x1x512 ![0, 2] bcast_S8x512_S8x1x512_0_2
      (Host.reduceAdd E (constant S_ .f32 0x00000000#32) reducesTo_S8x2048x512_S8x512_d1 h_S_)))

/-- The document side: the query-axis softmax times `Q`. -/
def docSide (D : (⟨S8x2048x1024, .f32⟩ : BufTy).Contents (Elt F)) (Q : (⟨S8x512x1024, .f32⟩ : BufTy).Contents (Elt F)) : (⟨S8x2048x1024, .f32⟩ : BufTy).Contents (Elt F) :=
  Host.dotGeneral dot_S8x2048x512_S8x512x1024_S8x2048x1024_2_1_1_2_0_0 none (softQ (scores D Q)) Q

/-- The query side: the document-axis softmax, contracted over the documents with `D`. -/
def qrySide (D : (⟨S8x2048x1024, .f32⟩ : BufTy).Contents (Elt F)) (Q : (⟨S8x512x1024, .f32⟩ : BufTy).Contents (Elt F)) : (⟨S8x512x1024, .f32⟩ : BufTy).Contents (Elt F) :=
  Host.dotGeneral dot_S8x2048x512_S8x2048x1024_S8x512x1024_1_1_2_2_0_0 none (softD (scores D Q)) D

/-- The first result: `D` and the document side set side by side along the last axis. -/
def dprime (D : (⟨S8x2048x1024, .f32⟩ : BufTy).Contents (Elt F)) (Q : (⟨S8x512x1024, .f32⟩ : BufTy).Contents (Elt F)) : (⟨S8x2048x2048, .f32⟩ : BufTy).Contents (Elt F) :=
  concatenate S8x2048x2048 2 [⟨S8x2048x1024, D⟩, ⟨S8x2048x1024, docSide D Q⟩] concatenates_S8x2048x1024_S8x2048x1024_S8x2048x2048_d2

/-- The second result: `Q` and the query side set side by side along the last axis. -/
def qprime (D : (⟨S8x2048x1024, .f32⟩ : BufTy).Contents (Elt F)) (Q : (⟨S8x512x1024, .f32⟩ : BufTy).Contents (Elt F)) : (⟨S8x512x2048, .f32⟩ : BufTy).Contents (Elt F) :=
  concatenate S8x512x2048 2 [⟨S8x512x1024, Q⟩, ⟨S8x512x1024, qrySide D Q⟩] concatenates_S8x512x1024_S8x512x1024_S8x512x2048_d2

/-- @main's 33 operations, in program order. -/
abbrev ops : List (HloOp τ sig (Elt F)) :=
  [
    binary main_arg0 main_arg1 main_v0 ((fun l r => Host.dotGeneral dot_S8x2048x1024_S8x512x1024_S8x2048x512_2_2_1_1_0_0 none l r) : (⟨S8x2048x1024, .f32⟩ : BufTy).Contents (Elt F) → (⟨S8x512x1024, .f32⟩ : BufTy).Contents (Elt F) → (⟨S8x2048x512, .f32⟩ : BufTy).Contents (Elt F)),
    nullary main_cst (constant S_ .f32 0xFF800000#32),
    binary main_v0 main_cst main_v1 ((fun x v => Host.reduce FloatOps.maximumf x v reducesTo_S8x2048x512_S8x2048_d2 h_S_) : (⟨S8x2048x512, .f32⟩ : BufTy).Contents (Elt F) → (⟨S_, .f32⟩ : BufTy).Contents (Elt F) → (⟨S8x2048, .f32⟩ : BufTy).Contents (Elt F)),
    nullary main_cst_0 (constant S_ .f32 0xFF800000#32),
    unary main_cst_0 main_v2 (broadcastInDim S8x2048 ![] bcast_S_S8x2048 : (⟨S_, .f32⟩ : BufTy).Contents (Elt F) → (⟨S8x2048, .f32⟩ : BufTy).Contents (Elt F)),
    binary main_v2 main_v1 main_v3 (maximumf : (⟨S8x2048, .f32⟩ : BufTy).Contents (Elt F) → (⟨S8x2048, .f32⟩ : BufTy).Contents (Elt F) → (⟨S8x2048, .f32⟩ : BufTy).Contents (Elt F)),
    unary main_v3 main_v4 (broadcastInDim S8x2048x1 ![0, 1] bcast_S8x2048_S8x2048x1_0_1 : (⟨S8x2048, .f32⟩ : BufTy).Contents (Elt F) → (⟨S8x2048x1, .f32⟩ : BufTy).Contents (Elt F)),
    unary main_v4 main_v5 (broadcastInDim S8x2048x512 ![0, 1, 2] bcast_S8x2048x1_S8x2048x512_0_1_2 : (⟨S8x2048x1, .f32⟩ : BufTy).Contents (Elt F) → (⟨S8x2048x512, .f32⟩ : BufTy).Contents (Elt F)),
    binary main_v0 main_v5 main_v6 (subf : (⟨S8x2048x512, .f32⟩ : BufTy).Contents (Elt F) → (⟨S8x2048x512, .f32⟩ : BufTy).Contents (Elt F) → (⟨S8x2048x512, .f32⟩ : BufTy).Contents (Elt F)),
    unary main_v6 main_v7 (Host.exp : (⟨S8x2048x512, .f32⟩ : BufTy).Contents (Elt F) → (⟨S8x2048x512, .f32⟩ : BufTy).Contents (Elt F)),
    nullary main_cst_1 (constant S_ .f32 0x00000000#32),
    binary main_v7 main_cst_1 main_v8 ((fun x v => Host.reduceAdd x v reducesTo_S8x2048x512_S8x2048_d2 h_S_) : (⟨S8x2048x512, .f32⟩ : BufTy).Contents (Elt F) → (⟨S_, .f32⟩ : BufTy).Contents (Elt F) → (⟨S8x2048, .f32⟩ : BufTy).Contents (Elt F)),
    unary main_v8 main_v9 (broadcastInDim S8x2048x1 ![0, 1] bcast_S8x2048_S8x2048x1_0_1 : (⟨S8x2048, .f32⟩ : BufTy).Contents (Elt F) → (⟨S8x2048x1, .f32⟩ : BufTy).Contents (Elt F)),
    unary main_v9 main_v10 (broadcastInDim S8x2048x512 ![0, 1, 2] bcast_S8x2048x1_S8x2048x512_0_1_2 : (⟨S8x2048x1, .f32⟩ : BufTy).Contents (Elt F) → (⟨S8x2048x512, .f32⟩ : BufTy).Contents (Elt F)),
    binary main_v7 main_v10 main_v11 (Host.divf : (⟨S8x2048x512, .f32⟩ : BufTy).Contents (Elt F) → (⟨S8x2048x512, .f32⟩ : BufTy).Contents (Elt F) → (⟨S8x2048x512, .f32⟩ : BufTy).Contents (Elt F)),
    binary main_v11 main_arg1 main_v12 ((fun l r => Host.dotGeneral dot_S8x2048x512_S8x512x1024_S8x2048x1024_2_1_1_2_0_0 none l r) : (⟨S8x2048x512, .f32⟩ : BufTy).Contents (Elt F) → (⟨S8x512x1024, .f32⟩ : BufTy).Contents (Elt F) → (⟨S8x2048x1024, .f32⟩ : BufTy).Contents (Elt F)),
    binary main_arg0 main_v12 main_v13 ((fun a b => concatenate S8x2048x2048 2 [⟨S8x2048x1024, a⟩, ⟨S8x2048x1024, b⟩] concatenates_S8x2048x1024_S8x2048x1024_S8x2048x2048_d2) : (⟨S8x2048x1024, .f32⟩ : BufTy).Contents (Elt F) → (⟨S8x2048x1024, .f32⟩ : BufTy).Contents (Elt F) → (⟨S8x2048x2048, .f32⟩ : BufTy).Contents (Elt F)),
    nullary main_cst_2 (constant S_ .f32 0xFF800000#32),
    binary main_v0 main_cst_2 main_v14 ((fun x v => Host.reduce FloatOps.maximumf x v reducesTo_S8x2048x512_S8x512_d1 h_S_) : (⟨S8x2048x512, .f32⟩ : BufTy).Contents (Elt F) → (⟨S_, .f32⟩ : BufTy).Contents (Elt F) → (⟨S8x512, .f32⟩ : BufTy).Contents (Elt F)),
    nullary main_cst_3 (constant S_ .f32 0xFF800000#32),
    unary main_cst_3 main_v15 (broadcastInDim S8x512 ![] bcast_S_S8x512 : (⟨S_, .f32⟩ : BufTy).Contents (Elt F) → (⟨S8x512, .f32⟩ : BufTy).Contents (Elt F)),
    binary main_v15 main_v14 main_v16 (maximumf : (⟨S8x512, .f32⟩ : BufTy).Contents (Elt F) → (⟨S8x512, .f32⟩ : BufTy).Contents (Elt F) → (⟨S8x512, .f32⟩ : BufTy).Contents (Elt F)),
    unary main_v16 main_v17 (broadcastInDim S8x1x512 ![0, 2] bcast_S8x512_S8x1x512_0_2 : (⟨S8x512, .f32⟩ : BufTy).Contents (Elt F) → (⟨S8x1x512, .f32⟩ : BufTy).Contents (Elt F)),
    unary main_v17 main_v18 (broadcastInDim S8x2048x512 ![0, 1, 2] bcast_S8x1x512_S8x2048x512_0_1_2 : (⟨S8x1x512, .f32⟩ : BufTy).Contents (Elt F) → (⟨S8x2048x512, .f32⟩ : BufTy).Contents (Elt F)),
    binary main_v0 main_v18 main_v19 (subf : (⟨S8x2048x512, .f32⟩ : BufTy).Contents (Elt F) → (⟨S8x2048x512, .f32⟩ : BufTy).Contents (Elt F) → (⟨S8x2048x512, .f32⟩ : BufTy).Contents (Elt F)),
    unary main_v19 main_v20 (Host.exp : (⟨S8x2048x512, .f32⟩ : BufTy).Contents (Elt F) → (⟨S8x2048x512, .f32⟩ : BufTy).Contents (Elt F)),
    nullary main_cst_4 (constant S_ .f32 0x00000000#32),
    binary main_v20 main_cst_4 main_v21 ((fun x v => Host.reduceAdd x v reducesTo_S8x2048x512_S8x512_d1 h_S_) : (⟨S8x2048x512, .f32⟩ : BufTy).Contents (Elt F) → (⟨S_, .f32⟩ : BufTy).Contents (Elt F) → (⟨S8x512, .f32⟩ : BufTy).Contents (Elt F)),
    unary main_v21 main_v22 (broadcastInDim S8x1x512 ![0, 2] bcast_S8x512_S8x1x512_0_2 : (⟨S8x512, .f32⟩ : BufTy).Contents (Elt F) → (⟨S8x1x512, .f32⟩ : BufTy).Contents (Elt F)),
    unary main_v22 main_v23 (broadcastInDim S8x2048x512 ![0, 1, 2] bcast_S8x1x512_S8x2048x512_0_1_2 : (⟨S8x1x512, .f32⟩ : BufTy).Contents (Elt F) → (⟨S8x2048x512, .f32⟩ : BufTy).Contents (Elt F)),
    binary main_v20 main_v23 main_v24 (Host.divf : (⟨S8x2048x512, .f32⟩ : BufTy).Contents (Elt F) → (⟨S8x2048x512, .f32⟩ : BufTy).Contents (Elt F) → (⟨S8x2048x512, .f32⟩ : BufTy).Contents (Elt F)),
    binary main_v24 main_arg0 main_v25 ((fun l r => Host.dotGeneral dot_S8x2048x512_S8x2048x1024_S8x512x1024_1_1_2_2_0_0 none l r) : (⟨S8x2048x512, .f32⟩ : BufTy).Contents (Elt F) → (⟨S8x2048x1024, .f32⟩ : BufTy).Contents (Elt F) → (⟨S8x512x1024, .f32⟩ : BufTy).Contents (Elt F)),
    binary main_arg1 main_v25 main_v26 ((fun a b => concatenate S8x512x2048 2 [⟨S8x512x1024, a⟩, ⟨S8x512x1024, b⟩] concatenates_S8x512x1024_S8x512x1024_S8x512x2048_d2) : (⟨S8x512x1024, .f32⟩ : BufTy).Contents (Elt F) → (⟨S8x512x1024, .f32⟩ : BufTy).Contents (Elt F) → (⟨S8x512x2048, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub ..⟩

set_option maxHeartbeats 2000000 in
/-- On every device, from any memory with zero counters: every weakly fair execution of @main terminates with the
    two results at `dprime` and `qprime` of the argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13) = dprime (m ((c.tc : Thread nD τ).loc main_arg0)) (m ((c.tc : Thread nD τ).loc main_arg1))
      ∧ r.2.mem ((c.tc : Thread nD τ).loc main_v26) = qprime (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v13).trans (by
        after_results_simp
        refine congrArg₂ (fun a b => concatenate S8x2048x2048 2 [⟨S8x2048x1024, a⟩, ⟨S8x2048x1024, b⟩] concatenates_S8x2048x1024_S8x2048x1024_S8x2048x2048_d2) ?_ ?_
        · after_results_simp <;> rfl
        · after_results_simp <;> rfl),
      (h c main_v26).trans (by
        after_results_simp
        refine congrArg₂ (fun a b => concatenate S8x512x2048 2 [⟨S8x512x1024, a⟩, ⟨S8x512x1024, b⟩] concatenates_S8x512x1024_S8x512x1024_S8x512x2048_d2) ?_ ?_
        · after_results_simp <;> rfl
        · after_results_simp <;> rfl),
      (h c main_arg0).trans (by after_results_simp),
      (h c main_arg1).trans (by after_results_simp)⟩)
    (run_seq scopedRefs_eq scopedSems_eq defs main (fun _ => ops) main_eq (fun _ => ops_sub) m ρ)

end Cert.ReferenceIdeal.RefRun

end
-- ==== Proof.RefValue.lean ====
/-
  The reference's two results are the specification, entry by entry, on the extended reals.

  Each host operation is read at an entry: a batched product as the sum over its contracted axis; a maximum or a sum
  along one axis as the fold or the sum over that axis's coordinates; a value kept as a unit axis and spread back as
  that value at the other coordinates; a concatenation along the last axis as its left piece below column 1024 and
  its right piece, 1024 columns earlier, from there on.  No finiteness is needed: both sides are the same operations.
-/
import proofs.«144034_j58153857187901_2_alg».proof.Proof.RefRun
import proofs.«144034_j58153857187901_2_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.RefRun Idealize.ShloMosaic Idealize.ShloMosaic.ValueIdx Cert.Spec

/-- An array of extended reals of shape `s`. -/
abbrev T (s : Shape) : Type := FVec Ideal s .f32

/-- The word `0xFF800000` is `-∞`. -/
theorem negInf : Ideal.ofBits .f32 0xFF800000#32 = (⊥ : EReal) := by simp [Ideal.ofBits, Ideal.ieee]

/-! ## The three batched products -/

theorem sc_lhs0 (i : S8x2048x512.Idx) (q : dot_S8x2048x1024_S8x512x1024_S8x2048x512_2_2_1_1_0_0.contr.Idx) :
    (dot_S8x2048x1024_S8x512x1024_S8x2048x512_2_2_1_1_0_0.lhsIdx i q 0).val = (i 0).val := by
  unfold DotDims.lhsIdx
  rw [dif_pos (show (0 : Fin S8x2048x1024.rank) ∈ dot_S8x2048x1024_S8x512x1024_S8x2048x512_2_2_1_1_0_0.lhsBatch by decide)]
  rfl
theorem sc_lhs1 (i : S8x2048x512.Idx) (q : dot_S8x2048x1024_S8x512x1024_S8x2048x512_2_2_1_1_0_0.contr.Idx) :
    (dot_S8x2048x1024_S8x512x1024_S8x2048x512_2_2_1_1_0_0.lhsIdx i q 1).val = (i 1).val := by
  unfold DotDims.lhsIdx
  rw [dif_neg (show ¬(1 : Fin S8x2048x1024.rank) ∈ dot_S8x2048x1024_S8x512x1024_S8x2048x512_2_2_1_1_0_0.lhsBatch by decide), dif_pos (show (1 : Fin S8x2048x1024.rank) ∈ dot_S8x2048x1024_S8x512x1024_S8x2048x512_2_2_1_1_0_0.lhsNonContracting by decide)]
  rfl
theorem sc_lhs2 (i : S8x2048x512.Idx) (q : dot_S8x2048x1024_S8x512x1024_S8x2048x512_2_2_1_1_0_0.contr.Idx) :
    (dot_S8x2048x1024_S8x512x1024_S8x2048x512_2_2_1_1_0_0.lhsIdx i q 2).val = (q ⟨0, by decide⟩).val :=
  dot_S8x2048x1024_S8x512x1024_S8x2048x512_2_2_1_1_0_0.lhsIdx_val_of_single rfl i q
theorem sc_rhs0 (i : S8x2048x512.Idx) (q : dot_S8x2048x1024_S8x512x1024_S8x2048x512_2_2_1_1_0_0.contr.Idx) :
    (dot_S8x2048x1024_S8x512x1024_S8x2048x512_2_2_1_1_0_0.rhsIdx i q 0).val = (i 0).val := by
  unfold DotDims.rhsIdx
  rw [dif_pos (show (0 : Fin S8x512x1024.rank) ∈ dot_S8x2048x1024_S8x512x1024_S8x2048x512_2_2_1_1_0_0.rhsBatch by decide)]
  rfl
theorem sc_rhs1 (i : S8x2048x512.Idx) (q : dot_S8x2048x1024_S8x512x1024_S8x2048x512_2_2_1_1_0_0.contr.Idx) :
    (dot_S8x2048x1024_S8x512x1024_S8x2048x512_2_2_1_1_0_0.rhsIdx i q 1).val = (i 2).val := by
  unfold DotDims.rhsIdx
  rw [dif_neg (show ¬(1 : Fin S8x512x1024.rank) ∈ dot_S8x2048x1024_S8x512x1024_S8x2048x512_2_2_1_1_0_0.rhsBatch by decide), dif_pos (show (1 : Fin S8x512x1024.rank) ∈ dot_S8x2048x1024_S8x512x1024_S8x2048x512_2_2_1_1_0_0.rhsNonContracting by decide)]
  rfl
theorem sc_rhs2 (i : S8x2048x512.Idx) (q : dot_S8x2048x1024_S8x512x1024_S8x2048x512_2_2_1_1_0_0.contr.Idx) :
    (dot_S8x2048x1024_S8x512x1024_S8x2048x512_2_2_1_1_0_0.rhsIdx i q 2).val = (q ⟨0, by decide⟩).val :=
  dot_S8x2048x1024_S8x512x1024_S8x2048x512_2_2_1_1_0_0.rhsIdx_val_of_single rfl i q

/-- The scores' product: documents against queries, contracted over the features. -/
theorem scoresDot_apply (l : T S8x2048x1024) (r : T S8x512x1024) (b : Fin 8) (d : Fin 2048) (q : Fin 512) :
    Host.dotGeneral (F := Ideal) (φ₁ := .f32) (φ₂ := .f32) dot_S8x2048x1024_S8x512x1024_S8x2048x512_2_2_1_1_0_0 none l r (ix3 b d q) = ∑ k : Fin 1024, l (ix3 b d k) * r (ix3 b q k) := by
  simp only [Host.dotGeneral]
  rw [Ideal.dotGeneral_apply, ← Equiv.sum_comp (ValueIdx.contrEquiv1 dot_S8x2048x1024_S8x512x1024_S8x2048x512_2_2_1_1_0_0 1024 rfl rfl).symm]
  refine Finset.sum_congr rfl fun k _ => ?_
  have hk := ValueIdx.contrEquiv1_symm_val dot_S8x2048x1024_S8x512x1024_S8x2048x512_2_2_1_1_0_0 1024 rfl rfl k
  have el : dot_S8x2048x1024_S8x512x1024_S8x2048x512_2_2_1_1_0_0.lhsIdx (ix3 b d q) ((ValueIdx.contrEquiv1 dot_S8x2048x1024_S8x512x1024_S8x2048x512_2_2_1_1_0_0 1024 rfl rfl).symm k) = ix3 b d k :=
    funext fun a => Fin.ext (by
      match a with
      | ⟨0, _⟩ => exact sc_lhs0 _ _
      | ⟨1, _⟩ => exact sc_lhs1 _ _
      | ⟨2, _⟩ => exact (sc_lhs2 _ _).trans hk)
  have er : dot_S8x2048x1024_S8x512x1024_S8x2048x512_2_2_1_1_0_0.rhsIdx (ix3 b d q) ((ValueIdx.contrEquiv1 dot_S8x2048x1024_S8x512x1024_S8x2048x512_2_2_1_1_0_0 1024 rfl rfl).symm k) = ix3 b q k :=
    funext fun a => Fin.ext (by
      match a with
      | ⟨0, _⟩ => exact sc_rhs0 _ _
      | ⟨1, _⟩ => exact sc_rhs1 _ _
      | ⟨2, _⟩ => exact (sc_rhs2 _ _).trans hk)
  rw [el, er]

theorem dc_lhs0 (i : S8x2048x1024.Idx) (q : dot_S8x2048x512_S8x512x1024_S8x2048x1024_2_1_1_2_0_0.contr.Idx) :
    (dot_S8x2048x512_S8x512x1024_S8x2048x1024_2_1_1_2_0_0.lhsIdx i q 0).val = (i 0).val := by
  unfold DotDims.lhsIdx
  rw [dif_pos (show (0 : Fin S8x2048x512.rank) ∈ dot_S8x2048x512_S8x512x1024_S8x2048x1024_2_1_1_2_0_0.lhsBatch by decide)]
  rfl
theorem dc_lhs1 (i : S8x2048x1024.Idx) (q : dot_S8x2048x512_S8x512x1024_S8x2048x1024_2_1_1_2_0_0.contr.Idx) :
    (dot_S8x2048x512_S8x512x1024_S8x2048x1024_2_1_1_2_0_0.lhsIdx i q 1).val = (i 1).val := by
  unfold DotDims.lhsIdx
  rw [dif_neg (show ¬(1 : Fin S8x2048x512.rank) ∈ dot_S8x2048x512_S8x512x1024_S8x2048x1024_2_1_1_2_0_0.lhsBatch by decide), dif_pos (show (1 : Fin S8x2048x512.rank) ∈ dot_S8x2048x512_S8x512x1024_S8x2048x1024_2_1_1_2_0_0.lhsNonContracting by decide)]
  rfl
theorem dc_lhs2 (i : S8x2048x1024.Idx) (q : dot_S8x2048x512_S8x512x1024_S8x2048x1024_2_1_1_2_0_0.contr.Idx) :
    (dot_S8x2048x512_S8x512x1024_S8x2048x1024_2_1_1_2_0_0.lhsIdx i q 2).val = (q ⟨0, by decide⟩).val :=
  dot_S8x2048x512_S8x512x1024_S8x2048x1024_2_1_1_2_0_0.lhsIdx_val_of_single rfl i q
theorem dc_rhs0 (i : S8x2048x1024.Idx) (q : dot_S8x2048x512_S8x512x1024_S8x2048x1024_2_1_1_2_0_0.contr.Idx) :
    (dot_S8x2048x512_S8x512x1024_S8x2048x1024_2_1_1_2_0_0.rhsIdx i q 0).val = (i 0).val := by
  unfold DotDims.rhsIdx
  rw [dif_pos (show (0 : Fin S8x512x1024.rank) ∈ dot_S8x2048x512_S8x512x1024_S8x2048x1024_2_1_1_2_0_0.rhsBatch by decide)]
  rfl
theorem dc_rhs1 (i : S8x2048x1024.Idx) (q : dot_S8x2048x512_S8x512x1024_S8x2048x1024_2_1_1_2_0_0.contr.Idx) :
    (dot_S8x2048x512_S8x512x1024_S8x2048x1024_2_1_1_2_0_0.rhsIdx i q 1).val = (q ⟨0, by decide⟩).val :=
  dot_S8x2048x512_S8x512x1024_S8x2048x1024_2_1_1_2_0_0.rhsIdx_val_of_single rfl i q
theorem dc_rhs2 (i : S8x2048x1024.Idx) (q : dot_S8x2048x512_S8x512x1024_S8x2048x1024_2_1_1_2_0_0.contr.Idx) :
    (dot_S8x2048x512_S8x512x1024_S8x2048x1024_2_1_1_2_0_0.rhsIdx i q 2).val = (i 2).val := by
  unfold DotDims.rhsIdx
  rw [dif_neg (show ¬(2 : Fin S8x512x1024.rank) ∈ dot_S8x2048x512_S8x512x1024_S8x2048x1024_2_1_1_2_0_0.rhsBatch by decide), dif_pos (show (2 : Fin S8x512x1024.rank) ∈ dot_S8x2048x512_S8x512x1024_S8x2048x1024_2_1_1_2_0_0.rhsNonContracting by decide)]
  rfl

/-- The document side's product: weights against queries, contracted over the queries. -/
theorem docDot_apply (l : T S8x2048x512) (r : T S8x512x1024) (b : Fin 8) (d : Fin 2048) (h : Fin 1024) :
    Host.dotGeneral (F := Ideal) (φ₁ := .f32) (φ₂ := .f32) dot_S8x2048x512_S8x512x1024_S8x2048x1024_2_1_1_2_0_0 none l r (ix3 b d h) = ∑ k : Fin 512, l (ix3 b d k) * r (ix3 b k h) := by
  simp only [Host.dotGeneral]
  rw [Ideal.dotGeneral_apply, ← Equiv.sum_comp (ValueIdx.contrEquiv1 dot_S8x2048x512_S8x512x1024_S8x2048x1024_2_1_1_2_0_0 512 rfl rfl).symm]
  refine Finset.sum_congr rfl fun k _ => ?_
  have hk := ValueIdx.contrEquiv1_symm_val dot_S8x2048x512_S8x512x1024_S8x2048x1024_2_1_1_2_0_0 512 rfl rfl k
  have el : dot_S8x2048x512_S8x512x1024_S8x2048x1024_2_1_1_2_0_0.lhsIdx (ix3 b d h) ((ValueIdx.contrEquiv1 dot_S8x2048x512_S8x512x1024_S8x2048x1024_2_1_1_2_0_0 512 rfl rfl).symm k) = ix3 b d k :=
    funext fun a => Fin.ext (by
      match a with
      | ⟨0, _⟩ => exact dc_lhs0 _ _
      | ⟨1, _⟩ => exact dc_lhs1 _ _
      | ⟨2, _⟩ => exact (dc_lhs2 _ _).trans hk)
  have er : dot_S8x2048x512_S8x512x1024_S8x2048x1024_2_1_1_2_0_0.rhsIdx (ix3 b d h) ((ValueIdx.contrEquiv1 dot_S8x2048x512_S8x512x1024_S8x2048x1024_2_1_1_2_0_0 512 rfl rfl).symm k) = ix3 b k h :=
    funext fun a => Fin.ext (by
      match a with
      | ⟨0, _⟩ => exact dc_rhs0 _ _
      | ⟨1, _⟩ => exact (dc_rhs1 _ _).trans hk
      | ⟨2, _⟩ => exact dc_rhs2 _ _)
  rw [el, er]

theorem qc_lhs0 (i : S8x512x1024.Idx) (q : dot_S8x2048x512_S8x2048x1024_S8x512x1024_1_1_2_2_0_0.contr.Idx) :
    (dot_S8x2048x512_S8x2048x1024_S8x512x1024_1_1_2_2_0_0.lhsIdx i q 0).val = (i 0).val := by
  unfold DotDims.lhsIdx
  rw [dif_pos (show (0 : Fin S8x2048x512.rank) ∈ dot_S8x2048x512_S8x2048x1024_S8x512x1024_1_1_2_2_0_0.lhsBatch by decide)]
  rfl
theorem qc_lhs1 (i : S8x512x1024.Idx) (q : dot_S8x2048x512_S8x2048x1024_S8x512x1024_1_1_2_2_0_0.contr.Idx) :
    (dot_S8x2048x512_S8x2048x1024_S8x512x1024_1_1_2_2_0_0.lhsIdx i q 1).val = (q ⟨0, by decide⟩).val :=
  dot_S8x2048x512_S8x2048x1024_S8x512x1024_1_1_2_2_0_0.lhsIdx_val_of_single rfl i q
theorem qc_lhs2 (i : S8x512x1024.Idx) (q : dot_S8x2048x512_S8x2048x1024_S8x512x1024_1_1_2_2_0_0.contr.Idx) :
    (dot_S8x2048x512_S8x2048x1024_S8x512x1024_1_1_2_2_0_0.lhsIdx i q 2).val = (i 1).val := by
  unfold DotDims.lhsIdx
  rw [dif_neg (show ¬(2 : Fin S8x2048x512.rank) ∈ dot_S8x2048x512_S8x2048x1024_S8x512x1024_1_1_2_2_0_0.lhsBatch by decide), dif_pos (show (2 : Fin S8x2048x512.rank) ∈ dot_S8x2048x512_S8x2048x1024_S8x512x1024_1_1_2_2_0_0.lhsNonContracting by decide)]
  rfl
theorem qc_rhs0 (i : S8x512x1024.Idx) (q : dot_S8x2048x512_S8x2048x1024_S8x512x1024_1_1_2_2_0_0.contr.Idx) :
    (dot_S8x2048x512_S8x2048x1024_S8x512x1024_1_1_2_2_0_0.rhsIdx i q 0).val = (i 0).val := by
  unfold DotDims.rhsIdx
  rw [dif_pos (show (0 : Fin S8x2048x1024.rank) ∈ dot_S8x2048x512_S8x2048x1024_S8x512x1024_1_1_2_2_0_0.rhsBatch by decide)]
  rfl
theorem qc_rhs1 (i : S8x512x1024.Idx) (q : dot_S8x2048x512_S8x2048x1024_S8x512x1024_1_1_2_2_0_0.contr.Idx) :
    (dot_S8x2048x512_S8x2048x1024_S8x512x1024_1_1_2_2_0_0.rhsIdx i q 1).val = (q ⟨0, by decide⟩).val :=
  dot_S8x2048x512_S8x2048x1024_S8x512x1024_1_1_2_2_0_0.rhsIdx_val_of_single rfl i q
theorem qc_rhs2 (i : S8x512x1024.Idx) (q : dot_S8x2048x512_S8x2048x1024_S8x512x1024_1_1_2_2_0_0.contr.Idx) :
    (dot_S8x2048x512_S8x2048x1024_S8x512x1024_1_1_2_2_0_0.rhsIdx i q 2).val = (i 2).val := by
  unfold DotDims.rhsIdx
  rw [dif_neg (show ¬(2 : Fin S8x2048x1024.rank) ∈ dot_S8x2048x512_S8x2048x1024_S8x512x1024_1_1_2_2_0_0.rhsBatch by decide), dif_pos (show (2 : Fin S8x2048x1024.rank) ∈ dot_S8x2048x512_S8x2048x1024_S8x512x1024_1_1_2_2_0_0.rhsNonContracting by decide)]
  rfl

/-- The query side's product: weights against documents, contracted over the documents. -/
theorem qryDot_apply (l : T S8x2048x512) (r : T S8x2048x1024) (b : Fin 8) (q : Fin 512) (h : Fin 1024) :
    Host.dotGeneral (F := Ideal) (φ₁ := .f32) (φ₂ := .f32) dot_S8x2048x512_S8x2048x1024_S8x512x1024_1_1_2_2_0_0 none l r (ix3 b q h) = ∑ k : Fin 2048, l (ix3 b k q) * r (ix3 b k h) := by
  simp only [Host.dotGeneral]
  rw [Ideal.dotGeneral_apply, ← Equiv.sum_comp (ValueIdx.contrEquiv1 dot_S8x2048x512_S8x2048x1024_S8x512x1024_1_1_2_2_0_0 2048 rfl rfl).symm]
  refine Finset.sum_congr rfl fun k _ => ?_
  have hk := ValueIdx.contrEquiv1_symm_val dot_S8x2048x512_S8x2048x1024_S8x512x1024_1_1_2_2_0_0 2048 rfl rfl k
  have el : dot_S8x2048x512_S8x2048x1024_S8x512x1024_1_1_2_2_0_0.lhsIdx (ix3 b q h) ((ValueIdx.contrEquiv1 dot_S8x2048x512_S8x2048x1024_S8x512x1024_1_1_2_2_0_0 2048 rfl rfl).symm k) = ix3 b k q :=
    funext fun a => Fin.ext (by
      match a with
      | ⟨0, _⟩ => exact qc_lhs0 _ _
      | ⟨1, _⟩ => exact (qc_lhs1 _ _).trans hk
      | ⟨2, _⟩ => exact qc_lhs2 _ _)
  have er : dot_S8x2048x512_S8x2048x1024_S8x512x1024_1_1_2_2_0_0.rhsIdx (ix3 b q h) ((ValueIdx.contrEquiv1 dot_S8x2048x512_S8x2048x1024_S8x512x1024_1_1_2_2_0_0 2048 rfl rfl).symm k) = ix3 b k h :=
    funext fun a => Fin.ext (by
      match a with
      | ⟨0, _⟩ => exact qc_rhs0 _ _
      | ⟨1, _⟩ => exact (qc_rhs1 _ _).trans hk
      | ⟨2, _⟩ => exact qc_rhs2 _ _)
  rw [el, er]

/-! ## Values kept as a unit axis and spread back -/

/-- A value per (batch, document) spread over the queries. -/
theorem spreadQ_apply (v : T S8x2048) (b : Fin 8) (d : Fin 2048) (q : Fin 512) :
    broadcastInDim S8x2048x512 ![0, 1, 2] bcast_S8x2048x1_S8x2048x512_0_1_2
      (broadcastInDim S8x2048x1 ![0, 1] bcast_S8x2048_S8x2048x1_0_1 v) (ix3 b d q) = v (ix2 b d) := by
  refine (broadcastInDim_apply _ bcast_S8x2048x1_S8x2048x512_0_1_2 _ (ix3 b d q) (ix3 b d (0 : Fin 1)) (fun a => match a with
    | ⟨0, _⟩ => by show b.val = if (8 : Nat) = 1 then 0 else b.val; rw [if_neg (by decide)]
    | ⟨1, _⟩ => by show d.val = if (2048 : Nat) = 1 then 0 else d.val; rw [if_neg (by decide)]
    | ⟨2, _⟩ => by show 0 = if (1 : Nat) = 1 then 0 else q.val; rw [if_pos rfl])).trans ?_
  exact broadcastInDim_apply _ bcast_S8x2048_S8x2048x1_0_1 v (ix3 b d (0 : Fin 1)) (ix2 b d) (fun a => match a with
    | ⟨0, _⟩ => by show b.val = if (8 : Nat) = 1 then 0 else b.val; rw [if_neg (by decide)]
    | ⟨1, _⟩ => by show d.val = if (2048 : Nat) = 1 then 0 else d.val; rw [if_neg (by decide)])

/-- A value per (batch, query) spread over the documents. -/
theorem spreadD_apply (v : T S8x512) (b : Fin 8) (d : Fin 2048) (q : Fin 512) :
    broadcastInDim S8x2048x512 ![0, 1, 2] bcast_S8x1x512_S8x2048x512_0_1_2
      (broadcastInDim S8x1x512 ![0, 2] bcast_S8x512_S8x1x512_0_2 v) (ix3 b d q) = v (ix2 b q) := by
  refine (broadcastInDim_apply _ bcast_S8x1x512_S8x2048x512_0_1_2 _ (ix3 b d q) (ix3 b (0 : Fin 1) q) (fun a => match a with
    | ⟨0, _⟩ => by show b.val = if (8 : Nat) = 1 then 0 else b.val; rw [if_neg (by decide)]
    | ⟨1, _⟩ => by show 0 = if (1 : Nat) = 1 then 0 else d.val; rw [if_pos rfl]
    | ⟨2, _⟩ => by show q.val = if (512 : Nat) = 1 then 0 else q.val; rw [if_neg (by decide)])).trans ?_
  exact broadcastInDim_apply _ bcast_S8x512_S8x1x512_0_2 v (ix3 b (0 : Fin 1) q) (ix2 b q) (fun a => match a with
    | ⟨0, _⟩ => by show b.val = if (8 : Nat) = 1 then 0 else b.val; rw [if_neg (by decide)]
    | ⟨1, _⟩ => by show q.val = if (512 : Nat) = 1 then 0 else q.val; rw [if_neg (by decide)])

/-- The `-∞` scalar spread over an array. -/
theorem splatQ_apply (i : S8x2048.Idx) :
    broadcastInDim S8x2048 ![] bcast_S_S8x2048 (constant (F := Ideal) S_ .f32 0xFF800000#32) i = ⊥ :=
  (broadcastInDim_apply _ bcast_S_S8x2048 (constant (F := Ideal) S_ .f32 0xFF800000#32) i (fun a => a.elim0) (fun a => a.elim0)).trans negInf

theorem splatD_apply (i : S8x512.Idx) :
    broadcastInDim S8x512 ![] bcast_S_S8x512 (constant (F := Ideal) S_ .f32 0xFF800000#32) i = ⊥ :=
  (broadcastInDim_apply _ bcast_S_S8x512 (constant (F := Ideal) S_ .f32 0xFF800000#32) i (fun a => a.elim0) (fun a => a.elim0)).trans negInf

/-! ## Maxima and sums along one axis -/

theorem liftQ (h : S8x2048x512.Reduces [2] S8x2048) (b : Fin 8) (d : Fin 2048) (q : Fin 512) : h.lift (ix2 b d) q = ix3 b d q := by
  funext c; apply Fin.ext
  match c with
  | ⟨0, _⟩ => rfl
  | ⟨1, _⟩ => rfl
  | ⟨2, _⟩ => rfl

theorem liftD (h : S8x2048x512.Reduces [1] S8x512) (b : Fin 8) (q : Fin 512) (d : Fin 2048) : h.lift (ix2 b q) d = ix3 b d q := by
  funext c; apply Fin.ext
  match c with
  | ⟨0, _⟩ => rfl
  | ⟨1, _⟩ => rfl
  | ⟨2, _⟩ => rfl

variable (S : T S8x2048x512)

/-- The maximum over the queries, from `-∞`. -/
theorem maxQ_apply (b : Fin 8) (d : Fin 2048) :
    Host.reduce FloatOps.maximumf S (constant (F := Ideal) S_ .f32 0xFF800000#32) reducesTo_S8x2048x512_S8x2048_d2 h_S_ (ix2 b d)
      = (Finset.univ : Finset (Fin 512)).fold max ⊥ fun q => S (ix3 b d q) := by
  refine (Host.reduce_eq_fold_single (α := Ideal .f32) (FloatOps.maximumf (F := Ideal) (φ := .f32)) S _ reducesTo_S8x2048x512_S8x2048_d2 (by decide) h_S_ (ix2 b d)).trans ?_
  show (Finset.univ : Finset (Fin 512)).fold max (Ideal.ofBits .f32 0xFF800000#32) _ = _
  rw [negInf]
  exact congrArg ((Finset.univ : Finset (Fin 512)).fold max (⊥ : EReal)) (funext fun q => congrArg S (liftQ _ b d q))

/-- The maximum over the documents, from `-∞`. -/
theorem maxD_apply (b : Fin 8) (q : Fin 512) :
    Host.reduce FloatOps.maximumf S (constant (F := Ideal) S_ .f32 0xFF800000#32) reducesTo_S8x2048x512_S8x512_d1 h_S_ (ix2 b q)
      = (Finset.univ : Finset (Fin 2048)).fold max ⊥ fun d => S (ix3 b d q) := by
  refine (Host.reduce_eq_fold_single (α := Ideal .f32) (FloatOps.maximumf (F := Ideal) (φ := .f32)) S _ reducesTo_S8x2048x512_S8x512_d1 (by decide) h_S_ (ix2 b q)).trans ?_
  show (Finset.univ : Finset (Fin 2048)).fold max (Ideal.ofBits .f32 0xFF800000#32) _ = _
  rw [negInf]
  exact congrArg ((Finset.univ : Finset (Fin 2048)).fold max (⊥ : EReal)) (funext fun d => congrArg S (liftD _ b q d))

/-- The sum over the queries, from zero. -/
theorem sumQ_apply (b : Fin 8) (d : Fin 2048) :
    Host.reduceAdd S (constant (F := Ideal) S_ .f32 0x00000000#32) reducesTo_S8x2048x512_S8x2048_d2 h_S_ (ix2 b d)
      = ∑ q : Fin 512, S (ix3 b d q) := by
  simp only [Host.reduceAdd, Ideal.hostReduceAdd_def]
  rw [Ideal.hostReduceAdd_single reducesTo_S8x2048x512_S8x2048_d2 (by decide)]
  show Ideal.ofBits .f32 0x00000000#32 + _ = _
  rw [Ideal.ofBits_zero_f32, zero_add]
  exact Finset.sum_congr rfl fun q _ => congrArg S (liftQ _ b d q)

/-- The sum over the documents, from zero. -/
theorem sumD_apply (b : Fin 8) (q : Fin 512) :
    Host.reduceAdd S (constant (F := Ideal) S_ .f32 0x00000000#32) reducesTo_S8x2048x512_S8x512_d1 h_S_ (ix2 b q)
      = ∑ d : Fin 2048, S (ix3 b d q) := by
  simp only [Host.reduceAdd, Ideal.hostReduceAdd_def]
  rw [Ideal.hostReduceAdd_single reducesTo_S8x2048x512_S8x512_d1 (by decide)]
  show Ideal.ofBits .f32 0x00000000#32 + _ = _
  rw [Ideal.ofBits_zero_f32, zero_add]
  exact Finset.sum_congr rfl fun d _ => congrArg S (liftD _ b q d)

end Cert.ReferenceIdeal.RefValue

end
-- ==== Proof.RefSpec.lean ====
/-
  The reference's results are the specification's (continued): the two softmaxes at an entry, the two sides, and the
  two concatenations.
-/
import proofs.«144034_j58153857187901_2_alg».proof.Proof.RefValue

noncomputable section

namespace Cert.ReferenceIdeal.RefValue

open Cert.ReferenceIdeal Cert.ReferenceIdeal.Gen Cert.ReferenceIdeal.RefRun Idealize.ShloMosaic Idealize.ShloMosaic.ValueIdx Cert.Spec

/-- The host's `exp` and quotient, entry by entry. -/
theorem hostExp_apply {s : Shape} (x : FVec Ideal s .f32) (i : s.Idx) : Host.exp x i = Ideal.exp (x i) := rfl
theorem hostDivf_apply {s : Shape} (x y : FVec Ideal s .f32) (i : s.Idx) : Host.divf x y i = Ideal.div (x i) (y i) := rfl

/-- The maxima along the query axis, compared once more with `-∞`. -/
def maxQv (S : T S8x2048x512) : T S8x2048 :=
  maximumf (broadcastInDim S8x2048 ![] bcast_S_S8x2048 (constant S_ .f32 0xFF800000#32))
    (Host.reduce FloatOps.maximumf S (constant S_ .f32 0xFF800000#32) reducesTo_S8x2048x512_S8x2048_d2 h_S_)

/-- `exp` of the scores less their maximum along the query axis. -/
def expQv (S : T S8x2048x512) : T S8x2048x512 :=
  Host.exp (subf S (broadcastInDim S8x2048x512 ![0, 1, 2] bcast_S8x2048x1_S8x2048x512_0_1_2 (broadcastInDim S8x2048x1 ![0, 1] bcast_S8x2048_S8x2048x1_0_1 (maxQv S))))

/-- The sums of those along the query axis. -/
def sumQv (S : T S8x2048x512) : T S8x2048 :=
  Host.reduceAdd (expQv S) (constant S_ .f32 0x00000000#32) reducesTo_S8x2048x512_S8x2048_d2 h_S_

theorem softQ_eq (S : T S8x2048x512) : softQ (F := Ideal) S = Host.divf (expQv S) (broadcastInDim S8x2048x512 ![0, 1, 2] bcast_S8x2048x1_S8x2048x512_0_1_2 (broadcastInDim S8x2048x1 ![0, 1] bcast_S8x2048_S8x2048x1_0_1 (sumQv S))) := by
  unfold softQ sumQv expQv maxQv
  rfl

theorem maxQv_apply (S : T S8x2048x512) (b : Fin 8) (d : Fin 2048) :
    maxQv S (ix2 b d) = max ⊥ ((Finset.univ : Finset (Fin 512)).fold max ⊥ fun q => S (ix3 b d q)) := by
  unfold maxQv
  rw [maximumf_apply, splatQ_apply, maxQ_apply]

theorem expQv_apply (S : T S8x2048x512) (b : Fin 8) (d : Fin 2048) (q : Fin 512) :
    expQv S (ix3 b d q) = Ideal.exp (S (ix3 b d q) - maxQv S (ix2 b d)) := by
  unfold expQv
  rw [hostExp_apply, subf_apply, spreadQ_apply]

theorem sumQv_apply (S : T S8x2048x512) (b : Fin 8) (d : Fin 2048) :
    sumQv S (ix2 b d) = ∑ q' : Fin 512, expQv S (ix3 b d q') := by
  unfold sumQv
  rw [sumQ_apply]

theorem softQ_apply (S : T S8x2048x512) (b : Fin 8) (d : Fin 2048) (q : Fin 512) :
    softQ (F := Ideal) S (ix3 b d q) = Ideal.div (expQv S (ix3 b d q)) (∑ q' : Fin 512, expQv S (ix3 b d q')) := by
  rw [softQ_eq, hostDivf_apply, spreadQ_apply, sumQv_apply]

/-- The maxima along the document axis, compared once more with `-∞`. -/
def maxDv (S : T S8x2048x512) : T S8x512 :=
  maximumf (broadcastInDim S8x512 ![] bcast_S_S8x512 (constant S_ .f32 0xFF800000#32))
    (Host.reduce FloatOps.maximumf S (constant S_ .f32 0xFF800000#32) reducesTo_S8x2048x512_S8x512_d1 h_S_)

/-- `exp` of the scores less their maximum along the document axis. -/
def expDv (S : T S8x2048x512) : T S8x2048x512 :=
  Host.exp (subf S (broadcastInDim S8x2048x512 ![0, 1, 2] bcast_S8x1x512_S8x2048x512_0_1_2 (broadcastInDim S8x1x512 ![0, 2] bcast_S8x512_S8x1x512_0_2 (maxDv S))))

/-- The sums of those along the document axis. -/
def sumDv (S : T S8x2048x512) : T S8x512 :=
  Host.reduceAdd (expDv S) (constant S_ .f32 0x00000000#32) reducesTo_S8x2048x512_S8x512_d1 h_S_

theorem softD_eq (S : T S8x2048x512) : softD (F := Ideal) S = Host.divf (expDv S) (broadcastInDim S8x2048x512 ![0, 1, 2] bcast_S8x1x512_S8x2048x512_0_1_2 (broadcastInDim S8x1x512 ![0, 2] bcast_S8x512_S8x1x512_0_2 (sumDv S))) := by
  unfold softD sumDv expDv maxDv
  rfl

theorem maxDv_apply (S : T S8x2048x512) (b : Fin 8) (q : Fin 512) :
    maxDv S (ix2 b q) = max ⊥ ((Finset.univ : Finset (Fin 2048)).fold max ⊥ fun d => S (ix3 b d q)) := by
  unfold maxDv
  rw [maximumf_apply, splatD_apply, maxD_apply]

theorem expDv_apply (S : T S8x2048x512) (b : Fin 8) (d : Fin 2048) (q : Fin 512) :
    expDv S (ix3 b d q) = Ideal.exp (S (ix3 b d q) - maxDv S (ix2 b q)) := by
  unfold expDv
  rw [hostExp_apply, subf_apply, spreadD_apply]

theorem sumDv_apply (S : T S8x2048x512) (b : Fin 8) (q : Fin 512) :
    sumDv S (ix2 b q) = ∑ d' : Fin 2048, expDv S (ix3 b d' q) := by
  unfold sumDv
  rw [sumD_apply]

theorem softD_apply (S : T S8x2048x512) (b : Fin 8) (d : Fin 2048) (q : Fin 512) :
    softD (F := Ideal) S (ix3 b d q) = Ideal.div (expDv S (ix3 b d q)) (∑ d' : Fin 2048, expDv S (ix3 b d' q)) := by
  rw [softD_eq, hostDivf_apply, spreadD_apply, sumDv_apply]

variable (D : T S8x2048x1024) (Q : T S8x512x1024)

/-- The scores. -/
theorem scores_apply (b : Fin 8) (d : Fin 2048) (q : Fin 512) : scores (F := Ideal) D Q (ix3 b d q) = score D Q b d q := by
  unfold scores score
  exact scoresDot_apply D Q b d q

/-- The document side is the specification's. -/
theorem docSide_apply (b : Fin 8) (d : Fin 2048) (h : Fin 1024) : docSide (F := Ideal) D Q (ix3 b d h) = docOut D Q b d h := by
  unfold docSide
  rw [docDot_apply]
  unfold docOut rowW rowMax
  refine Finset.sum_congr rfl fun q _ => ?_
  rw [softQ_apply]
  simp only [expQv_apply, maxQv_apply, scores_apply]

/-- The query side is the specification's. -/
theorem qrySide_apply (b : Fin 8) (q : Fin 512) (h : Fin 1024) : qrySide (F := Ideal) D Q (ix3 b q h) = qryOut D Q b q h := by
  unfold qrySide
  rw [qryDot_apply]
  unfold qryOut colW colMax
  refine Finset.sum_congr rfl fun d _ => ?_
  rw [softD_apply]
  simp only [expDv_apply, maxDv_apply, scores_apply]

/-- THE FIRST RESULT of the reference is the specification's. -/
theorem dprime_eq : dprime (F := Ideal) D Q = DPrime D Q := by
  funext j
  obtain ⟨b, d, col, rfl⟩ : ∃ (b : Fin 8) (d : Fin 2048) (col : Fin 2048), j = ix3 b d col := ⟨j 0, j 1, j 2, eq_ix3 j⟩
  unfold dprime DPrime
  by_cases hc : col.val < 1024
  · rw [dif_pos (show ((ix3 b d col : SDP.Idx) 2).val < 1024 from hc)]
    exact concatenate_pair_apply_left 2 D (docSide (F := Ideal) D Q) concatenates_S8x2048x1024_S8x2048x1024_S8x2048x2048_d2 (ix3 b d col) rfl
      (ix3 b d ⟨col.val, hc⟩) (fun a => match a with | ⟨0, _⟩ => rfl | ⟨1, _⟩ => rfl | ⟨2, _⟩ => rfl)
  · rw [dif_neg (show ¬((ix3 b d col : SDP.Idx) 2).val < 1024 from hc)]
    refine (concatenate_pair_apply_right 2 D (docSide (F := Ideal) D Q) concatenates_S8x2048x1024_S8x2048x1024_S8x2048x2048_d2 (ix3 b d col) rfl rfl
      (ix3 b d ⟨col.val - 1024, by have := col.isLt; omega⟩)
      (fun a ha => match a with | ⟨0, _⟩ => rfl | ⟨1, _⟩ => rfl | ⟨2, _⟩ => absurd rfl ha)
      (by show col.val - 1024 + 1024 = col.val; omega)).trans ?_
    exact docSide_apply D Q b d _

/-- THE SECOND RESULT of the reference is the specification's. -/
theorem qprime_eq : qprime (F := Ideal) D Q = QPrime D Q := by
  funext j
  obtain ⟨b, q, col, rfl⟩ : ∃ (b : Fin 8) (q : Fin 512) (col : Fin 2048), j = ix3 b q col := ⟨j 0, j 1, j 2, eq_ix3 j⟩
  unfold qprime QPrime
  by_cases hc : col.val < 1024
  · rw [dif_pos (show ((ix3 b q col : SQP.Idx) 2).val < 1024 from hc)]
    exact concatenate_pair_apply_left 2 Q (qrySide (F := Ideal) D Q) concatenates_S8x512x1024_S8x512x1024_S8x512x2048_d2 (ix3 b q col) rfl
      (ix3 b q ⟨col.val, hc⟩) (fun a => match a with | ⟨0, _⟩ => rfl | ⟨1, _⟩ => rfl | ⟨2, _⟩ => rfl)
  · rw [dif_neg (show ¬((ix3 b q col : SQP.Idx) 2).val < 1024 from hc)]
    refine (concatenate_pair_apply_right 2 Q (qrySide (F := Ideal) D Q) concatenates_S8x512x1024_S8x512x1024_S8x512x2048_d2 (ix3 b q col) rfl rfl
      (ix3 b q ⟨col.val - 1024, by have := col.isLt; omega⟩)
      (fun a ha => match a with | ⟨0, _⟩ => rfl | ⟨1, _⟩ => rfl | ⟨2, _⟩ => absurd rfl ha)
      (by show col.val - 1024 + 1024 = col.val; omega)).trans ?_
    exact qrySide_apply D Q b q _

end Cert.ReferenceIdeal.RefValue

end
-- ==== Proof.LibMatAssoc.lean ====
/-
  Matrices of real entries on the extended reals.

  A row of a matrix product depends on the left factor through that one row only. The product of three matrices
  whose entries are all real (neither infinity) is associative: on the extended reals that takes distributivity of
  the product over a finite sum, which fails at the infinities, so the sums are computed in the reals and carried
  back through the embedding, which commutes with finite sums and with products.
-/
import proofs.«144034_j58153857187901_2_alg».proof.Proof.LibDense

noncomputable section

open scoped BigOperators

namespace Cert.Gcn

open Cert.Dense Idealize.ShloMosaic Idealize.ShloMosaic.ValueIdx

variable {M K L N : ℕ}

/-- Every entry is a real number (neither infinity). -/
def Finite {s : Shape} (X : s.Idx → EReal) : Prop := ∀ i, ∃ r : ℝ, X i = (r : EReal)

/-- The embedding of the reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Row `p` of `blk · W` is row `r` of `A · W` when row `p` of `blk` is row `r` of `A`. -/
theorem mm_row {M' : ℕ} (A : Mat M' K) (blk : Mat M K) (W : Mat K N) (p : Fin M) (r : Fin M')
    (h : ∀ k, blk (ix2 p k) = A (ix2 r k)) (q : Fin N) : mm blk W (ix2 p q) = mm A W (ix2 r q) := by
  show ∑ k : Fin K, blk (ix2 p k) * W (ix2 k q) = ∑ k : Fin K, A (ix2 r k) * W (ix2 k q)
  exact Finset.sum_congr rfl fun k _ => by rw [h k]

/-- Associativity of a triple product of real numbers summed over two finite axes. -/
theorem real_assoc (a : Fin K → ℝ) (x : Fin K → Fin L → ℝ) (w : Fin L → ℝ) :
    ∑ l : Fin L, (∑ k : Fin K, a k * x k l) * w l = ∑ k : Fin K, a k * ∑ l : Fin L, x k l * w l := by
  simp_rw [Finset.sum_mul, Finset.mul_sum]
  rw [Finset.sum_comm]
  exact Finset.sum_congr rfl fun k _ => Finset.sum_congr rfl fun l _ => by ring

/-- The product of three matrices of real entries is associative on the extended reals. -/
theorem mm_assoc (A : Mat M K) (X : Mat K L) (W : Mat L N) (hA : Finite A) (hX : Finite X) (hW : Finite W) :
    mm (mm A X) W = mm A (mm X W) := by
  funext i
  obtain ⟨p, q, rfl⟩ : ∃ (p : Fin M) (q : Fin N), i = ix2 p q := ⟨i 0, i 1, eq_ix2 i⟩
  choose a ha using hA
  choose x hx using hX
  choose w hw using hW
  have hl : mm (mm A X) W (ix2 p q)
      = ((∑ l : Fin L, (∑ k : Fin K, a (ix2 p k) * x (ix2 k l)) * w (ix2 l q) : ℝ) : EReal) := by
    show ∑ l : Fin L, (∑ k : Fin K, A (ix2 p k) * X (ix2 k l)) * W (ix2 l q) = _
    rw [coe_sum]
    refine Finset.sum_congr rfl fun l _ => ?_
    rw [EReal.coe_mul, coe_sum, hw]
    refine congrArg (· * (w (ix2 l q) : EReal)) (Finset.sum_congr rfl fun k _ => ?_)
    rw [EReal.coe_mul, ha, hx]
  have hr : mm A (mm X W) (ix2 p q)
      = ((∑ k : Fin K, a (ix2 p k) * ∑ l : Fin L, x (ix2 k l) * w (ix2 l q) : ℝ) : EReal) := by
    show ∑ k : Fin K, A (ix2 p k) * (∑ l : Fin L, X (ix2 k l) * W (ix2 l q)) = _
    rw [coe_sum]
    refine Finset.sum_congr rfl fun k _ => ?_
    rw [EReal.coe_mul, coe_sum, ha]
    refine congrArg ((a (ix2 p k) : EReal) * ·) (Finset.sum_congr rfl fun l _ => ?_)
    rw [EReal.coe_mul, hx, hw]
  rw [hl, hr]
  exact congrArg _ (real_assoc (fun k => a (ix2 p k)) (fun k l => x (ix2 k l)) (fun l => w (ix2 l q)))

end Cert.Gcn

end
-- ==== Proof.LibFinite.lean ====
/-
  "Every entry is finite", decoded.

  A precondition states it of an array as the conjunction over the array of the test |x| < +∞, the bound being the
  f32 word of +∞. An extended real whose absolute value is below +∞ is neither infinity, so it is a real; and a
  conjunction over an array that holds is every one of its terms.
-/
import proofs.«144034_j58153857187901_2_alg».proof.Proof.LibMatAssoc
import Idealize.ShloMosaic.Lib.ReduceAll
import Idealize.ShloMosaic.Lib.Affine

noncomputable section

namespace Cert.Gcn

open Idealize.ShloMosaic Idealize.ShloMosaic.ValueIdx

/-- An extended real with |x| < +∞ (the test the precondition makes, against the f32 word of +∞) is a real. -/
theorem real_of_abs_lt_inf (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  rw [max_lt_iff] at hlt
  induction x using EReal.rec with
  | bot => simp at hlt
  | coe r => exact ⟨r, rfl⟩
  | top => simp at hlt

instance : Subsingleton (⟨0, ![]⟩ : Shape).Idx := ⟨fun a b => funext fun d => d.elim0⟩

/-- One input's conjunct: the test holds at every index, so every entry is real. -/
theorem finite_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi (cmpf .olt (Host.absf x) (broadcastInDim s ![] hb (constant (F := Ideal) ⟨0, ![]⟩ .f32 0x7F800000#32)))
          (constantI ⟨0, ![]⟩ 1 1#1) hr hu ix0 = 1#1) : Finite x := by
  intro i
  have hi := Host.reduce_andi_all _ _ hr hu ix0 e i
  have hi' : Ideal.cmp .olt (max (x i) (-(x i)))
      (broadcastInDim s ![] hb (constant (F := Ideal) ⟨0, ![]⟩ .f32 0x7F800000#32) i) = 1#1 := hi
  rw [broadcastInDim_apply ![] hb _ i ix0 (fun ax => ax.elim0)] at hi'
  exact real_of_abs_lt_inf (x i) hi'

end Cert.Gcn

end
-- ==== Proof.Finite.lean ====
/-
  The precondition gives real entries.

  `finite_inputs` is the conjunction of two tests, one per argument: the conjunction over the whole array of
  `|x| < +∞`.  A conjunction that holds is each of its two halves; a conjunction over an array that holds is every
  one of its terms; and an extended real whose absolute value is below `+∞` is a real number.
-/
import proofs.«144034_j58153857187901_2_alg».proof.Pre_finite_inputs
import proofs.«144034_j58153857187901_2_alg».proof.Proof.Gen.Pre_finite_inputs
import proofs.«144034_j58153857187901_2_alg».proof.Proof.LibFinite
import proofs.«144034_j58153857187901_2_alg».proof.Proof.LibOnlineSoftmax
import Idealize.ShloMosaic.Lib.Affine

noncomputable section

namespace Cert.Finiteness

open Idealize.ShloMosaic Idealize.ShloMosaic.ValueIdx Cert.Pre_finite_inputs
open Cert.OnlineSoftmax (IsReal)

/-- When `finite_inputs` holds of two arrays, every entry of each is real. -/
theorem real_inputs (x0 : FVec Ideal S8x2048x1024 .f32) (x1 : FVec Ideal S8x512x1024 .f32)
    (h : Cert.Pre_finite_inputs.fn (F := Ideal) x0 x1 = fun _ => 1#1) :
    (∀ i, IsReal (x0 i)) ∧ (∀ i, IsReal (x1 i)) := by
  have h0 := congrFun h ix0
  dsimp only [Cert.Pre_finite_inputs.fn] at h0
  obtain ⟨ha, hb⟩ := IntOp.andi_eq_one.mp h0
  exact ⟨Cert.Gcn.finite_of_all x0 _ _ _ ha, Cert.Gcn.finite_of_all x1 _ _ _ hb⟩

end Cert.Finiteness

end
-- ==== Proof.lean ====
/- The proof of `Cert.Claim`: a fused two-way attention kernel against its plain reference, on the extended reals.

   With scores `S = D·Qᵀ` per batch, the two results are `[D | softmax_q(S)·Q]` and `[Q | softmax_d(S)ᵀ·D]`.
   * The first is computed tile by tile with nothing carried: a tile's rows of it are the same operations on the same
     scores as the reference's, so the two agree with no finiteness asked (Proof/TileRows, TileOut, RefSpec).
   * The second is accumulated over the eight tiles of a batch with a running maximum `M`, a running sum `L` and an
     accumulator `A`, rescaled by `exp (M - M')` whenever the maximum grows, and divided once at the end.  For REAL
     entries — which the precondition gives (Proof/Finite) — the state after `n` rows is `L = ∑ exp (s - μ)`,
     `A = ∑ w·exp (s - μ)` for the real `μ = M` (Proof/LibOnlineSoftmax, TileInv, Carry), and `A / L` does not depend
     on `μ`: it is the softmax-weighted sum the reference computes with its own maximum.
   The frames are the generated ones; the reference's run is read back in Proof/RefRun; the kernel's result arrays are
   assembled from the blocks the grid points write back in Proof/KernelValue; the ideal pass rewrote nothing. -/
import proofs.«144034_j58153857187901_2_alg».proof.Defs
import proofs.«144034_j58153857187901_2_alg».proof.Proof.Gen.Kernel
import proofs.«144034_j58153857187901_2_alg».proof.Proof.Gen.Kernel.Frame
import proofs.«144034_j58153857187901_2_alg».proof.Proof.Gen.KernelIdeal
import proofs.«144034_j58153857187901_2_alg».proof.Proof.Gen.KernelIdeal.Frame
import proofs.«144034_j58153857187901_2_alg».proof.Proof.Gen.KernelIdeal.Value
import proofs.«144034_j58153857187901_2_alg».proof.Proof.Gen.ReferenceIdeal
import proofs.«144034_j58153857187901_2_alg».proof.Proof.Gen.Pre_finite_inputs
import proofs.«144034_j58153857187901_2_alg».proof.Proof.KernelValue
import proofs.«144034_j58153857187901_2_alg».proof.Proof.RefSpec
import proofs.«144034_j58153857187901_2_alg».proof.Proof.Finite
import Idealize.ShloMosaic.Adequacy
import Idealize.ShloMosaic.Init

noncomputable section

namespace Cert.Proof

open Idealize.ShloMosaic Idealize.ShloMosaic.TcCoe Idealize.SL.Sem
open Cert.Spec Cert.KernelIdeal.Carry

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the reference: its run, with the results dropped. -/
theorem frame_ri : Cert.frame_ReferenceIdeal := fun m ρ _ =>
  (θ_run Cert.ReferenceIdeal.defs _ _).mono (fun _ h c => ⟨(h c).2.2.1, (h c).2.2.2⟩)
    (Cert.ReferenceIdeal.RefRun.run (F := Ideal) m ρ)

/-- The ideal pass rewrote no operation. -/
theorem preserves : Cert.preserves_Kernel_KernelIdeal := trivial

/-- From memories that agree on the arguments, both programs end with both results at the specification of the
    argument arrays: the kernel because the precondition makes every entry real, the reference with nothing asked. -/
theorem algebraic : Cert.algebraic_KernelIdeal_ReferenceIdeal := by
  intro m ρ m' ρ' hpre hagree
  have hreal := fun c => Cert.Finiteness.real_inputs _ _ (hpre c)
  refine ⟨fun c => DPrime (Darr m c) (Qarr m c), fun c => QPrime (Darr m c) (Qarr m c),
    Cert.KernelIdeal.KValue.run m ρ (fun c => (hreal c).1) (fun c => (hreal c).2), ?_⟩
  refine (θ_run Cert.ReferenceIdeal.defs _ _).mono (fun _ h c => ⟨?_, ?_, (h c).2.2.1, (h c).2.2.2⟩)
    (Cert.ReferenceIdeal.RefRun.run (F := Ideal) m' ρ')
  · rw [(h c).1, (hagree c).1, (hagree c).2]
    exact Cert.ReferenceIdeal.RefValue.dprime_eq _ _
  · rw [(h c).2.1, (hagree c).1, (hagree c).2]
    exact Cert.ReferenceIdeal.RefValue.qprime_eq _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
